-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S40x40 : Shape := ⟨2, ![40, 40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_
  bcast_S_S40x40 : S_.BroadcastsInDim S40x40 (![] : Fin 0 → Fin S40x40.rank)
  reducesTo_S40x40_S_d0_1 : S40x40.ReducesTo [0, 1] S_

variable [Facts]

def fn_part3 {F : FTy → Type} [FloatOps F] (main_arg12 : FVec F S40x40 .f32) (main_arg13 : FVec F S40 .f32) (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  let main_v54 : FVec F S40x40 .f32 := Host.absf main_arg12
  let main_cst_20 : FVec F S_ .f32 := constant S_ .f32 0x7F800000#32
  let main_v55 : FVec F S40x40 .f32 := broadcastInDim S40x40 ![] bcast_S_S40x40 main_cst_20
  let main_v56 : IVec S40x40 1 := cmpf .olt main_v54 main_v55
  let main_c_21 : IVec S_ 1 := constantI S_ 1 1#1
  let main_v57 : IVec S_ 1 := (fun x v => Host.reduce IntOp.andi x v reducesTo_S40x40_S_d0_1 h_S_) main_v56 main_c_21
  let main_v58 : IVec S_ 1 := andi main_v53 main_v57
  let main_v59 : FVec F S40 .f32 := Host.absf main_arg13
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  main_v63

def fn_part2 {F : FTy → Type} [FloatOps F] (main_arg8 : FVec F S256 .f32) (main_arg9 : FVec F S256 .f32) (main_arg10 : FVec F S256x40 .f32) (main_arg11 : FVec F S40 .f32) (main_arg12 : FVec F S40x40 .f32) (main_arg13 : FVec F S40 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x40 .f32 := Host.absf main_arg10
  let main_cst_16 : FVec F S_ .f32 := constant S_ .f32 0x7F800000#32
  let main_v45 : FVec F S256x40 .f32 := broadcastInDim S256x40 ![] bcast_S_S256x40 main_cst_16
  let main_v46 : IVec S256x40 1 := cmpf .olt main_v44 main_v45
  let main_c_17 : IVec S_ 1 := constantI S_ 1 1#1
  let main_v47 : IVec S_ 1 := (fun x v => Host.reduce IntOp.andi x v reducesTo_S256x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_arg12 main_arg13 main_v48 main_v49 main_v50

def fn_part1 {F : FTy → Type} [FloatOps F] (main_arg5 : FVec F S256 .f32) (main_arg6 : FVec F S256x256 .f32) (main_arg7 : FVec F S256 .f32) (main_arg8 : FVec F S256 .f32) (main_arg9 : FVec F S256 .f32) (main_arg10 : FVec F S256x40 .f32) (main_arg11 : FVec F S40 .f32) (main_arg12 : FVec F S40x40 .f32) (main_arg13 : FVec F S40 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x800000 32) (main_arg2 : FVec F S128x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : FVec F S256x40 .f32) (main_arg11 : FVec F S40 .f32) (main_arg12 : FVec F S40x40 .f32) (main_arg13 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S40x40 : Shape := ⟨2, ![40, 40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 182
  | .vmem => 37
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S256x40, .f32⟩
  | 11 => ⟨S40, .f32⟩
  | 12 => ⟨S40x40, .f32⟩
  | 13 => ⟨S40, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S50000x256, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x256, .f32⟩
  | 64 => ⟨S850000x1, .f32⟩
  | 65 => ⟨S850000x256, .f32⟩
  | 66 => ⟨S850000x256, .f32⟩
  | 67 => ⟨S_, .f32⟩
  | 68 => ⟨S50000x256, .f32⟩
  | 69 => ⟨S850000x1, .i32⟩
  | 70 => ⟨S50000x256, .f32⟩
  | 71 => ⟨S1x256, .f32⟩
  | 72 => ⟨S50000x256, .f32⟩
  | 73 => ⟨S50000x256, .f32⟩
  | 74 => ⟨S_, .f32⟩
  | 75 => ⟨S256, .f32⟩
  | 76 => ⟨S_, .f32⟩
  | 77 => ⟨S256, .f32⟩
  | 78 => ⟨S256, .f32⟩
  | 79 => ⟨S1x256, .f32⟩
  | 80 => ⟨S_, .i32⟩
  | 81 => ⟨S_, .f32⟩
  | 82 => ⟨S256, .f32⟩
  | 83 => ⟨S1x256, .f32⟩
  | 84 => ⟨S_, .f32⟩
  | 85 => ⟨S1x256, .f32⟩
  | 86 => ⟨S1x256, .f32⟩
  | 87 => ⟨S50000x256, .f32⟩
  | 88 => ⟨S50000x256, .f32⟩
  | 89 => ⟨S50000x256, .f32⟩
  | 90 => ⟨S_, .f32⟩
  | 91 => ⟨S_, .f32⟩
  | 92 => ⟨S_, .f32⟩
  | 93 => ⟨S_, .f32⟩
  | 94 => ⟨S256, .f32⟩
  | 95 => ⟨S256, .f32⟩
  | 96 => ⟨S256, .f32⟩
  | 97 => ⟨S_, .f32⟩
  | 98 => ⟨S_, .i1⟩
  | 99 => ⟨S_, .f32⟩
  | 100 => ⟨S_, .f32⟩
  | 101 => ⟨S256, .f32⟩
  | 102 => ⟨S256, .f32⟩
  | 103 => ⟨S1x256, .f32⟩
  | 104 => ⟨S1x256, .f32⟩
  | 105 => ⟨S1x256, .f32⟩
  | 106 => ⟨S50000x256, .f32⟩
  | 107 => ⟨S50000x256, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x256, .f32⟩
  | 117 => ⟨S850000x1, .f32⟩
  | 118 => ⟨S850000x256, .f32⟩
  | 119 => ⟨S850000x256, .f32⟩
  | 120 => ⟨S_, .f32⟩
  | 121 => ⟨S50000x256, .f32⟩
  | 122 => ⟨S850000x1, .i32⟩
  | 123 => ⟨S50000x256, .f32⟩
  | 124 => ⟨S1x256, .f32⟩
  | 125 => ⟨S50000x256, .f32⟩
  | 126 => ⟨S50000x256, .f32⟩
  | 127 => ⟨S_, .f32⟩
  | _ => ⟨S50000x128, .f32⟩

abbrev hbmTy0_1 (i : Nat) : BufTy := match i % 128 with
  | 0 => ⟨S256, .f32⟩
  | 1 => ⟨S_, .f32⟩
  | 2 => ⟨S256, .f32⟩
  | 3 => ⟨S256, .f32⟩
  | 4 => ⟨S1x256, .f32⟩
  | 5 => ⟨S_, .i32⟩
  | 6 => ⟨S_, .f32⟩
  | 7 => ⟨S256, .f32⟩
  | 8 => ⟨S1x256, .f32⟩
  | 9 => ⟨S_, .f32⟩
  | 10 => ⟨S1x256, .f32⟩
  | 11 => ⟨S1x256, .f32⟩
  | 12 => ⟨S50000x256, .f32⟩
  | 13 => ⟨S50000x256, .f32⟩
  | 14 => ⟨S50000x256, .f32⟩
  | 15 => ⟨S_, .f32⟩
  | 16 => ⟨S_, .f32⟩
  | 17 => ⟨S_, .f32⟩
  | 18 => ⟨S_, .f32⟩
  | 19 => ⟨S256, .f32⟩
  | 20 => ⟨S256, .f32⟩
  | 21 => ⟨S256, .f32⟩
  | 22 => ⟨S_, .f32⟩
  | 23 => ⟨S_, .i1⟩
  | 24 => ⟨S_, .f32⟩
  | 25 => ⟨S_, .f32⟩
  | 26 => ⟨S256, .f32⟩
  | 27 => ⟨S256, .f32⟩
  | 28 => ⟨S1x256, .f32⟩
  | 29 => ⟨S1x256, .f32⟩
  | 30 => ⟨S1x256, .f32⟩
  | 31 => ⟨S50000x256, .f32⟩
  | 32 => ⟨S50000x40, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000x40, .f32⟩
  | 42 => ⟨S850000x1, .f32⟩
  | 43 => ⟨S850000x40, .f32⟩
  | 44 => ⟨S850000x40, .f32⟩
  | 45 => ⟨S_, .f32⟩
  | 46 => ⟨S50000x40, .f32⟩
  | 47 => ⟨S850000x1, .i32⟩
  | 48 => ⟨S50000x40, .f32⟩
  | 49 => ⟨S1x40, .f32⟩
  | 50 => ⟨S50000x40, .f32⟩
  | 51 => ⟨S50000x40, .f32⟩
  | 52 => ⟨S1x40, .f32⟩
  | 53 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | .local _ .vmem, ⟨15, _⟩ => ⟨S256x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S5000x256, .f32⟩
  | .local _ .vmem, ⟨25, _⟩ => ⟨S5000x256, .f32⟩
  | .local _ .vmem, ⟨26, _⟩ => ⟨S5000x256, .f32⟩
  | .local _ .vmem, ⟨27, _⟩ => ⟨S5000x256, .f32⟩
  | .local _ .vmem, ⟨28, _⟩ => ⟨S256x40, .f32⟩
  | .local _ .vmem, ⟨29, _⟩ => ⟨S5000x40, .f32⟩
  | .local _ .vmem, ⟨30, _⟩ => ⟨S5000x40, .f32⟩
  | .local _ .vmem, ⟨31, _⟩ => ⟨S5000x40, .f32⟩
  | .local _ .vmem, ⟨32, _⟩ => ⟨S5000x40, .f32⟩
  | .local _ .vmem, ⟨33, _⟩ => ⟨S40x40, .f32⟩
  | .local _ .vmem, ⟨34, _⟩ => ⟨S1x40, .f32⟩
  | .local _ .vmem, ⟨35, _⟩ => ⟨S5000x40, .f32⟩
  | .local _ .vmem, ⟨36, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_cst_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_cst_1 : Ref sig .tc := ⟨.hbm, 91, rfl⟩
abbrev main_call1_v8 : Ref sig .tc := ⟨.hbm, 92, rfl⟩
abbrev main_call1_cst_2 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_cst_3 : Ref sig .tc := ⟨.hbm, 97, rfl⟩
abbrev main_call1_v12 : Ref sig .tc := ⟨.hbm, 98, rfl⟩
abbrev main_call1_cst_4 : Ref sig .tc := ⟨.hbm, 99, rfl⟩
abbrev main_call1_call0_v0 : Ref sig .tc := ⟨.hbm, 100, rfl⟩
abbrev main_call1_call0_v1 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_c_12 : Ref sig .tc := ⟨.hbm, 108, rfl⟩
abbrev main_v57 : Ref sig .tc := ⟨.hbm, 109, rfl⟩
abbrev main_v58 : Ref sig .tc := ⟨.hbm, 110, rfl⟩
abbrev main_c_13 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_14 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_cst_15 : Ref sig .tc := ⟨.hbm, 127, rfl⟩
abbrev main_v73 : Ref sig .tc := ⟨.hbm, 128, rfl⟩
abbrev main_cst_16 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_c_17 : Ref sig .tc := ⟨.hbm, 133, rfl⟩
abbrev main_call2_cst : Ref sig .tc := ⟨.hbm, 134, rfl⟩
abbrev main_call2_v0 : Ref sig .tc := ⟨.hbm, 135, rfl⟩
abbrev main_call2_v1 : Ref sig .tc := ⟨.hbm, 136, rfl⟩
abbrev main_call2_cst_0 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_v5 : Ref sig .tc := ⟨.hbm, 141, rfl⟩
abbrev main_call2_v6 : Ref sig .tc := ⟨.hbm, 142, rfl⟩
abbrev main_call2_v7 : Ref sig .tc := ⟨.hbm, 143, rfl⟩
abbrev main_call2_cst_1 : Ref sig .tc := ⟨.hbm, 144, rfl⟩
abbrev main_call2_v8 : Ref sig .tc := ⟨.hbm, 145, rfl⟩
abbrev main_call2_cst_2 : Ref sig .tc := ⟨.hbm, 146, rfl⟩
abbrev main_call2_v9 : Ref sig .tc := ⟨.hbm, 147, rfl⟩
abbrev main_call2_v10 : Ref sig .tc := ⟨.hbm, 148, rfl⟩
abbrev main_call2_v11 : Ref sig .tc := ⟨.hbm, 149, rfl⟩
abbrev main_call2_cst_3 : Ref sig .tc := ⟨.hbm, 150, rfl⟩
abbrev main_call2_v12 : Ref sig .tc := ⟨.hbm, 151, rfl⟩
abbrev main_call2_cst_4 : Ref sig .tc := ⟨.hbm, 152, rfl⟩
abbrev main_call2_call0_v0 : Ref sig .tc := ⟨.hbm, 153, rfl⟩
abbrev main_call2_call0_v1 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_c_18 : Ref sig .tc := ⟨.hbm, 161, rfl⟩
abbrev main_v83 : Ref sig .tc := ⟨.hbm, 162, rfl⟩
abbrev main_v84 : Ref sig .tc := ⟨.hbm, 163, rfl⟩
abbrev main_c_19 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_cst_20 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg3_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem3_1 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S40x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  shapeCasts_S256_S1x256 : S256.ShapeCasts S1x256
  bcast_S_S1x256 : S_.BroadcastsInDim S1x256 (![] : Fin 0 → Fin S1x256.rank)
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x256_S256x256_0_0 : ∀ a, (![0, 0] : Fin 2 → Nat) a + S256x256.size a ≤ S256x256.size a
  h_S256x256 : 0 < S256x256.numel
  inb_S256x40_S256x40_0_0 : ∀ a, (![0, 0] : Fin 2 → Nat) a + S256x40.size a ≤ S256x40.size a
  h_S256x40 : 0 < S256x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  shapeCasts_S40_S1x40 : S40.ShapeCasts S1x40
  shapeCasts_S5000x40_S5000x40 : S5000x40.ShapeCasts S5000x40
  inb_S40x40_S40x40_0_0 : ∀ a, (![0, 0] : Fin 2 → Nat) a + S40x40.size a ≤ S40x40.size a
  h_S40x40 : 0 < S40x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x256_S5000x256_1_0_0_1_n_n_wf : DotDims.WF S5000x256 S256x256 S5000x256 [1] [0] [0] [1] [] []
  dot_S5000x256_S256x40_S5000x40_1_0_0_1_n_n_wf : DotDims.WF S5000x256 S256x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  dot_S5000x40_S40x40_S5000x40_1_0_0_1_n_n_wf : DotDims.WF S5000x40 S40x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x256.size a ≤ S50000x256.size a
  hwx3_5 : ∀ i : grid3.Coords, EltTy.bits .f32 = 32 ∨ (Rect.block (s := S50000x256) S5000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S50000x256.size a
  hwx4_0 : ∀ i : grid4.Coords, EltTy.bits .f32 = 32 ∨ (Rect.block (s := S50000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x40.size a ≤ S256x40.size a
  hwx4_1 : ∀ i : grid4.Coords, EltTy.bits .f32 = 32 ∨ (Rect.block (s := S256x40) S256x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S50000x40.size a
  hwx4_2 : ∀ i : grid4.Coords, EltTy.bits .f32 = 32 ∨ (Rect.block (s := S50000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S50000x40.size a
  hwx5_0 : ∀ i : grid5.Coords, EltTy.bits .f32 = 32 ∨ (Rect.block (s := S50000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S40x40.size a ≤ S40x40.size a
  hwx5_1 : ∀ i : grid5.Coords, EltTy.bits .f32 = 32 ∨ (Rect.block (s := S40x40) S40x40.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x40.size a ≤ S50000x40.size a
  hwx5_3 : ∀ i : grid5.Coords, EltTy.bits .f32 = 32 ∨ (Rect.block (s := S50000x40) S5000x40.size (cc5_transform_3 i) (hinb5_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf
def dot_S5000x40_S40x40_S5000x40_1_0_0_1_n_n : DotDims S5000x40 S40x40 S5000x40 where
  lhsContracting := [1]
  rhsContracting := [0]
  lhsNonContracting := [0]
  rhsNonContracting := [1]
  lhsBatch := []
  rhsBatch := []
  wf := dot_S5000x40_S40x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v80) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S5000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v81) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S256x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v82) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v98) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg12) S40x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v99) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v100) S5000x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x256 : Shape := ⟨2, ![256, 256]⟩
abbrev S256x40 : Shape := ⟨2, ![256, 40]⟩
abbrev S40 : Shape := ⟨1, ![40]⟩
abbrev S40x40 : Shape := ⟨2, ![40, 40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 227
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S256x40, .f32⟩
  | 11 => ⟨S40, .f32⟩
  | 12 => ⟨S40x40, .f32⟩
  | 13 => ⟨S40, .f32⟩
  | 14 => ⟨S50000, .i32⟩
  | 15 => ⟨S1x800000, .i32⟩
  | 16 => ⟨S800000, .i32⟩
  | 17 => ⟨S850000, .i32⟩
  | 18 => ⟨S1x800000, .i32⟩
  | 19 => ⟨S800000, .i32⟩
  | 20 => ⟨S850000, .i32⟩
  | 21 => ⟨S_, .f32⟩
  | 22 => ⟨S850000, .f32⟩
  | 23 => ⟨S_, .f32⟩
  | 24 => ⟨S50000, .f32⟩
  | 25 => ⟨S850000x1, .i32⟩
  | 26 => ⟨S50000, .f32⟩
  | 27 => ⟨S_, .f32⟩
  | 28 => ⟨S50000, .f32⟩
  | 29 => ⟨S50000, .i1⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000, .f32⟩
  | 53 => ⟨S850000, .f32⟩
  | 54 => ⟨S50000x256, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x256, .f32⟩
  | 64 => ⟨S850000x1, .f32⟩
  | 65 => ⟨S850000x256, .f32⟩
  | 66 => ⟨S850000x256, .f32⟩
  | 67 => ⟨S_, .f32⟩
  | 68 => ⟨S50000x256, .f32⟩
  | 69 => ⟨S850000x1, .i32⟩
  | 70 => ⟨S50000x256, .f32⟩
  | 71 => ⟨S1x256, .f32⟩
  | 72 => ⟨S50000x256, .f32⟩
  | 73 => ⟨S50000x256, .f32⟩
  | 74 => ⟨S_, .f32⟩
  | 75 => ⟨S256, .f32⟩
  | 76 => ⟨S_, .f32⟩
  | 77 => ⟨S256, .f32⟩
  | 78 => ⟨S256, .f32⟩
  | 79 => ⟨S_, .i32⟩
  | 80 => ⟨S_, .f32⟩
  | 81 => ⟨S256, .f32⟩
  | 82 => ⟨S1x256, .f32⟩
  | 83 => ⟨S_, .f32⟩
  | 84 => ⟨S1x256, .f32⟩
  | 85 => ⟨S1x256, .f32⟩
  | 86 => ⟨S50000x256, .f32⟩
  | 87 => ⟨S50000x256, .f32⟩
  | 88 => ⟨S50000x256, .f32⟩
  | 89 => ⟨S_, .f32⟩
  | 90 => ⟨S_, .f32⟩
  | 91 => ⟨S_, .f32⟩
  | 92 => ⟨S_, .f32⟩
  | 93 => ⟨S256, .f32⟩
  | 94 => ⟨S256, .f32⟩
  | 95 => ⟨S256, .f32⟩
  | 96 => ⟨S_, .f32⟩
  | 97 => ⟨S_, .i1⟩
  | 98 => ⟨S_, .f32⟩
  | 99 => ⟨S_, .f32⟩
  | 100 => ⟨S256, .f32⟩
  | 101 => ⟨S256, .f32⟩
  | 102 => ⟨S1x256, .f32⟩
  | 103 => ⟨S50000x256, .f32⟩
  | 104 => ⟨S50000x256, .f32⟩
  | 105 => ⟨S_, .f32⟩
  | 106 => ⟨S256, .f32⟩
  | 107 => ⟨S256, .f32⟩
  | 108 => ⟨S256, .f32⟩
  | 109 => ⟨S1x256, .f32⟩
  | 110 => ⟨S50000x256, .f32⟩
  | 111 => ⟨S50000x256, .f32⟩
  | 112 => ⟨S1x256, .f32⟩
  | 113 => ⟨S50000x256, .f32⟩
  | 114 => ⟨S50000x256, .f32⟩
  | 115 => ⟨S1x256, .f32⟩
  | 116 => ⟨S50000x256, .f32⟩
  | 117 => ⟨S50000x256, .f32⟩
  | 118 => ⟨S_, .f32⟩
  | 119 => ⟨S50000x256, .f32⟩
  | 120 => ⟨S50000x256, .f32⟩
  | 121 => ⟨S50000x256, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x128, .f32⟩

abbrev hbmTy0_1 (i : Nat) : BufTy := match i % 128 with
  | 0 => ⟨S850000, .i32⟩
  | 1 => ⟨S850000x1, .i32⟩
  | 2 => ⟨S850000x256, .f32⟩
  | 3 => ⟨S850000x1, .f32⟩
  | 4 => ⟨S850000x256, .f32⟩
  | 5 => ⟨S850000x256, .f32⟩
  | 6 => ⟨S_, .f32⟩
  | 7 => ⟨S50000x256, .f32⟩
  | 8 => ⟨S850000x1, .i32⟩
  | 9 => ⟨S50000x256, .f32⟩
  | 10 => ⟨S1x256, .f32⟩
  | 11 => ⟨S50000x256, .f32⟩
  | 12 => ⟨S50000x256, .f32⟩
  | 13 => ⟨S_, .f32⟩
  | 14 => ⟨S256, .f32⟩
  | 15 => ⟨S_, .f32⟩
  | 16 => ⟨S256, .f32⟩
  | 17 => ⟨S256, .f32⟩
  | 18 => ⟨S_, .i32⟩
  | 19 => ⟨S_, .f32⟩
  | 20 => ⟨S256, .f32⟩
  | 21 => ⟨S1x256, .f32⟩
  | 22 => ⟨S_, .f32⟩
  | 23 => ⟨S1x256, .f32⟩
  | 24 => ⟨S1x256, .f32⟩
  | 25 => ⟨S50000x256, .f32⟩
  | 26 => ⟨S50000x256, .f32⟩
  | 27 => ⟨S50000x256, .f32⟩
  | 28 => ⟨S_, .f32⟩
  | 29 => ⟨S_, .f32⟩
  | 30 => ⟨S_, .f32⟩
  | 31 => ⟨S_, .f32⟩
  | 32 => ⟨S256, .f32⟩
  | 33 => ⟨S256, .f32⟩
  | 34 => ⟨S256, .f32⟩
  | 35 => ⟨S_, .f32⟩
  | 36 => ⟨S_, .i1⟩
  | 37 => ⟨S_, .f32⟩
  | 38 => ⟨S_, .f32⟩
  | 39 => ⟨S256, .f32⟩
  | 40 => ⟨S256, .f32⟩
  | 41 => ⟨S1x256, .f32⟩
  | 42 => ⟨S50000x256, .f32⟩
  | 43 => ⟨S50000x256, .f32⟩
  | 44 => ⟨S_, .f32⟩
  | 45 => ⟨S256, .f32⟩
  | 46 => ⟨S256, .f32⟩
  | 47 => ⟨S256, .f32⟩
  | 48 => ⟨S1x256, .f32⟩
  | 49 => ⟨S50000x256, .f32⟩
  | 50 => ⟨S50000x256, .f32⟩
  | 51 => ⟨S1x256, .f32⟩
  | 52 => ⟨S50000x256, .f32⟩
  | 53 => ⟨S50000x256, .f32⟩
  | 54 => ⟨S1x256, .f32⟩
  | 55 => ⟨S50000x256, .f32⟩
  | 56 => ⟨S50000x256, .f32⟩
  | 57 => ⟨S_, .f32⟩
  | 58 => ⟨S50000x256, .f32⟩
  | 59 => ⟨S50000x256, .f32⟩
  | 60 => ⟨S50000x40, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000x40, .f32⟩
  | 70 => ⟨S850000x1, .f32⟩
  | 71 => ⟨S850000x40, .f32⟩
  | 72 => ⟨S850000x40, .f32⟩
  | 73 => ⟨S_, .f32⟩
  | 74 => ⟨S50000x40, .f32⟩
  | 75 => ⟨S850000x1, .i32⟩
  | 76 => ⟨S50000x40, .f32⟩
  | 77 => ⟨S1x40, .f32⟩
  | 78 => ⟨S50000x40, .f32⟩
  | 79 => ⟨S50000x40, .f32⟩
  | 80 => ⟨S50000x40, .f32⟩
  | 81 => ⟨S1x40, .f32⟩
  | 82 => ⟨S50000x40, .f32⟩
  | 83 => ⟨S50000x40, .f32⟩
  | 84 => ⟨S_, .f32⟩
  | 85 => ⟨S50000, .f32⟩
  | 86 => ⟨S_, .f32⟩
  | 87 => ⟨S50000, .f32⟩
  | 88 => ⟨S50000, .f32⟩
  | 89 => ⟨S50000x1, .f32⟩
  | 90 => ⟨S50000x40, .f32⟩
  | 91 => ⟨S50000x40, .f32⟩
  | 92 => ⟨S50000x40, .f32⟩
  | 93 => ⟨S_, .f32⟩
  | 94 => ⟨S50000, .f32⟩
  | 95 => ⟨S50000x1, .f32⟩
  | 96 => ⟨S50000x1, .f32⟩
  | 97 => ⟨S50000x40, .f32⟩
  | 98 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_cst_10 : Ref sig .tc := ⟨.hbm, 76, rfl⟩
abbrev main_v48 : Ref sig .tc := ⟨.hbm, 77, rfl⟩
abbrev main_v49 : Ref sig .tc := ⟨.hbm, 78, rfl⟩
abbrev main_c_11 : Ref sig .tc := ⟨.hbm, 79, rfl⟩
abbrev main_call1_cst : Ref sig .tc := ⟨.hbm, 80, rfl⟩
abbrev main_call1_v0 : Ref sig .tc := ⟨.hbm, 81, rfl⟩
abbrev main_call1_v1 : Ref sig .tc := ⟨.hbm, 82, rfl⟩
abbrev main_call1_cst_0 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_cst_1 : Ref sig .tc := ⟨.hbm, 90, rfl⟩
abbrev main_call1_v8 : Ref sig .tc := ⟨.hbm, 91, rfl⟩
abbrev main_call1_cst_2 : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_cst_3 : Ref sig .tc := ⟨.hbm, 96, rfl⟩
abbrev main_call1_v12 : Ref sig .tc := ⟨.hbm, 97, rfl⟩
abbrev main_call1_cst_4 : Ref sig .tc := ⟨.hbm, 98, rfl⟩
abbrev main_call1_call0_v0 : Ref sig .tc := ⟨.hbm, 99, rfl⟩
abbrev main_call1_call0_v1 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_cst_12 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_call2_cst : Ref sig .tc := ⟨.hbm, 118, rfl⟩
abbrev main_call2_v0 : Ref sig .tc := ⟨.hbm, 119, rfl⟩
abbrev main_v66 : Ref sig .tc := ⟨.hbm, 120, rfl⟩
abbrev main_v67 : Ref sig .tc := ⟨.hbm, 121, rfl⟩
abbrev main_c_13 : Ref sig .tc := ⟨.hbm, 122, rfl⟩
abbrev main_v68 : Ref sig .tc := ⟨.hbm, 123, rfl⟩
abbrev main_v69 : Ref sig .tc := ⟨.hbm, 124, rfl⟩
abbrev main_c_14 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_cst_15 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_cst_16 : Ref sig .tc := ⟨.hbm, 141, rfl⟩
abbrev main_v84 : Ref sig .tc := ⟨.hbm, 142, rfl⟩
abbrev main_cst_17 : Ref sig .tc := ⟨.hbm, 143, rfl⟩
abbrev main_v85 : Ref sig .tc := ⟨.hbm, 144, rfl⟩
abbrev main_v86 : Ref sig .tc := ⟨.hbm, 145, rfl⟩
abbrev main_c_18 : Ref sig .tc := ⟨.hbm, 146, rfl⟩
abbrev main_call3_cst : Ref sig .tc := ⟨.hbm, 147, rfl⟩
abbrev main_call3_v0 : Ref sig .tc := ⟨.hbm, 148, rfl⟩
abbrev main_call3_v1 : Ref sig .tc := ⟨.hbm, 149, rfl⟩
abbrev main_call3_cst_0 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_call3_v5 : Ref sig .tc := ⟨.hbm, 154, rfl⟩
abbrev main_call3_v6 : Ref sig .tc := ⟨.hbm, 155, rfl⟩
abbrev main_call3_v7 : Ref sig .tc := ⟨.hbm, 156, rfl⟩
abbrev main_call3_cst_1 : Ref sig .tc := ⟨.hbm, 157, rfl⟩
abbrev main_call3_v8 : Ref sig .tc := ⟨.hbm, 158, rfl⟩
abbrev main_call3_cst_2 : Ref sig .tc := ⟨.hbm, 159, rfl⟩
abbrev main_call3_v9 : Ref sig .tc := ⟨.hbm, 160, rfl⟩
abbrev main_call3_v10 : Ref sig .tc := ⟨.hbm, 161, rfl⟩
abbrev main_call3_v11 : Ref sig .tc := ⟨.hbm, 162, rfl⟩
abbrev main_call3_cst_3 : Ref sig .tc := ⟨.hbm, 163, rfl⟩
abbrev main_call3_v12 : Ref sig .tc := ⟨.hbm, 164, rfl⟩
abbrev main_call3_cst_4 : Ref sig .tc := ⟨.hbm, 165, rfl⟩
abbrev main_call3_call0_v0 : Ref sig .tc := ⟨.hbm, 166, rfl⟩
abbrev main_call3_call0_v1 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_cst_19 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_call4_cst : Ref sig .tc := ⟨.hbm, 185, rfl⟩
abbrev main_call4_v0 : Ref sig .tc := ⟨.hbm, 186, rfl⟩
abbrev main_v103 : Ref sig .tc := ⟨.hbm, 187, rfl⟩
abbrev main_v104 : Ref sig .tc := ⟨.hbm, 188, rfl⟩
abbrev main_c_20 : Ref sig .tc := ⟨.hbm, 189, rfl⟩
abbrev main_v105 : Ref sig .tc := ⟨.hbm, 190, rfl⟩
abbrev main_v106 : Ref sig .tc := ⟨.hbm, 191, rfl⟩
abbrev main_c_21 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_cst_22 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_call5_cst : Ref sig .tc := ⟨.hbm, 212, rfl⟩
abbrev main_call5_v0 : Ref sig .tc := ⟨.hbm, 213, rfl⟩
abbrev main_call5_cst_0 : Ref sig .tc := ⟨.hbm, 214, rfl⟩
abbrev main_call5_v1 : Ref sig .tc := ⟨.hbm, 215, rfl⟩
abbrev main_call5_v2 : Ref sig .tc := ⟨.hbm, 216, rfl⟩
abbrev main_call5_v3 : Ref sig .tc := ⟨.hbm, 217, rfl⟩
abbrev main_call5_v4 : Ref sig .tc := ⟨.hbm, 218, rfl⟩
abbrev main_call5_v5 : Ref sig .tc := ⟨.hbm, 219, rfl⟩
abbrev main_call5_v6 : Ref sig .tc := ⟨.hbm, 220, rfl⟩
abbrev main_call5_cst_1 : Ref sig .tc := ⟨.hbm, 221, rfl⟩
abbrev main_call5_v7 : Ref sig .tc := ⟨.hbm, 222, rfl⟩
abbrev main_call5_v8 : Ref sig .tc := ⟨.hbm, 223, rfl⟩
abbrev main_call5_v9 : Ref sig .tc := ⟨.hbm, 224, rfl⟩
abbrev main_call5_v10 : Ref sig .tc := ⟨.hbm, 225, rfl⟩
abbrev main_v125 : Ref sig .tc := ⟨.hbm, 226, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []
  dot_S50000x256_S256x40_S50000x40_1_0_0_1_n_n_wf : DotDims.WF S50000x256 S256x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  dot_S50000x40_S40x40_S50000x40_1_0_0_1_n_n_wf : DotDims.WF S50000x40 S40x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf
def dot_S50000x40_S40x40_S50000x40_1_0_0_1_n_n : DotDims S50000x40 S40x40 S50000x40 where
  lhsContracting := [1]
  rhsContracting := [0]
  lhsNonContracting := [0]
  rhsNonContracting := [1]
  lhsBatch := []
  rhsBatch := []
  wf := dot_S50000x40_S40x40_S50000x40_1_0_0_1_n_n_wf

class Facts : Prop extends Facts₀ where

variable [Facts]
-- ==== Proof.KernelRun.lean ====
/- The value run of the kernel program: the launch of @main on the TensorCores, with the RESULT array kept.

   @main runs as sixteen segments (host stretches and pipelined regions, `Gen.segs`) from the launch memory `m`,
   through the boundary contents `Gen.W0 … Gen.W16`: a host stretch leaves `StableHlo.after` of its operations, a
   region leaves its arrays at what its write-backs fold to and every other buffer as entered.  The last thread state
   is "every unscoped buffer of the TensorCore held at `Gen.W16 m ρ c`".  Read against the final machine state it
   gives the memory at each such buffer.  The result buffer `main_v100` is one of them (an unscoped buffer), so it
   holds `Gen.W16 m ρ c` at that buffer; no segment writes an argument array, so each is as launched. -/
import proofs.«143667_j15642270892451_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- From any memory `m` with zero counters, every weakly fair execution of @main on the TensorCores terminates, nothing
    faulting, and in every final state the result buffer holds the last boundary's contents `Gen.W16 m ρ c` at that
    buffer, and every argument array is as launched.  The segments' launch ends in the thread state "every unscoped
    buffer held at `W16`"; read against the final state this gives the machine's memory at each such buffer, of which
    the result buffer is one; each argument's contents walk back through the fold to the launch memory. -/
theorem run : θ_run defs (onTc (τ := τ) (main (F := F))) ⟨m, fun _ => 0, ρ⟩ (fun r => ∀ c : Dev nD,
      r.2.mem ((c.tc : Thread nD τ).loc main_v100) = Gen.W16 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (Gen.mem_uc main_v100 (by decide)),
       (h c _ (Gen.mem_uc main_arg0 (by decide))).trans (Gen.W16_main_arg0 m ρ c),
       (h c _ (Gen.mem_uc main_arg1 (by decide))).trans (Gen.W16_main_arg1 m ρ c),
       (h c _ (Gen.mem_uc main_arg2 (by decide))).trans (Gen.W16_main_arg2 m ρ c),
       (h c _ (Gen.mem_uc main_arg3 (by decide))).trans (Gen.W16_main_arg3 m ρ c),
       (h c _ (Gen.mem_uc main_arg4 (by decide))).trans (Gen.W16_main_arg4 m ρ c),
       (h c _ (Gen.mem_uc main_arg5 (by decide))).trans (Gen.W16_main_arg5 m ρ c),
       (h c _ (Gen.mem_uc main_arg6 (by decide))).trans (Gen.W16_main_arg6 m ρ c),
       (h c _ (Gen.mem_uc main_arg7 (by decide))).trans (Gen.W16_main_arg7 m ρ c),
       (h c _ (Gen.mem_uc main_arg8 (by decide))).trans (Gen.W16_main_arg8 m ρ c),
       (h c _ (Gen.mem_uc main_arg9 (by decide))).trans (Gen.W16_main_arg9 m ρ c),
       (h c _ (Gen.mem_uc main_arg10 (by decide))).trans (Gen.W16_main_arg10 m ρ c),
       (h c _ (Gen.mem_uc main_arg11 (by decide))).trans (Gen.W16_main_arg11 m ρ c),
       (h c _ (Gen.mem_uc main_arg12 (by decide))).trans (Gen.W16_main_arg12 m ρ c),
       (h c _ (Gen.mem_uc main_arg13 (by decide))).trans (Gen.W16_main_arg13 m ρ c)⟩)

end Cert.KernelIdeal.KRun

end
-- ==== Proof.RefOps.lean ====
/-
  The reference program's @main restated as the LIST of its host operations, cut into the stretches of the
  network it computes: the graph's structure, then per layer a dense transform, the message passing over the
  edges, the batch statistics and the normalisation with its rectifier, and at the end the classifier with its
  log-softmax. A function the program calls is listed at its call site, over that call's own buffers. The
  program is the run of the whole list in order (`main_eq`), every operation touches device buffers only
  (`all_sub`), and so its run ends with every buffer at the fold of the operations' results over the launch
  contents (`run`).
-/
import proofs.«143667_j15642270892451_1_alg».proof.Proof.Gen.ReferenceIdeal
import Idealize.ShloMosaic.Lib.StableHlo.Run

noncomputable section

namespace Cert.ReferenceIdeal.RefOps

open Cert.ReferenceIdeal Cert.ReferenceIdeal.Facts₀ Cert.ReferenceIdeal.Facts Idealize.ShloMosaic Idealize.ShloMosaic.TcCoe Idealize.SL.Sem

variable {F : FTy → Type} [FloatOps F]

/-- The graph's structure: source and destination node numbers with the self loops appended, the in-degrees by a scatter-add of ones, their inverse square roots (zero where the degree is zero), and each edge's weight, the product of its two ends' inverse root degrees. (40 operations.) -/
abbrev graph : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v13 : StableHlo.TRef sig ⟨S50000, .f32⟩) (.of main_call0_v1 : StableHlo.TRef sig ⟨S50000, .f32⟩) (.of main_v14 : StableHlo.TRef sig ⟨S50000, .f32⟩) select,
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)) ]

theorem graph_sub : (graph : List (HloOp τ sig (Elt F))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

/-- Layer 1's dense transform, one matrix product of the node features with the first weight matrix. (1 operations.) -/
abbrev dot1 : List (HloOp τ sig (Elt F)) :=
  [ StableHlo.binary main_arg0 main_arg2 main_v30 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ]

theorem dot1_sub : (dot1 : List (HloOp τ sig (Elt F))).Forall fun op => op.bufs ⊆ StableHlo.tcRefs τ sig :=
  StableHlo.binary_bufs_sub ..

/-- Layer 1's message passing: the transformed rows gathered at the edges' sources, scaled by the edge weights, scatter-added at the destinations, plus the bias row. (19 operations.) -/
abbrev conv1 : List (HloOp τ sig (Elt F)) :=
  [ StableHlo.nullary main_c_6 (constantI S_ 32 0#32),
    StableHlo.unary main_c_6 main_v31 (broadcastInDim S850000 ![] bcast_S_S850000 : (⟨S_, .i32⟩ : BufTy).Contents (Elt F) → (⟨S850000, .i32⟩ : BufTy).Contents (Elt F)),
    StableHlo.binary main_v3 main_v31 main_v32 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (addi : (⟨S850000, .i32⟩ : BufTy).Contents (Elt F) → (⟨S850000, .i32⟩ : BufTy).Contents (Elt F) → (⟨S850000, .i32⟩ : BufTy).Contents (Elt F)),
    StableHlo.ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v35 main_v36 (broadcastInDim S850000x1 ![0] bcast_S850000_S850000x1_0 : (⟨S850000, .i32⟩ : BufTy).Contents (Elt F) → (⟨S850000x1, .i32⟩ : BufTy).Contents (Elt F)),
    StableHlo.binary main_v30 main_v36 main_v37 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v38 (broadcastInDim S850000x1 ![0] bcast_S850000_S850000x1_0 : (⟨S850000, .f32⟩ : BufTy).Contents (Elt F) → (⟨S850000x1, .f32⟩ : BufTy).Contents (Elt F)),
    StableHlo.unary main_v38 main_v39 (broadcastInDim S850000x256 ![0, 1] bcast_S850000x1_S850000x256_0_1 : (⟨S850000x1, .f32⟩ : BufTy).Contents (Elt F) → (⟨S850000x256, .f32⟩ : BufTy).Contents (Elt F)),
    StableHlo.binary main_v37 main_v39 main_v40 (mulf : (⟨S850000x256, .f32⟩ : BufTy).Contents (Elt F) → (⟨S850000x256, .f32⟩ : BufTy).Contents (Elt F) → (⟨S850000x256, .f32⟩ : BufTy).Contents (Elt F)),
    StableHlo.nullary main_cst_8 (constant S_ .f32 0x00000000#32),
    StableHlo.unary main_cst_8 main_v41 (broadcastInDim S50000x256 ![] bcast_S_S50000x256 : (⟨S_, .f32⟩ : BufTy).Contents (Elt F) → (⟨S50000x256, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg3 main_v44 (broadcastInDim S1x256 ![1] bcast_S256_S1x256_1 : (⟨S256, .f32⟩ : BufTy).Contents (Elt F) → (⟨S1x256, .f32⟩ : BufTy).Contents (Elt F)),
    StableHlo.unary main_v44 main_v45 (broadcastInDim S50000x256 ![0, 1] bcast_S1x256_S50000x256_0_1 : (⟨S1x256, .f32⟩ : BufTy).Contents (Elt F) → (⟨S50000x256, .f32⟩ : BufTy).Contents (Elt F)),
    StableHlo.binary main_v43 main_v45 main_v46 (addf : (⟨S50000x256, .f32⟩ : BufTy).Contents (Elt F) → (⟨S50000x256, .f32⟩ : BufTy).Contents (Elt F) → (⟨S50000x256, .f32⟩ : BufTy).Contents (Elt F)) ]

theorem conv1_sub : (conv1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

/-- Layer 1's batch statistics: the column means (sum over the nodes divided by their number) and the biased column variances (mean of the squared deviations). (28 operations.) -/
abbrev stats1 : List (HloOp τ sig (Elt F)) :=
  [ StableHlo.nullary main_cst_9 (constant S_ .f32 0x00000000#32),
    StableHlo.binary main_v46 main_cst_9 main_v47 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_10 (constant S_ .f32 0x47435000#32),
    StableHlo.unary main_cst_10 main_v48 (broadcastInDim S256 ![] bcast_S_S256 : (⟨S_, .f32⟩ : BufTy).Contents (Elt F) → (⟨S256, .f32⟩ : BufTy).Contents (Elt F)),
    StableHlo.binary main_v47 main_v48 main_v49 (Host.divf : (⟨S256, .f32⟩ : BufTy).Contents (Elt F) → (⟨S256, .f32⟩ : BufTy).Contents (Elt F) → (⟨S256, .f32⟩ : BufTy).Contents (Elt F)),
    StableHlo.nullary main_c_11 (constantI S_ 32 0#32),
    StableHlo.TRef.nullary (.of main_call1_cst : StableHlo.TRef sig ⟨S_, .f32⟩) (constant S_ .f32 0x00000000#32),
    StableHlo.TRef.binary (.of main_v46 : StableHlo.TRef sig ⟨S50000x256, .f32⟩) (.of main_call1_cst : StableHlo.TRef sig ⟨S_, .f32⟩) (.of main_call1_v0 : StableHlo.TRef sig ⟨S256, .f32⟩) (fun x v => Host.reduceAdd x v reducesTo_S50000x256_S256_d0 h_S_),
    StableHlo.TRef.unary (.of main_call1_v0 : StableHlo.TRef sig ⟨S256, .f32⟩) (.of main_call1_v1 : StableHlo.TRef sig ⟨S1x256, .f32⟩) (broadcastInDim S1x256 ![1] bcast_S256_S1x256_1),
    StableHlo.TRef.nullary (.of main_call1_cst_0 : StableHlo.TRef sig ⟨S_, .f32⟩) (constant S_ .f32 0x47435000#32),
    StableHlo.TRef.unary (.of main_call1_cst_0 : StableHlo.TRef sig ⟨S_, .f32⟩) (.of main_call1_v2 : StableHlo.TRef sig ⟨S1x256, .f32⟩) (broadcastInDim S1x256 ![] bcast_S_S1x256),
    StableHlo.TRef.binary (.of main_call1_v1 : StableHlo.TRef sig ⟨S1x256, .f32⟩) (.of main_call1_v2 : StableHlo.TRef sig ⟨S1x256, .f32⟩) (.of main_call1_v3 : StableHlo.TRef sig ⟨S1x256, .f32⟩) Host.divf,
    StableHlo.TRef.unary (.of main_call1_v3 : StableHlo.TRef sig ⟨S1x256, .f32⟩) (.of main_call1_v4 : StableHlo.TRef sig ⟨S50000x256, .f32⟩) (broadcastInDim S50000x256 ![0, 1] bcast_S1x256_S50000x256_0_1),
    StableHlo.TRef.binary (.of main_v46 : StableHlo.TRef sig ⟨S50000x256, .f32⟩) (.of main_call1_v4 : StableHlo.TRef sig ⟨S50000x256, .f32⟩) (.of main_call1_v5 : StableHlo.TRef sig ⟨S50000x256, .f32⟩) subf,
    StableHlo.TRef.binary (.of main_call1_v5 : StableHlo.TRef sig ⟨S50000x256, .f32⟩) (.of main_call1_v5 : StableHlo.TRef sig ⟨S50000x256, .f32⟩) (.of main_call1_v6 : StableHlo.TRef sig ⟨S50000x256, .f32⟩) mulf,
    StableHlo.TRef.unary (.of main_c_11 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47435000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S50000x256, .f32⟩) (.of main_call1_cst_2 : StableHlo.TRef sig ⟨S_, .f32⟩) (.of main_call1_v9 : StableHlo.TRef sig ⟨S256, .f32⟩) (fun x v => Host.reduceAdd x v reducesTo_S50000x256_S256_d0 h_S_),
    StableHlo.TRef.unary (.of main_call1_v8 : StableHlo.TRef sig ⟨S_, .f32⟩) (.of main_call1_v10 : StableHlo.TRef sig ⟨S256, .f32⟩) (broadcastInDim S256 ![] bcast_S_S256),
    StableHlo.TRef.binary (.of main_call1_v9 : StableHlo.TRef sig ⟨S256, .f32⟩) (.of main_call1_v10 : StableHlo.TRef sig ⟨S256, .f32⟩) (.of main_call1_v11 : StableHlo.TRef sig ⟨S256, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S256, .f32⟩) (broadcastInDim S256 ![] bcast_S_S256),
    StableHlo.TRef.ternary (.of main_call1_v12 : StableHlo.TRef sig ⟨S_, .i1⟩) (.of main_call1_v11 : StableHlo.TRef sig ⟨S256, .f32⟩) (.of main_call1_call0_v1 : StableHlo.TRef sig ⟨S256, .f32⟩) (.of main_v50 : StableHlo.TRef sig ⟨S256, .f32⟩) (fun p a b => select (broadcastInDim S256 ![] bcast_S_S256 p) a b) ]

theorem stats1_sub : (stats1 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

/-- Layer 1's normalisation and rectifier: subtract the mean, multiply by the inverse root of variance plus epsilon, scale, shift, and clamp below at zero. (19 operations.) -/
abbrev bn1 : List (HloOp τ sig (Elt F)) :=
  [ StableHlo.unary main_v49 main_v51 (broadcastInDim S1x256 ![1] bcast_S256_S1x256_1 : (⟨S256, .f32⟩ : BufTy).Contents (Elt F) → (⟨S1x256, .f32⟩ : BufTy).Contents (Elt F)),
    StableHlo.unary main_v51 main_v52 (broadcastInDim S50000x256 ![0, 1] bcast_S1x256_S50000x256_0_1 : (⟨S1x256, .f32⟩ : BufTy).Contents (Elt F) → (⟨S50000x256, .f32⟩ : BufTy).Contents (Elt F)),
    StableHlo.binary main_v46 main_v52 main_v53 (subf : (⟨S50000x256, .f32⟩ : BufTy).Contents (Elt F) → (⟨S50000x256, .f32⟩ : BufTy).Contents (Elt F) → (⟨S50000x256, .f32⟩ : BufTy).Contents (Elt F)),
    StableHlo.nullary main_cst_12 (constant S_ .f32 0x3727C5AC#32),
    StableHlo.unary main_cst_12 main_v54 (broadcastInDim S256 ![] bcast_S_S256 : (⟨S_, .f32⟩ : BufTy).Contents (Elt F) → (⟨S256, .f32⟩ : BufTy).Contents (Elt F)),
    StableHlo.binary main_v50 main_v54 main_v55 (addf : (⟨S256, .f32⟩ : BufTy).Contents (Elt F) → (⟨S256, .f32⟩ : BufTy).Contents (Elt F) → (⟨S256, .f32⟩ : BufTy).Contents (Elt F)),
    StableHlo.unary main_v55 main_v56 (Host.rsqrt : (⟨S256, .f32⟩ : BufTy).Contents (Elt F) → (⟨S256, .f32⟩ : BufTy).Contents (Elt F)),
    StableHlo.unary main_v56 main_v57 (broadcastInDim S1x256 ![1] bcast_S256_S1x256_1 : (⟨S256, .f32⟩ : BufTy).Contents (Elt F) → (⟨S1x256, .f32⟩ : BufTy).Contents (Elt F)),
    StableHlo.unary main_v57 main_v58 (broadcastInDim S50000x256 ![0, 1] bcast_S1x256_S50000x256_0_1 : (⟨S1x256, .f32⟩ : BufTy).Contents (Elt F) → (⟨S50000x256, .f32⟩ : BufTy).Contents (Elt F)),
    StableHlo.binary main_v53 main_v58 main_v59 (mulf : (⟨S50000x256, .f32⟩ : BufTy).Contents (Elt F) → (⟨S50000x256, .f32⟩ : BufTy).Contents (Elt F) → (⟨S50000x256, .f32⟩ : BufTy).Contents (Elt F)),
    StableHlo.unary main_arg4 main_v60 (broadcastInDim S1x256 ![1] bcast_S256_S1x256_1 : (⟨S256, .f32⟩ : BufTy).Contents (Elt F) → (⟨S1x256, .f32⟩ : BufTy).Contents (Elt F)),
    StableHlo.unary main_v60 main_v61 (broadcastInDim S50000x256 ![0, 1] bcast_S1x256_S50000x256_0_1 : (⟨S1x256, .f32⟩ : BufTy).Contents (Elt F) → (⟨S50000x256, .f32⟩ : BufTy).Contents (Elt F)),
    StableHlo.binary main_v59 main_v61 main_v62 (mulf : (⟨S50000x256, .f32⟩ : BufTy).Contents (Elt F) → (⟨S50000x256, .f32⟩ : BufTy).Contents (Elt F) → (⟨S50000x256, .f32⟩ : BufTy).Contents (Elt F)),
    StableHlo.unary main_arg5 main_v63 (broadcastInDim S1x256 ![1] bcast_S256_S1x256_1 : (⟨S256, .f32⟩ : BufTy).Contents (Elt F) → (⟨S1x256, .f32⟩ : BufTy).Contents (Elt F)),
    StableHlo.unary main_v63 main_v64 (broadcastInDim S50000x256 ![0, 1] bcast_S1x256_S50000x256_0_1 : (⟨S1x256, .f32⟩ : BufTy).Contents (Elt F) → (⟨S50000x256, .f32⟩ : BufTy).Contents (Elt F)),
    StableHlo.binary main_v62 main_v64 main_v65 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x256, .f32⟩) (broadcastInDim S50000x256 ![] bcast_S_S50000x256),
    StableHlo.TRef.binary (.of main_v65 : StableHlo.TRef sig ⟨S50000x256, .f32⟩) (.of main_call2_v0 : StableHlo.TRef sig ⟨S50000x256, .f32⟩) (.of main_v66 : StableHlo.TRef sig ⟨S50000x256, .f32⟩) maximumf ]

theorem bn1_sub : (bn1 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Layer 2's dense transform. (1 operations.) -/
abbrev dot2 : List (HloOp τ sig (Elt F)) :=
  [ StableHlo.binary main_v66 main_arg6 main_v67 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

theorem dot2_sub : (dot2 : List (HloOp τ sig (Elt F))).Forall fun op => op.bufs ⊆ StableHlo.tcRefs τ sig :=
  StableHlo.binary_bufs_sub ..

/-- Layer 2's message passing. (19 operations.) -/
abbrev conv2 : List (HloOp τ sig (Elt F)) :=
  [ StableHlo.nullary main_c_13 (constantI S_ 32 0#32),
    StableHlo.unary main_c_13 main_v68 (broadcastInDim S850000 ![] bcast_S_S850000 : (⟨S_, .i32⟩ : BufTy).Contents (Elt F) → (⟨S850000, .i32⟩ : BufTy).Contents (Elt F)),
    StableHlo.binary main_v3 main_v68 main_v69 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v70 (broadcastInDim S850000 ![] bcast_S_S850000 : (⟨S_, .i32⟩ : BufTy).Contents (Elt F) → (⟨S850000, .i32⟩ : BufTy).Contents (Elt F)),
    StableHlo.binary main_v3 main_v70 main_v71 (addi : (⟨S850000, .i32⟩ : BufTy).Contents (Elt F) → (⟨S850000, .i32⟩ : BufTy).Contents (Elt F) → (⟨S850000, .i32⟩ : BufTy).Contents (Elt F)),
    StableHlo.ternary main_v69 main_v71 main_v3 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v72 main_v73 (broadcastInDim S850000x1 ![0] bcast_S850000_S850000x1_0 : (⟨S850000, .i32⟩ : BufTy).Contents (Elt F) → (⟨S850000x1, .i32⟩ : BufTy).Contents (Elt F)),
    StableHlo.binary main_v67 main_v73 main_v74 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v29 main_v75 (broadcastInDim S850000x1 ![0] bcast_S850000_S850000x1_0 : (⟨S850000, .f32⟩ : BufTy).Contents (Elt F) → (⟨S850000x1, .f32⟩ : BufTy).Contents (Elt F)),
    StableHlo.unary main_v75 main_v76 (broadcastInDim S850000x256 ![0, 1] bcast_S850000x1_S850000x256_0_1 : (⟨S850000x1, .f32⟩ : BufTy).Contents (Elt F) → (⟨S850000x256, .f32⟩ : BufTy).Contents (Elt F)),
    StableHlo.binary main_v74 main_v76 main_v77 (mulf : (⟨S850000x256, .f32⟩ : BufTy).Contents (Elt F) → (⟨S850000x256, .f32⟩ : BufTy).Contents (Elt F) → (⟨S850000x256, .f32⟩ : BufTy).Contents (Elt F)),
    StableHlo.nullary main_cst_15 (constant S_ .f32 0x00000000#32),
    StableHlo.unary main_cst_15 main_v78 (broadcastInDim S50000x256 ![] bcast_S_S50000x256 : (⟨S_, .f32⟩ : BufTy).Contents (Elt F) → (⟨S50000x256, .f32⟩ : BufTy).Contents (Elt F)),
    StableHlo.unary main_v6 main_v79 (broadcastInDim S850000x1 ![0] bcast_S850000_S850000x1_0 : (⟨S850000, .i32⟩ : BufTy).Contents (Elt F) → (⟨S850000x1, .i32⟩ : BufTy).Contents (Elt F)),
    StableHlo.ternary main_v78 main_v79 main_v77 main_v80 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg7 main_v81 (broadcastInDim S1x256 ![1] bcast_S256_S1x256_1 : (⟨S256, .f32⟩ : BufTy).Contents (Elt F) → (⟨S1x256, .f32⟩ : BufTy).Contents (Elt F)),
    StableHlo.unary main_v81 main_v82 (broadcastInDim S50000x256 ![0, 1] bcast_S1x256_S50000x256_0_1 : (⟨S1x256, .f32⟩ : BufTy).Contents (Elt F) → (⟨S50000x256, .f32⟩ : BufTy).Contents (Elt F)),
    StableHlo.binary main_v80 main_v82 main_v83 (addf : (⟨S50000x256, .f32⟩ : BufTy).Contents (Elt F) → (⟨S50000x256, .f32⟩ : BufTy).Contents (Elt F) → (⟨S50000x256, .f32⟩ : BufTy).Contents (Elt F)) ]

theorem conv2_sub : (conv2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

/-- Layer 2's batch statistics. (28 operations.) -/
abbrev stats2 : List (HloOp τ sig (Elt F)) :=
  [ StableHlo.nullary main_cst_16 (constant S_ .f32 0x00000000#32),
    StableHlo.binary main_v83 main_cst_16 main_v84 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_17 (constant S_ .f32 0x47435000#32),
    StableHlo.unary main_cst_17 main_v85 (broadcastInDim S256 ![] bcast_S_S256 : (⟨S_, .f32⟩ : BufTy).Contents (Elt F) → (⟨S256, .f32⟩ : BufTy).Contents (Elt F)),
    StableHlo.binary main_v84 main_v85 main_v86 (Host.divf : (⟨S256, .f32⟩ : BufTy).Contents (Elt F) → (⟨S256, .f32⟩ : BufTy).Contents (Elt F) → (⟨S256, .f32⟩ : BufTy).Contents (Elt F)),
    StableHlo.nullary main_c_18 (constantI S_ 32 0#32),
    StableHlo.TRef.nullary (.of main_call3_cst : StableHlo.TRef sig ⟨S_, .f32⟩) (constant S_ .f32 0x00000000#32),
    StableHlo.TRef.binary (.of main_v83 : StableHlo.TRef sig ⟨S50000x256, .f32⟩) (.of main_call3_cst : StableHlo.TRef sig ⟨S_, .f32⟩) (.of main_call3_v0 : StableHlo.TRef sig ⟨S256, .f32⟩) (fun x v => Host.reduceAdd x v reducesTo_S50000x256_S256_d0 h_S_),
    StableHlo.TRef.unary (.of main_call3_v0 : StableHlo.TRef sig ⟨S256, .f32⟩) (.of main_call3_v1 : StableHlo.TRef sig ⟨S1x256, .f32⟩) (broadcastInDim S1x256 ![1] bcast_S256_S1x256_1),
    StableHlo.TRef.nullary (.of main_call3_cst_0 : StableHlo.TRef sig ⟨S_, .f32⟩) (constant S_ .f32 0x47435000#32),
    StableHlo.TRef.unary (.of main_call3_cst_0 : StableHlo.TRef sig ⟨S_, .f32⟩) (.of main_call3_v2 : StableHlo.TRef sig ⟨S1x256, .f32⟩) (broadcastInDim S1x256 ![] bcast_S_S1x256),
    StableHlo.TRef.binary (.of main_call3_v1 : StableHlo.TRef sig ⟨S1x256, .f32⟩) (.of main_call3_v2 : StableHlo.TRef sig ⟨S1x256, .f32⟩) (.of main_call3_v3 : StableHlo.TRef sig ⟨S1x256, .f32⟩) Host.divf,
    StableHlo.TRef.unary (.of main_call3_v3 : StableHlo.TRef sig ⟨S1x256, .f32⟩) (.of main_call3_v4 : StableHlo.TRef sig ⟨S50000x256, .f32⟩) (broadcastInDim S50000x256 ![0, 1] bcast_S1x256_S50000x256_0_1),
    StableHlo.TRef.binary (.of main_v83 : StableHlo.TRef sig ⟨S50000x256, .f32⟩) (.of main_call3_v4 : StableHlo.TRef sig ⟨S50000x256, .f32⟩) (.of main_call3_v5 : StableHlo.TRef sig ⟨S50000x256, .f32⟩) subf,
    StableHlo.TRef.binary (.of main_call3_v5 : StableHlo.TRef sig ⟨S50000x256, .f32⟩) (.of main_call3_v5 : StableHlo.TRef sig ⟨S50000x256, .f32⟩) (.of main_call3_v6 : StableHlo.TRef sig ⟨S50000x256, .f32⟩) mulf,
    StableHlo.TRef.unary (.of main_c_18 : StableHlo.TRef sig ⟨S_, .i32⟩) (.of main_call3_v7 : StableHlo.TRef sig ⟨S_, .f32⟩) (sitofp .f32),
    StableHlo.TRef.nullary (.of main_call3_cst_1 : StableHlo.TRef sig ⟨S_, .f32⟩) (constant S_ .f32 0x47435000#32),
    StableHlo.TRef.binary (.of main_call3_cst_1 : StableHlo.TRef sig ⟨S_, .f32⟩) (.of main_call3_v7 : StableHlo.TRef sig ⟨S_, .f32⟩) (.of main_call3_v8 : StableHlo.TRef sig ⟨S_, .f32⟩) subf,
    StableHlo.TRef.nullary (.of main_call3_cst_2 : StableHlo.TRef sig ⟨S_, .f32⟩) (constant S_ .f32 0x00000000#32),
    StableHlo.TRef.binary (.of main_call3_v6 : StableHlo.TRef sig ⟨S50000x256, .f32⟩) (.of main_call3_cst_2 : StableHlo.TRef sig ⟨S_, .f32⟩) (.of main_call3_v9 : StableHlo.TRef sig ⟨S256, .f32⟩) (fun x v => Host.reduceAdd x v reducesTo_S50000x256_S256_d0 h_S_),
    StableHlo.TRef.unary (.of main_call3_v8 : StableHlo.TRef sig ⟨S_, .f32⟩) (.of main_call3_v10 : StableHlo.TRef sig ⟨S256, .f32⟩) (broadcastInDim S256 ![] bcast_S_S256),
    StableHlo.TRef.binary (.of main_call3_v9 : StableHlo.TRef sig ⟨S256, .f32⟩) (.of main_call3_v10 : StableHlo.TRef sig ⟨S256, .f32⟩) (.of main_call3_v11 : StableHlo.TRef sig ⟨S256, .f32⟩) Host.divf,
    StableHlo.TRef.nullary (.of main_call3_cst_3 : StableHlo.TRef sig ⟨S_, .f32⟩) (constant S_ .f32 0x00000000#32),
    StableHlo.TRef.binary (.of main_call3_v8 : StableHlo.TRef sig ⟨S_, .f32⟩) (.of main_call3_cst_3 : StableHlo.TRef sig ⟨S_, .f32⟩) (.of main_call3_v12 : StableHlo.TRef sig ⟨S_, .i1⟩) (cmpf .ogt),
    StableHlo.TRef.nullary (.of main_call3_cst_4 : StableHlo.TRef sig ⟨S_, .f32⟩) (constant S_ .f32 0x7FC00000#32),
    StableHlo.TRef.unary (.of main_call3_cst_4 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S256, .f32⟩) (broadcastInDim S256 ![] bcast_S_S256),
    StableHlo.TRef.ternary (.of main_call3_v12 : StableHlo.TRef sig ⟨S_, .i1⟩) (.of main_call3_v11 : StableHlo.TRef sig ⟨S256, .f32⟩) (.of main_call3_call0_v1 : StableHlo.TRef sig ⟨S256, .f32⟩) (.of main_v87 : StableHlo.TRef sig ⟨S256, .f32⟩) (fun p a b => select (broadcastInDim S256 ![] bcast_S_S256 p) a b) ]

theorem stats2_sub : (stats2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

/-- Layer 2's normalisation and rectifier. (19 operations.) -/
abbrev bn2 : List (HloOp τ sig (Elt F)) :=
  [ StableHlo.unary main_v86 main_v88 (broadcastInDim S1x256 ![1] bcast_S256_S1x256_1 : (⟨S256, .f32⟩ : BufTy).Contents (Elt F) → (⟨S1x256, .f32⟩ : BufTy).Contents (Elt F)),
    StableHlo.unary main_v88 main_v89 (broadcastInDim S50000x256 ![0, 1] bcast_S1x256_S50000x256_0_1 : (⟨S1x256, .f32⟩ : BufTy).Contents (Elt F) → (⟨S50000x256, .f32⟩ : BufTy).Contents (Elt F)),
    StableHlo.binary main_v83 main_v89 main_v90 (subf : (⟨S50000x256, .f32⟩ : BufTy).Contents (Elt F) → (⟨S50000x256, .f32⟩ : BufTy).Contents (Elt F) → (⟨S50000x256, .f32⟩ : BufTy).Contents (Elt F)),
    StableHlo.nullary main_cst_19 (constant S_ .f32 0x3727C5AC#32),
    StableHlo.unary main_cst_19 main_v91 (broadcastInDim S256 ![] bcast_S_S256 : (⟨S_, .f32⟩ : BufTy).Contents (Elt F) → (⟨S256, .f32⟩ : BufTy).Contents (Elt F)),
    StableHlo.binary main_v87 main_v91 main_v92 (addf : (⟨S256, .f32⟩ : BufTy).Contents (Elt F) → (⟨S256, .f32⟩ : BufTy).Contents (Elt F) → (⟨S256, .f32⟩ : BufTy).Contents (Elt F)),
    StableHlo.unary main_v92 main_v93 (Host.rsqrt : (⟨S256, .f32⟩ : BufTy).Contents (Elt F) → (⟨S256, .f32⟩ : BufTy).Contents (Elt F)),
    StableHlo.unary main_v93 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S50000x256 ![0, 1] bcast_S1x256_S50000x256_0_1 : (⟨S1x256, .f32⟩ : BufTy).Contents (Elt F) → (⟨S50000x256, .f32⟩ : BufTy).Contents (Elt F)),
    StableHlo.binary main_v90 main_v95 main_v96 (mulf : (⟨S50000x256, .f32⟩ : BufTy).Contents (Elt F) → (⟨S50000x256, .f32⟩ : BufTy).Contents (Elt F) → (⟨S50000x256, .f32⟩ : BufTy).Contents (Elt F)),
    StableHlo.unary main_arg8 main_v97 (broadcastInDim S1x256 ![1] bcast_S256_S1x256_1 : (⟨S256, .f32⟩ : BufTy).Contents (Elt F) → (⟨S1x256, .f32⟩ : BufTy).Contents (Elt F)),
    StableHlo.unary main_v97 main_v98 (broadcastInDim S50000x256 ![0, 1] bcast_S1x256_S50000x256_0_1 : (⟨S1x256, .f32⟩ : BufTy).Contents (Elt F) → (⟨S50000x256, .f32⟩ : BufTy).Contents (Elt F)),
    StableHlo.binary main_v96 main_v98 main_v99 (mulf : (⟨S50000x256, .f32⟩ : BufTy).Contents (Elt F) → (⟨S50000x256, .f32⟩ : BufTy).Contents (Elt F) → (⟨S50000x256, .f32⟩ : BufTy).Contents (Elt F)),
    StableHlo.unary main_arg9 main_v100 (broadcastInDim S1x256 ![1] bcast_S256_S1x256_1 : (⟨S256, .f32⟩ : BufTy).Contents (Elt F) → (⟨S1x256, .f32⟩ : BufTy).Contents (Elt F)),
    StableHlo.unary main_v100 main_v101 (broadcastInDim S50000x256 ![0, 1] bcast_S1x256_S50000x256_0_1 : (⟨S1x256, .f32⟩ : BufTy).Contents (Elt F) → (⟨S50000x256, .f32⟩ : BufTy).Contents (Elt F)),
    StableHlo.binary main_v99 main_v101 main_v102 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S50000x256, .f32⟩) (broadcastInDim S50000x256 ![] bcast_S_S50000x256),
    StableHlo.TRef.binary (.of main_v102 : StableHlo.TRef sig ⟨S50000x256, .f32⟩) (.of main_call4_v0 : StableHlo.TRef sig ⟨S50000x256, .f32⟩) (.of main_v103 : StableHlo.TRef sig ⟨S50000x256, .f32⟩) maximumf ]

theorem bn2_sub : (bn2 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

/-- Layer 3's dense transform. (1 operations.) -/
abbrev dot3 : List (HloOp τ sig (Elt F)) :=
  [ StableHlo.binary main_v103 main_arg10 main_v104 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)) ]

theorem dot3_sub : (dot3 : List (HloOp τ sig (Elt F))).Forall fun op => op.bufs ⊆ StableHlo.tcRefs τ sig :=
  StableHlo.binary_bufs_sub ..

/-- Layer 3's message passing. (19 operations.) -/
abbrev conv3 : List (HloOp τ sig (Elt F)) :=
  [ StableHlo.nullary main_c_20 (constantI S_ 32 0#32),
    StableHlo.unary main_c_20 main_v105 (broadcastInDim S850000 ![] bcast_S_S850000 : (⟨S_, .i32⟩ : BufTy).Contents (Elt F) → (⟨S850000, .i32⟩ : BufTy).Contents (Elt F)),
    StableHlo.binary main_v3 main_v105 main_v106 (cmpi .slt : (⟨S850000, .i32⟩ : BufTy).Contents (Elt F) → (⟨S850000, .i32⟩ : BufTy).Contents (Elt F) → (⟨S850000, .i1⟩ : BufTy).Contents (Elt F)),
    StableHlo.nullary main_c_21 (constantI S_ 32 50000#32),
    StableHlo.unary main_c_21 main_v107 (broadcastInDim S850000 ![] bcast_S_S850000 : (⟨S_, .i32⟩ : BufTy).Contents (Elt F) → (⟨S850000, .i32⟩ : BufTy).Contents (Elt F)),
    StableHlo.binary main_v3 main_v107 main_v108 (addi : (⟨S850000, .i32⟩ : BufTy).Contents (Elt F) → (⟨S850000, .i32⟩ : BufTy).Contents (Elt F) → (⟨S850000, .i32⟩ : BufTy).Contents (Elt F)),
    StableHlo.ternary main_v106 main_v108 main_v3 main_v109 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v109 main_v110 (broadcastInDim S850000x1 ![0] bcast_S850000_S850000x1_0 : (⟨S850000, .i32⟩ : BufTy).Contents (Elt F) → (⟨S850000x1, .i32⟩ : BufTy).Contents (Elt F)),
    StableHlo.binary main_v104 main_v110 main_v111 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    StableHlo.unary main_v29 main_v112 (broadcastInDim S850000x1 ![0] bcast_S850000_S850000x1_0 : (⟨S850000, .f32⟩ : BufTy).Contents (Elt F) → (⟨S850000x1, .f32⟩ : BufTy).Contents (Elt F)),
    StableHlo.unary main_v112 main_v113 (broadcastInDim S850000x40 ![0, 1] bcast_S850000x1_S850000x40_0_1 : (⟨S850000x1, .f32⟩ : BufTy).Contents (Elt F) → (⟨S850000x40, .f32⟩ : BufTy).Contents (Elt F)),
    StableHlo.binary main_v111 main_v113 main_v114 (mulf : (⟨S850000x40, .f32⟩ : BufTy).Contents (Elt F) → (⟨S850000x40, .f32⟩ : BufTy).Contents (Elt F) → (⟨S850000x40, .f32⟩ : BufTy).Contents (Elt F)),
    StableHlo.nullary main_cst_22 (constant S_ .f32 0x00000000#32),
    StableHlo.unary main_cst_22 main_v115 (broadcastInDim S50000x40 ![] bcast_S_S50000x40 : (⟨S_, .f32⟩ : BufTy).Contents (Elt F) → (⟨S50000x40, .f32⟩ : BufTy).Contents (Elt F)),
    StableHlo.unary main_v6 main_v116 (broadcastInDim S850000x1 ![0] bcast_S850000_S850000x1_0 : (⟨S850000, .i32⟩ : BufTy).Contents (Elt F) → (⟨S850000x1, .i32⟩ : BufTy).Contents (Elt F)),
    StableHlo.ternary main_v115 main_v116 main_v114 main_v117 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)),
    StableHlo.unary main_arg11 main_v118 (broadcastInDim S1x40 ![1] bcast_S40_S1x40_1 : (⟨S40, .f32⟩ : BufTy).Contents (Elt F) → (⟨S1x40, .f32⟩ : BufTy).Contents (Elt F)),
    StableHlo.unary main_v118 main_v119 (broadcastInDim S50000x40 ![0, 1] bcast_S1x40_S50000x40_0_1 : (⟨S1x40, .f32⟩ : BufTy).Contents (Elt F) → (⟨S50000x40, .f32⟩ : BufTy).Contents (Elt F)),
    StableHlo.binary main_v117 main_v119 main_v120 (addf : (⟨S50000x40, .f32⟩ : BufTy).Contents (Elt F) → (⟨S50000x40, .f32⟩ : BufTy).Contents (Elt F) → (⟨S50000x40, .f32⟩ : BufTy).Contents (Elt F)) ]

theorem conv3_sub : (conv3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

/-- The classifier: a matrix product with the last weight matrix, plus the bias row, then the logarithm of the softmax of each row (row maximum subtracted, then the logarithm of the row's sum of exponentials subtracted). (19 operations.) -/
abbrev fin : List (HloOp τ sig (Elt F)) :=
  [ StableHlo.binary main_v120 main_arg12 main_v121 ((fun l r => Host.dotGeneral dot_S50000x40_S40x40_S50000x40_1_0_0_1_n_n none l r) : (⟨S50000x40, .f32⟩ : BufTy).Contents (Elt F) → (⟨S40x40, .f32⟩ : BufTy).Contents (Elt F) → (⟨S50000x40, .f32⟩ : BufTy).Contents (Elt F)),
    StableHlo.unary main_arg13 main_v122 (broadcastInDim S1x40 ![1] bcast_S40_S1x40_1 : (⟨S40, .f32⟩ : BufTy).Contents (Elt F) → (⟨S1x40, .f32⟩ : BufTy).Contents (Elt F)),
    StableHlo.unary main_v122 main_v123 (broadcastInDim S50000x40 ![0, 1] bcast_S1x40_S50000x40_0_1 : (⟨S1x40, .f32⟩ : BufTy).Contents (Elt F) → (⟨S50000x40, .f32⟩ : BufTy).Contents (Elt F)),
    StableHlo.binary main_v121 main_v123 main_v124 (addf : (⟨S50000x40, .f32⟩ : BufTy).Contents (Elt F) → (⟨S50000x40, .f32⟩ : BufTy).Contents (Elt F) → (⟨S50000x40, .f32⟩ : BufTy).Contents (Elt F)),
    StableHlo.TRef.nullary (.of main_call5_cst : StableHlo.TRef sig ⟨S_, .f32⟩) (constant S_ .f32 0xFF800000#32),
    StableHlo.TRef.binary (.of main_v124 : StableHlo.TRef sig ⟨S50000x40, .f32⟩) (.of main_call5_cst : StableHlo.TRef sig ⟨S_, .f32⟩) (.of main_call5_v0 : StableHlo.TRef sig ⟨S50000, .f32⟩) (fun x v => Host.reduce FloatOps.maximumf x v reducesTo_S50000x40_S50000_d1 h_S_),
    StableHlo.TRef.nullary (.of main_call5_cst_0 : StableHlo.TRef sig ⟨S_, .f32⟩) (constant S_ .f32 0xFF800000#32),
    StableHlo.TRef.unary (.of main_call5_cst_0 : StableHlo.TRef sig ⟨S_, .f32⟩) (.of main_call5_v1 : StableHlo.TRef sig ⟨S50000, .f32⟩) (broadcastInDim S50000 ![] bcast_S_S50000),
    StableHlo.TRef.binary (.of main_call5_v1 : StableHlo.TRef sig ⟨S50000, .f32⟩) (.of main_call5_v0 : StableHlo.TRef sig ⟨S50000, .f32⟩) (.of main_call5_v2 : StableHlo.TRef sig ⟨S50000, .f32⟩) maximumf,
    StableHlo.TRef.unary (.of main_call5_v2 : StableHlo.TRef sig ⟨S50000, .f32⟩) (.of main_call5_v3 : StableHlo.TRef sig ⟨S50000x1, .f32⟩) (broadcastInDim S50000x1 ![0] bcast_S50000_S50000x1_0),
    StableHlo.TRef.unary (.of main_call5_v3 : StableHlo.TRef sig ⟨S50000x1, .f32⟩) (.of main_call5_v4 : StableHlo.TRef sig ⟨S50000x40, .f32⟩) (broadcastInDim S50000x40 ![0, 1] bcast_S50000x1_S50000x40_0_1),
    StableHlo.TRef.binary (.of main_v124 : StableHlo.TRef sig ⟨S50000x40, .f32⟩) (.of main_call5_v4 : StableHlo.TRef sig ⟨S50000x40, .f32⟩) (.of main_call5_v5 : StableHlo.TRef sig ⟨S50000x40, .f32⟩) subf,
    StableHlo.TRef.unary (.of main_call5_v5 : StableHlo.TRef sig ⟨S50000x40, .f32⟩) (.of main_call5_v6 : StableHlo.TRef sig ⟨S50000x40, .f32⟩) Host.exp,
    StableHlo.TRef.nullary (.of main_call5_cst_1 : StableHlo.TRef sig ⟨S_, .f32⟩) (constant S_ .f32 0x00000000#32),
    StableHlo.TRef.binary (.of main_call5_v6 : StableHlo.TRef sig ⟨S50000x40, .f32⟩) (.of main_call5_cst_1 : StableHlo.TRef sig ⟨S_, .f32⟩) (.of main_call5_v7 : StableHlo.TRef sig ⟨S50000, .f32⟩) (fun x v => Host.reduceAdd x v reducesTo_S50000x40_S50000_d1 h_S_),
    StableHlo.TRef.unary (.of main_call5_v7 : StableHlo.TRef sig ⟨S50000, .f32⟩) (.of main_call5_v8 : StableHlo.TRef sig ⟨S50000x1, .f32⟩) (broadcastInDim S50000x1 ![0] bcast_S50000_S50000x1_0),
    StableHlo.TRef.unary (.of main_call5_v8 : StableHlo.TRef sig ⟨S50000x1, .f32⟩) (.of main_call5_v9 : StableHlo.TRef sig ⟨S50000x1, .f32⟩) Host.log,
    StableHlo.TRef.unary (.of main_call5_v9 : StableHlo.TRef sig ⟨S50000x1, .f32⟩) (.of main_call5_v10 : StableHlo.TRef sig ⟨S50000x40, .f32⟩) (broadcastInDim S50000x40 ![0, 1] bcast_S50000x1_S50000x40_0_1),
    StableHlo.TRef.binary (.of main_call5_v5 : StableHlo.TRef sig ⟨S50000x40, .f32⟩) (.of main_call5_v10 : StableHlo.TRef sig ⟨S50000x40, .f32⟩) (.of main_v125 : StableHlo.TRef sig ⟨S50000x40, .f32⟩) subf ]

theorem fin_sub : (fin : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩

/-- The first operations of layer 1's statistics, the part of them the program's first window of statements holds. (2 operations.) -/
abbrev stats1_a : List (HloOp τ sig (Elt F)) :=
  [ StableHlo.nullary main_cst_9 (constant S_ .f32 0x00000000#32),
    StableHlo.binary main_v46 main_cst_9 main_v47 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) ]

theorem stats1_a_sub : (stats1_a : List (HloOp τ sig (Elt F))).Forall fun op => op.bufs ⊆ StableHlo.tcRefs τ sig :=
  ⟨StableHlo.nullary_bufs_sub .., StableHlo.binary_bufs_sub ..⟩

/-- The rest of layer 1's statistics. (26 operations.) -/
abbrev stats1_b : List (HloOp τ sig (Elt F)) :=
  [ StableHlo.nullary main_cst_10 (constant S_ .f32 0x47435000#32),
    StableHlo.unary main_cst_10 main_v48 (broadcastInDim S256 ![] bcast_S_S256 : (⟨S_, .f32⟩ : BufTy).Contents (Elt F) → (⟨S256, .f32⟩ : BufTy).Contents (Elt F)),
    StableHlo.binary main_v47 main_v48 main_v49 (Host.divf : (⟨S256, .f32⟩ : BufTy).Contents (Elt F) → (⟨S256, .f32⟩ : BufTy).Contents (Elt F) → (⟨S256, .f32⟩ : BufTy).Contents (Elt F)),
    StableHlo.nullary main_c_11 (constantI S_ 32 0#32),
    StableHlo.TRef.nullary (.of main_call1_cst : StableHlo.TRef sig ⟨S_, .f32⟩) (constant S_ .f32 0x00000000#32),
    StableHlo.TRef.binary (.of main_v46 : StableHlo.TRef sig ⟨S50000x256, .f32⟩) (.of main_call1_cst : StableHlo.TRef sig ⟨S_, .f32⟩) (.of main_call1_v0 : StableHlo.TRef sig ⟨S256, .f32⟩) (fun x v => Host.reduceAdd x v reducesTo_S50000x256_S256_d0 h_S_),
    StableHlo.TRef.unary (.of main_call1_v0 : StableHlo.TRef sig ⟨S256, .f32⟩) (.of main_call1_v1 : StableHlo.TRef sig ⟨S1x256, .f32⟩) (broadcastInDim S1x256 ![1] bcast_S256_S1x256_1),
    StableHlo.TRef.nullary (.of main_call1_cst_0 : StableHlo.TRef sig ⟨S_, .f32⟩) (constant S_ .f32 0x47435000#32),
    StableHlo.TRef.unary (.of main_call1_cst_0 : StableHlo.TRef sig ⟨S_, .f32⟩) (.of main_call1_v2 : StableHlo.TRef sig ⟨S1x256, .f32⟩) (broadcastInDim S1x256 ![] bcast_S_S1x256),
    StableHlo.TRef.binary (.of main_call1_v1 : StableHlo.TRef sig ⟨S1x256, .f32⟩) (.of main_call1_v2 : StableHlo.TRef sig ⟨S1x256, .f32⟩) (.of main_call1_v3 : StableHlo.TRef sig ⟨S1x256, .f32⟩) Host.divf,
    StableHlo.TRef.unary (.of main_call1_v3 : StableHlo.TRef sig ⟨S1x256, .f32⟩) (.of main_call1_v4 : StableHlo.TRef sig ⟨S50000x256, .f32⟩) (broadcastInDim S50000x256 ![0, 1] bcast_S1x256_S50000x256_0_1),
    StableHlo.TRef.binary (.of main_v46 : StableHlo.TRef sig ⟨S50000x256, .f32⟩) (.of main_call1_v4 : StableHlo.TRef sig ⟨S50000x256, .f32⟩) (.of main_call1_v5 : StableHlo.TRef sig ⟨S50000x256, .f32⟩) subf,
    StableHlo.TRef.binary (.of main_call1_v5 : StableHlo.TRef sig ⟨S50000x256, .f32⟩) (.of main_call1_v5 : StableHlo.TRef sig ⟨S50000x256, .f32⟩) (.of main_call1_v6 : StableHlo.TRef sig ⟨S50000x256, .f32⟩) mulf,
    StableHlo.TRef.unary (.of main_c_11 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47435000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S50000x256, .f32⟩) (.of main_call1_cst_2 : StableHlo.TRef sig ⟨S_, .f32⟩) (.of main_call1_v9 : StableHlo.TRef sig ⟨S256, .f32⟩) (fun x v => Host.reduceAdd x v reducesTo_S50000x256_S256_d0 h_S_),
    StableHlo.TRef.unary (.of main_call1_v8 : StableHlo.TRef sig ⟨S_, .f32⟩) (.of main_call1_v10 : StableHlo.TRef sig ⟨S256, .f32⟩) (broadcastInDim S256 ![] bcast_S_S256),
    StableHlo.TRef.binary (.of main_call1_v9 : StableHlo.TRef sig ⟨S256, .f32⟩) (.of main_call1_v10 : StableHlo.TRef sig ⟨S256, .f32⟩) (.of main_call1_v11 : StableHlo.TRef sig ⟨S256, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S256, .f32⟩) (broadcastInDim S256 ![] bcast_S_S256),
    StableHlo.TRef.ternary (.of main_call1_v12 : StableHlo.TRef sig ⟨S_, .i1⟩) (.of main_call1_v11 : StableHlo.TRef sig ⟨S256, .f32⟩) (.of main_call1_call0_v1 : StableHlo.TRef sig ⟨S256, .f32⟩) (.of main_v50 : StableHlo.TRef sig ⟨S256, .f32⟩) (fun p a b => select (broadcastInDim S256 ![] bcast_S_S256 p) a b) ]

theorem stats1_b_sub : (stats1_b : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub ..⟩

/-- The first operations of layer 2's normalisation, the part of them the program's second window of statements holds. (11 operations.) -/
abbrev bn2_a : List (HloOp τ sig (Elt F)) :=
  [ StableHlo.unary main_v86 main_v88 (broadcastInDim S1x256 ![1] bcast_S256_S1x256_1 : (⟨S256, .f32⟩ : BufTy).Contents (Elt F) → (⟨S1x256, .f32⟩ : BufTy).Contents (Elt F)),
    StableHlo.unary main_v88 main_v89 (broadcastInDim S50000x256 ![0, 1] bcast_S1x256_S50000x256_0_1 : (⟨S1x256, .f32⟩ : BufTy).Contents (Elt F) → (⟨S50000x256, .f32⟩ : BufTy).Contents (Elt F)),
    StableHlo.binary main_v83 main_v89 main_v90 (subf : (⟨S50000x256, .f32⟩ : BufTy).Contents (Elt F) → (⟨S50000x256, .f32⟩ : BufTy).Contents (Elt F) → (⟨S50000x256, .f32⟩ : BufTy).Contents (Elt F)),
    StableHlo.nullary main_cst_19 (constant S_ .f32 0x3727C5AC#32),
    StableHlo.unary main_cst_19 main_v91 (broadcastInDim S256 ![] bcast_S_S256 : (⟨S_, .f32⟩ : BufTy).Contents (Elt F) → (⟨S256, .f32⟩ : BufTy).Contents (Elt F)),
    StableHlo.binary main_v87 main_v91 main_v92 (addf : (⟨S256, .f32⟩ : BufTy).Contents (Elt F) → (⟨S256, .f32⟩ : BufTy).Contents (Elt F) → (⟨S256, .f32⟩ : BufTy).Contents (Elt F)),
    StableHlo.unary main_v92 main_v93 (Host.rsqrt : (⟨S256, .f32⟩ : BufTy).Contents (Elt F) → (⟨S256, .f32⟩ : BufTy).Contents (Elt F)),
    StableHlo.unary main_v93 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S50000x256 ![0, 1] bcast_S1x256_S50000x256_0_1 : (⟨S1x256, .f32⟩ : BufTy).Contents (Elt F) → (⟨S50000x256, .f32⟩ : BufTy).Contents (Elt F)),
    StableHlo.binary main_v90 main_v95 main_v96 (mulf : (⟨S50000x256, .f32⟩ : BufTy).Contents (Elt F) → (⟨S50000x256, .f32⟩ : BufTy).Contents (Elt F) → (⟨S50000x256, .f32⟩ : BufTy).Contents (Elt F)),
    StableHlo.unary main_arg8 main_v97 (broadcastInDim S1x256 ![1] bcast_S256_S1x256_1 : (⟨S256, .f32⟩ : BufTy).Contents (Elt F) → (⟨S1x256, .f32⟩ : BufTy).Contents (Elt F)) ]

theorem bn2_a_sub : (bn2_a : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub ..⟩

/-- The rest of layer 2's normalisation and its rectifier. (8 operations.) -/
abbrev bn2_b : List (HloOp τ sig (Elt F)) :=
  [ StableHlo.unary main_v97 main_v98 (broadcastInDim S50000x256 ![0, 1] bcast_S1x256_S50000x256_0_1 : (⟨S1x256, .f32⟩ : BufTy).Contents (Elt F) → (⟨S50000x256, .f32⟩ : BufTy).Contents (Elt F)),
    StableHlo.binary main_v96 main_v98 main_v99 (mulf : (⟨S50000x256, .f32⟩ : BufTy).Contents (Elt F) → (⟨S50000x256, .f32⟩ : BufTy).Contents (Elt F) → (⟨S50000x256, .f32⟩ : BufTy).Contents (Elt F)),
    StableHlo.unary main_arg9 main_v100 (broadcastInDim S1x256 ![1] bcast_S256_S1x256_1 : (⟨S256, .f32⟩ : BufTy).Contents (Elt F) → (⟨S1x256, .f32⟩ : BufTy).Contents (Elt F)),
    StableHlo.unary main_v100 main_v101 (broadcastInDim S50000x256 ![0, 1] bcast_S1x256_S50000x256_0_1 : (⟨S1x256, .f32⟩ : BufTy).Contents (Elt F) → (⟨S50000x256, .f32⟩ : BufTy).Contents (Elt F)),
    StableHlo.binary main_v99 main_v101 main_v102 (addf : (⟨S50000x256, .f32⟩ : BufTy).Contents (Elt F) → (⟨S50000x256, .f32⟩ : BufTy).Contents (Elt F) → (⟨S50000x256, .f32⟩ : BufTy).Contents (Elt F)),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S50000x256, .f32⟩) (broadcastInDim S50000x256 ![] bcast_S_S50000x256),
    StableHlo.TRef.binary (.of main_v102 : StableHlo.TRef sig ⟨S50000x256, .f32⟩) (.of main_call4_v0 : StableHlo.TRef sig ⟨S50000x256, .f32⟩) (.of main_v103 : StableHlo.TRef sig ⟨S50000x256, .f32⟩) maximumf ]

theorem bn2_b_sub : (bn2_b : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

theorem stats1_split : (stats1 : List (HloOp τ sig (Elt F))) = stats1_a ++ stats1_b := rfl
theorem bn2_split : (bn2 : List (HloOp τ sig (Elt F))) = bn2_a ++ bn2_b := rfl

/-- The whole program, in order. -/
abbrev all : List (HloOp τ sig (Elt F)) :=
  graph ++ (dot1 ++ (conv1 ++ (stats1 ++ (bn1 ++ (dot2 ++ (conv2 ++ (stats2 ++ (bn2 ++ (dot3 ++ (conv3 ++ fin))))))))))

end Cert.ReferenceIdeal.RefOps

end
-- ==== Proof.RefRun.lean ====
/-
  The reference program's run. @main is printed as three consecutive windows of statements, with the functions it
  calls applied at their call sites; each window is the run of a list of host operations (the definitions unfold
  to one chain of operation steps: a called function's body is its operations over that call's own buffers), and
  lists run one after the other are their concatenation run as one. So @main is the run of the whole list
  `RefOps.all` (`main_eq`). Every operation touches device buffers only (`all_sub`) and determines its result
  (`all_fresh`), so every weakly fair execution from a memory with zero counters terminates with every buffer at the
  fold of the operations' results over the launch contents (`run`). No operation writes an argument's buffer
  (`kept_arg0` … `kept_arg13`), so the arguments end as launched (`frame`).
-/
import proofs.«143667_j15642270892451_1_alg».proof.Proof.RefOps

noncomputable section

namespace Cert.ReferenceIdeal.RefRun

open Cert.ReferenceIdeal Cert.ReferenceIdeal.Facts₀ Cert.ReferenceIdeal.Facts Idealize.ShloMosaic Idealize.ShloMosaic.TcCoe Idealize.SL.Sem
open Idealize.ShloMosaic.StableHlo
open Cert.ReferenceIdeal.RefOps

variable {F : FTy → Type} [FloatOps F]

/-! ## @main is the run of the whole list -/

/-- The first window of statements is the run of the graph's structure, layer 1's dense transform and message
    passing, and the first two operations of its statistics: both sides are one chain of operation steps by
    unfolding (the called function's body at its call site; sequencing a step with the rest pushes the rest into
    the step's continuation). -/
theorem part0_eq (c : Dev nD) : main_part0 (F := F) c = seq (graph ++ (dot1 ++ (conv1 ++ stats1_a))) := rfl

/-- The second window: the rest of layer 1's statistics, its normalisation and rectifier, layer 2's dense transform,
    message passing and statistics, and the first operations of its normalisation. -/
theorem part1_eq (c : Dev nD) :
    main_part1 (F := F) c = seq (stats1_b ++ (bn1 ++ (dot2 ++ (conv2 ++ (stats2 ++ bn2_a))))) := rfl

/-- The third window: the rest of layer 2's normalisation and its rectifier, layer 3's dense transform and message
    passing, and the classifier. -/
theorem part2_eq (c : Dev nD) : main_part2 (F := F) c = seq (bn2_b ++ (dot3 ++ (conv3 ++ fin))) := rfl

/-- The three windows' lists, concatenated, are the whole list: the two stretches a window boundary cuts are the
    concatenations of their pieces, and concatenation is associative (all of it by computation on literal lists). -/
theorem windows_eq :
    (graph ++ (dot1 ++ (conv1 ++ stats1_a))) ++ ((stats1_b ++ (bn1 ++ (dot2 ++ (conv2 ++ (stats2 ++ bn2_a)))))
        ++ (bn2_b ++ (dot3 ++ (conv3 ++ fin))))
      = (RefOps.all : List (HloOp τ sig (Elt F))) := rfl

/-- @main is the run of the whole list of operations, in order. -/
theorem main_eq (c : Dev nD) : main (F := F) c = seq RefOps.all := by
  have h : main (F := F) c = (main_part0 c >>= fun _ => main_part1 c >>= fun _ => main_part2 c) := rfl
  rw [h, part0_eq, part1_eq, part2_eq, ← seq_append, ← seq_append, windows_eq]

/-! ## The side conditions of the run -/

/-- Every operation touches TensorCore buffers only: stretch by stretch. -/
theorem all_sub : (RefOps.all : List (HloOp τ sig (Elt F))).Forall fun op => op.bufs ⊆ tcRefs τ sig :=
  List.forall_append.mpr ⟨graph_sub, List.forall_append.mpr ⟨dot1_sub, List.forall_append.mpr ⟨conv1_sub, List.forall_append.mpr ⟨stats1_sub, List.forall_append.mpr ⟨bn1_sub, List.forall_append.mpr ⟨dot2_sub, List.forall_append.mpr ⟨conv2_sub, List.forall_append.mpr ⟨stats2_sub, List.forall_append.mpr ⟨bn2_sub, List.forall_append.mpr ⟨dot3_sub, List.forall_append.mpr ⟨conv3_sub, fin_sub⟩⟩⟩⟩⟩⟩⟩⟩⟩⟩⟩

/-! No operation allocates a buffer: each determines its result from its operands. -/
theorem graph_fresh : (graph : List (HloOp τ sig (Elt F))).Forall fun op => op.fresh = ∅ := by
  simp only [List.Forall]; repeat' constructor
theorem dot1_fresh : (dot1 : List (HloOp τ sig (Elt F))).Forall fun op => op.fresh = ∅ := by
  simp only [List.Forall]; repeat' constructor
theorem conv1_fresh : (conv1 : List (HloOp τ sig (Elt F))).Forall fun op => op.fresh = ∅ := by
  simp only [List.Forall]; repeat' constructor
theorem stats1_fresh : (stats1 : List (HloOp τ sig (Elt F))).Forall fun op => op.fresh = ∅ := by
  simp only [List.Forall]; repeat' constructor
theorem bn1_fresh : (bn1 : List (HloOp τ sig (Elt F))).Forall fun op => op.fresh = ∅ := by
  simp only [List.Forall]; repeat' constructor
theorem dot2_fresh : (dot2 : List (HloOp τ sig (Elt F))).Forall fun op => op.fresh = ∅ := by
  simp only [List.Forall]; repeat' constructor
theorem conv2_fresh : (conv2 : List (HloOp τ sig (Elt F))).Forall fun op => op.fresh = ∅ := by
  simp only [List.Forall]; repeat' constructor
theorem stats2_fresh : (stats2 : List (HloOp τ sig (Elt F))).Forall fun op => op.fresh = ∅ := by
  simp only [List.Forall]; repeat' constructor
theorem bn2_fresh : (bn2 : List (HloOp τ sig (Elt F))).Forall fun op => op.fresh = ∅ := by
  simp only [List.Forall]; repeat' constructor
theorem dot3_fresh : (dot3 : List (HloOp τ sig (Elt F))).Forall fun op => op.fresh = ∅ := by
  simp only [List.Forall]; repeat' constructor
theorem conv3_fresh : (conv3 : List (HloOp τ sig (Elt F))).Forall fun op => op.fresh = ∅ := by
  simp only [List.Forall]; repeat' constructor
theorem fin_fresh : (fin : List (HloOp τ sig (Elt F))).Forall fun op => op.fresh = ∅ := by
  simp only [List.Forall]; repeat' constructor

/-- No operation of the whole list allocates a buffer. -/
theorem all_fresh : ∀ op ∈ (RefOps.all : List (HloOp τ sig (Elt F))), op.fresh = ∅ :=
  List.forall_iff_forall_mem.mp (List.forall_append.mpr ⟨graph_fresh, List.forall_append.mpr ⟨dot1_fresh, List.forall_append.mpr ⟨conv1_fresh, List.forall_append.mpr ⟨stats1_fresh, List.forall_append.mpr ⟨bn1_fresh, List.forall_append.mpr ⟨dot2_fresh, List.forall_append.mpr ⟨conv2_fresh, List.forall_append.mpr ⟨stats2_fresh, List.forall_append.mpr ⟨bn2_fresh, List.forall_append.mpr ⟨dot3_fresh, List.forall_append.mpr ⟨conv3_fresh, fin_fresh⟩⟩⟩⟩⟩⟩⟩⟩⟩⟩⟩)

/-- The signature scopes no TensorCore buffer … -/
theorem scopedRefs_eq : (Finset.univ.filter fun b : Ref sig .tc => b.isScoped) = ∅ := by decide
/-- … and no semaphore: the program is tensor values only. -/
theorem scopedSems_eq : (Finset.univ.filter fun sm : SemLoc sig => sm.isScoped .tc) = ∅ := by decide

/-! ## The run -/

/-- On every device, for any float values, from any memory with zero counters: every weakly fair execution of @main
    terminates, nothing faulting, and every TensorCore buffer ends at the fold of the operations' results over the
    device's launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = after RefOps.all (launchContents m d) (Proc.devRef .tc b) :=
  run_seq scopedRefs_eq scopedSems_eq defs main (fun _ => RefOps.all) main_eq (fun _ => all_sub) m ρ (fun _ => all_fresh)

/-! ## The arguments are never written -/

/-- The fourteen argument buffers. -/
abbrev argRefs : List (Ref sig .tc) :=
  [main_arg0, main_arg1, main_arg2, main_arg3, main_arg4, main_arg5, main_arg6, main_arg7, main_arg8, main_arg9,
   main_arg10, main_arg11, main_arg12, main_arg13]

set_option maxRecDepth 8192 in
/-- No operation writes an argument's buffer: each operation writes exactly its result buffer, a reference other
    than each of the fourteen (references are compared by computation; distinct references are distinct device
    buffers). So the fold leaves an argument's contents as they were. -/
theorem kept (r : Ref sig .tc) (hr : r ∈ argRefs) (V : Valuation τ sig (Elt F)) :
    after RefOps.all V (Proc.devRef .tc r) = V (Proc.devRef .tc r) :=
  after_of_forall_not_mem (b := Proc.devRef .tc r) _ _ (List.forall_iff_forall_mem.mp (by
    simp only [RefOps.all, graph, dot1, conv1, stats1, bn1, dot2, conv2, stats2, bn2, dot3, conv3, fin,
      List.forall_append, List.Forall, TRef.nullary, TRef.unary, TRef.binary, TRef.ternary,
      nullary_writes, unary_writes, binary_writes, ternary_writes, reshape_writes, Finset.mem_singleton]
    repeat' apply And.intro
    all_goals exact devRef_ne_of_ne ((by decide : ∀ r' ∈ argRefs, r' ≠ _) r hr)))

theorem kept_arg0 (V : Valuation τ sig (Elt F)) :
    after RefOps.all V (Proc.devRef .tc main_arg0) = V (Proc.devRef .tc main_arg0) := kept main_arg0 (by decide) V
theorem kept_arg1 (V : Valuation τ sig (Elt F)) :
    after RefOps.all V (Proc.devRef .tc main_arg1) = V (Proc.devRef .tc main_arg1) := kept main_arg1 (by decide) V
theorem kept_arg2 (V : Valuation τ sig (Elt F)) :
    after RefOps.all V (Proc.devRef .tc main_arg2) = V (Proc.devRef .tc main_arg2) := kept main_arg2 (by decide) V
theorem kept_arg3 (V : Valuation τ sig (Elt F)) :
    after RefOps.all V (Proc.devRef .tc main_arg3) = V (Proc.devRef .tc main_arg3) := kept main_arg3 (by decide) V
theorem kept_arg4 (V : Valuation τ sig (Elt F)) :
    after RefOps.all V (Proc.devRef .tc main_arg4) = V (Proc.devRef .tc main_arg4) := kept main_arg4 (by decide) V
theorem kept_arg5 (V : Valuation τ sig (Elt F)) :
    after RefOps.all V (Proc.devRef .tc main_arg5) = V (Proc.devRef .tc main_arg5) := kept main_arg5 (by decide) V
theorem kept_arg6 (V : Valuation τ sig (Elt F)) :
    after RefOps.all V (Proc.devRef .tc main_arg6) = V (Proc.devRef .tc main_arg6) := kept main_arg6 (by decide) V
theorem kept_arg7 (V : Valuation τ sig (Elt F)) :
    after RefOps.all V (Proc.devRef .tc main_arg7) = V (Proc.devRef .tc main_arg7) := kept main_arg7 (by decide) V
theorem kept_arg8 (V : Valuation τ sig (Elt F)) :
    after RefOps.all V (Proc.devRef .tc main_arg8) = V (Proc.devRef .tc main_arg8) := kept main_arg8 (by decide) V
theorem kept_arg9 (V : Valuation τ sig (Elt F)) :
    after RefOps.all V (Proc.devRef .tc main_arg9) = V (Proc.devRef .tc main_arg9) := kept main_arg9 (by decide) V
theorem kept_arg10 (V : Valuation τ sig (Elt F)) :
    after RefOps.all V (Proc.devRef .tc main_arg10) = V (Proc.devRef .tc main_arg10) := kept main_arg10 (by decide) V
theorem kept_arg11 (V : Valuation τ sig (Elt F)) :
    after RefOps.all V (Proc.devRef .tc main_arg11) = V (Proc.devRef .tc main_arg11) := kept main_arg11 (by decide) V
theorem kept_arg12 (V : Valuation τ sig (Elt F)) :
    after RefOps.all V (Proc.devRef .tc main_arg12) = V (Proc.devRef .tc main_arg12) := kept main_arg12 (by decide) V
theorem kept_arg13 (V : Valuation τ sig (Elt F)) :
    after RefOps.all V (Proc.devRef .tc main_arg13) = V (Proc.devRef .tc main_arg13) := kept main_arg13 (by decide) V

/-! ## The frame -/

/-- From any memory with zero counters every weakly fair execution of @main terminates, nothing faulting, and every
    final state has the argument arrays as launched: the run's fold read at each argument's buffer, which no
    operation writes. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _)⟩)
    (run m ρ)

end Cert.ReferenceIdeal.RefRun

end
-- ==== Proof.GlueBase.lean ====
/-
  Common ground for comparing the two programs' host arithmetic. Both programs spend most of their host lines on the
  same computation — the graph's edge lists and edge weights, the message passing of each layer, the batch
  statistics — written over their own buffers. A buffer's contents after a stretch of operations is the fold of the
  operations' results (`StableHlo.after`); reading that fold at one buffer turns it into the operations' composed
  term over the contents the stretch started from, and the two programs' terms for corresponding buffers are then
  the same term.
-/
import proofs.«143667_j15642270892451_1_alg».proof.Proof.Gen.KernelIdeal.Launch
import proofs.«143667_j15642270892451_1_alg».proof.Proof.RefOps
import Idealize.ShloMosaic.Lib.StableHlo.Run
import Idealize.ShloMosaic.PureOps.Ideal

set_option maxRecDepth 16384

noncomputable section

namespace Cert.Glue

open Idealize.ShloMosaic Idealize.ShloMosaic.TcCoe Idealize.SL.Sem Idealize.ShloMosaic.StableHlo

/-- Each operation's result at its own buffer is its function's value, and at any other buffer what was there:
    the rewriting form, for the few operations the one-pass form leaves. -/
macro "results_rw" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

/-- Reads a fold of literal operations at a literal buffer: one pass, then the rewriting form for what is left. -/
macro "read_fold" : tactic => `(tactic| (after_results_simp; results_rw))

/-- Buffer contents of the kernel program's device, and of the reference program's. -/
abbrev KV := Valuation Cert.KernelIdeal.τ Cert.KernelIdeal.sig (Elt Ideal)
@[inherit_doc KV] abbrev RV := Valuation Cert.ReferenceIdeal.τ Cert.ReferenceIdeal.sig (Elt Ideal)

/-- Two stretches run one after the other fold to the second's fold of the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.Glue

end
-- ==== Proof.GlueGraph.lean ====
/-
  The graph's structure is the same arithmetic in both programs: from the edge list, the source and destination
  node numbers with one self loop per node appended, and each edge's weight — the product of the inverse square
  roots of its two ends' in-degrees (zero where a degree is zero) — are the same terms of the edge list.
-/
import proofs.«143667_j15642270892451_1_alg».proof.Proof.GlueBase

set_option maxRecDepth 16384

noncomputable section

namespace Cert.Glue

open Idealize.ShloMosaic Idealize.ShloMosaic.TcCoe Idealize.SL.Sem Idealize.ShloMosaic.StableHlo

/-- The kernel program's buffers after its lines for the graph's structure, from contents `W`. -/
abbrev kGraph (W : KV) : KV := after (Cert.KernelIdeal.Gen.hostOps0_2 (F := Ideal)) (after Cert.KernelIdeal.Gen.hostOps0_1 (after Cert.KernelIdeal.Gen.hostOps0 W))
/-- The reference program's buffers after the same lines. -/
abbrev rGraph (W : RV) : RV := after (Cert.ReferenceIdeal.RefOps.graph (F := Ideal)) W

set_option maxHeartbeats 4000000 in
/-- The edges' source node numbers (self loops appended) agree. -/
theorem graph_src (WK : KV) (WR : RV) (h1 : (WK (Proc.devRef .tc Cert.KernelIdeal.main_arg1) : Cert.KernelIdeal.S2x800000.Idx → Elt Ideal (.i32)) = WR (Proc.devRef .tc Cert.ReferenceIdeal.main_arg1)) :
    (kGraph WK (Proc.devRef .tc Cert.KernelIdeal.main_v3) : Cert.KernelIdeal.S850000.Idx → Elt Ideal (.i32)) = rGraph WR (Proc.devRef .tc Cert.ReferenceIdeal.main_v3) := by
  dsimp only [kGraph, rGraph, Cert.KernelIdeal.Gen.hostOps0_2, Cert.KernelIdeal.Gen.hostOps0_1, Cert.KernelIdeal.Gen.hostOps0, Cert.ReferenceIdeal.RefOps.graph]
  read_fold
  rw [h1]
  rfl

set_option maxHeartbeats 4000000 in
/-- The edges' destination node numbers (self loops appended) agree. -/
theorem graph_dst (WK : KV) (WR : RV) (h1 : (WK (Proc.devRef .tc Cert.KernelIdeal.main_arg1) : Cert.KernelIdeal.S2x800000.Idx → Elt Ideal (.i32)) = WR (Proc.devRef .tc Cert.ReferenceIdeal.main_arg1)) :
    (kGraph WK (Proc.devRef .tc Cert.KernelIdeal.main_v6) : Cert.KernelIdeal.S850000.Idx → Elt Ideal (.i32)) = rGraph WR (Proc.devRef .tc Cert.ReferenceIdeal.main_v6) := by
  dsimp only [kGraph, rGraph, Cert.KernelIdeal.Gen.hostOps0_2, Cert.KernelIdeal.Gen.hostOps0_1, Cert.KernelIdeal.Gen.hostOps0, Cert.ReferenceIdeal.RefOps.graph]
  read_fold
  rw [h1]
  rfl

set_option maxHeartbeats 4000000 in
/-- The edge weights agree. -/
theorem graph_norm (WK : KV) (WR : RV) (h1 : (WK (Proc.devRef .tc Cert.KernelIdeal.main_arg1) : Cert.KernelIdeal.S2x800000.Idx → Elt Ideal (.i32)) = WR (Proc.devRef .tc Cert.ReferenceIdeal.main_arg1)) :
    (kGraph WK (Proc.devRef .tc Cert.KernelIdeal.main_v29) : Cert.KernelIdeal.S850000.Idx → EReal) = rGraph WR (Proc.devRef .tc Cert.ReferenceIdeal.main_v29) := by
  dsimp only [kGraph, rGraph, Cert.KernelIdeal.Gen.hostOps0_2, Cert.KernelIdeal.Gen.hostOps0_1, Cert.KernelIdeal.Gen.hostOps0, Cert.ReferenceIdeal.RefOps.graph]
  read_fold
  rw [h1]
  rfl

end Cert.Glue

end
-- ==== Proof.GlueConv1.lean ====
/-
  Layer 1's message passing and batch statistics are the same arithmetic in both programs: the transformed rows
  gathered at the edges' sources, scaled by the edge weights, scatter-added at the destinations, plus the bias row;
  then the column means and the biased column variances of the result. The kernel program also recasts the
  statistics and the scale and shift vectors as one-row arrays for its normalisation kernel.
-/
import proofs.«143667_j15642270892451_1_alg».proof.Proof.GlueBase

set_option maxRecDepth 16384

noncomputable section

namespace Cert.Glue

open Idealize.ShloMosaic Idealize.ShloMosaic.TcCoe Idealize.SL.Sem Idealize.ShloMosaic.StableHlo

/-- The kernel program's buffers after layer 1's host lines, from contents `W`. -/
abbrev kConv1 (W : KV) : KV := after (Cert.KernelIdeal.Gen.hostOps1_2 (F := Ideal)) (after (Cert.KernelIdeal.Gen.hostOps1_1 (F := Ideal)) (after (Cert.KernelIdeal.Gen.hostOps1 (F := Ideal)) (W)))
/-- The reference program's buffers after the same lines. -/
abbrev rConv1 (W : RV) : RV := after (Cert.ReferenceIdeal.RefOps.stats1 (F := Ideal)) (after (Cert.ReferenceIdeal.RefOps.conv1 (F := Ideal)) (W))

set_option maxHeartbeats 4000000 in
/-- The aggregated rows plus bias agree, when the transformed rows, the edge lists, the edge weights and the bias do. -/
theorem conv1_h (WK : KV) (WR : RV)
    (hmm : (WK (Proc.devRef .tc Cert.KernelIdeal.main_v30) : Cert.KernelIdeal.S50000x256.Idx → EReal) = WR (Proc.devRef .tc Cert.ReferenceIdeal.main_v30))
    (h3 : (WK (Proc.devRef .tc Cert.KernelIdeal.main_v3) : Cert.KernelIdeal.S850000.Idx → Elt Ideal (.i32)) = WR (Proc.devRef .tc Cert.ReferenceIdeal.main_v3))
    (h6 : (WK (Proc.devRef .tc Cert.KernelIdeal.main_v6) : Cert.KernelIdeal.S850000.Idx → Elt Ideal (.i32)) = WR (Proc.devRef .tc Cert.ReferenceIdeal.main_v6))
    (h29 : (WK (Proc.devRef .tc Cert.KernelIdeal.main_v29) : Cert.KernelIdeal.S850000.Idx → EReal) = WR (Proc.devRef .tc Cert.ReferenceIdeal.main_v29))
    (hb : (WK (Proc.devRef .tc Cert.KernelIdeal.main_arg3) : Cert.KernelIdeal.S256.Idx → EReal) = WR (Proc.devRef .tc Cert.ReferenceIdeal.main_arg3)) :
    (kConv1 WK (Proc.devRef .tc Cert.KernelIdeal.main_v46) : Cert.KernelIdeal.S50000x256.Idx → EReal) = rConv1 WR (Proc.devRef .tc Cert.ReferenceIdeal.main_v46) := by
  dsimp only [kConv1, rConv1, Cert.KernelIdeal.Gen.hostOps1, Cert.KernelIdeal.Gen.hostOps1_1, Cert.KernelIdeal.Gen.hostOps1_2, Cert.ReferenceIdeal.RefOps.conv1, Cert.ReferenceIdeal.RefOps.stats1]
  read_fold
  rw [hmm, h3, h6, h29, hb]
  rfl

set_option maxHeartbeats 4000000 in
/-- The kernel program's one-row array of column means is the reference's vector of column means recast as one row. -/
theorem conv1_mean (WK : KV) (WR : RV)
    (hmm : (WK (Proc.devRef .tc Cert.KernelIdeal.main_v30) : Cert.KernelIdeal.S50000x256.Idx → EReal) = WR (Proc.devRef .tc Cert.ReferenceIdeal.main_v30))
    (h3 : (WK (Proc.devRef .tc Cert.KernelIdeal.main_v3) : Cert.KernelIdeal.S850000.Idx → Elt Ideal (.i32)) = WR (Proc.devRef .tc Cert.ReferenceIdeal.main_v3))
    (h6 : (WK (Proc.devRef .tc Cert.KernelIdeal.main_v6) : Cert.KernelIdeal.S850000.Idx → Elt Ideal (.i32)) = WR (Proc.devRef .tc Cert.ReferenceIdeal.main_v6))
    (h29 : (WK (Proc.devRef .tc Cert.KernelIdeal.main_v29) : Cert.KernelIdeal.S850000.Idx → EReal) = WR (Proc.devRef .tc Cert.ReferenceIdeal.main_v29))
    (hb : (WK (Proc.devRef .tc Cert.KernelIdeal.main_arg3) : Cert.KernelIdeal.S256.Idx → EReal) = WR (Proc.devRef .tc Cert.ReferenceIdeal.main_arg3)) :
    (kConv1 WK (Proc.devRef .tc Cert.KernelIdeal.main_v50) : Cert.KernelIdeal.S1x256.Idx → EReal)
      = shapeCast Cert.KernelIdeal.S1x256 (rConv1 WR (Proc.devRef .tc Cert.ReferenceIdeal.main_v49) : Cert.KernelIdeal.S256.Idx → EReal) Cert.KernelIdeal.Gen.shapeCasts_S256_S1x256 := by
  dsimp only [kConv1, rConv1, Cert.KernelIdeal.Gen.hostOps1, Cert.KernelIdeal.Gen.hostOps1_1, Cert.KernelIdeal.Gen.hostOps1_2, Cert.ReferenceIdeal.RefOps.conv1, Cert.ReferenceIdeal.RefOps.stats1]
  read_fold
  rw [hmm, h3, h6, h29, hb]
  rfl

set_option maxHeartbeats 4000000 in
/-- The same for the column variances. -/
theorem conv1_var (WK : KV) (WR : RV)
    (hmm : (WK (Proc.devRef .tc Cert.KernelIdeal.main_v30) : Cert.KernelIdeal.S50000x256.Idx → EReal) = WR (Proc.devRef .tc Cert.ReferenceIdeal.main_v30))
    (h3 : (WK (Proc.devRef .tc Cert.KernelIdeal.main_v3) : Cert.KernelIdeal.S850000.Idx → Elt Ideal (.i32)) = WR (Proc.devRef .tc Cert.ReferenceIdeal.main_v3))
    (h6 : (WK (Proc.devRef .tc Cert.KernelIdeal.main_v6) : Cert.KernelIdeal.S850000.Idx → Elt Ideal (.i32)) = WR (Proc.devRef .tc Cert.ReferenceIdeal.main_v6))
    (h29 : (WK (Proc.devRef .tc Cert.KernelIdeal.main_v29) : Cert.KernelIdeal.S850000.Idx → EReal) = WR (Proc.devRef .tc Cert.ReferenceIdeal.main_v29))
    (hb : (WK (Proc.devRef .tc Cert.KernelIdeal.main_arg3) : Cert.KernelIdeal.S256.Idx → EReal) = WR (Proc.devRef .tc Cert.ReferenceIdeal.main_arg3)) :
    (kConv1 WK (Proc.devRef .tc Cert.KernelIdeal.main_v52) : Cert.KernelIdeal.S1x256.Idx → EReal)
      = shapeCast Cert.KernelIdeal.S1x256 (rConv1 WR (Proc.devRef .tc Cert.ReferenceIdeal.main_v50) : Cert.KernelIdeal.S256.Idx → EReal) Cert.KernelIdeal.Gen.shapeCasts_S256_S1x256 := by
  dsimp only [kConv1, rConv1, Cert.KernelIdeal.Gen.hostOps1, Cert.KernelIdeal.Gen.hostOps1_1, Cert.KernelIdeal.Gen.hostOps1_2, Cert.ReferenceIdeal.RefOps.conv1, Cert.ReferenceIdeal.RefOps.stats1]
  read_fold
  rw [hmm, h3, h6, h29, hb]
  rfl

set_option maxHeartbeats 4000000 in
/-- The scale vector recast as one row. -/
theorem conv1_g (WK : KV) :
    (kConv1 WK (Proc.devRef .tc Cert.KernelIdeal.main_v53) : Cert.KernelIdeal.S1x256.Idx → EReal)
      = shapeCast Cert.KernelIdeal.S1x256 (WK (Proc.devRef .tc Cert.KernelIdeal.main_arg4) : Cert.KernelIdeal.S256.Idx → EReal) Cert.KernelIdeal.Gen.shapeCasts_S256_S1x256 := by
  dsimp only [kConv1, Cert.KernelIdeal.Gen.hostOps1, Cert.KernelIdeal.Gen.hostOps1_1, Cert.KernelIdeal.Gen.hostOps1_2]
  read_fold
  rfl

set_option maxHeartbeats 4000000 in
/-- The shift vector recast as one row. -/
theorem conv1_be (WK : KV) :
    (kConv1 WK (Proc.devRef .tc Cert.KernelIdeal.main_v54) : Cert.KernelIdeal.S1x256.Idx → EReal)
      = shapeCast Cert.KernelIdeal.S1x256 (WK (Proc.devRef .tc Cert.KernelIdeal.main_arg5) : Cert.KernelIdeal.S256.Idx → EReal) Cert.KernelIdeal.Gen.shapeCasts_S256_S1x256 := by
  dsimp only [kConv1, Cert.KernelIdeal.Gen.hostOps1, Cert.KernelIdeal.Gen.hostOps1_1, Cert.KernelIdeal.Gen.hostOps1_2]
  read_fold
  rfl

end Cert.Glue

end
-- ==== Proof.GlueConv2.lean ====
/-
  Layer 2's message passing and batch statistics are the same arithmetic in both programs: the transformed rows
  gathered at the edges' sources, scaled by the edge weights, scatter-added at the destinations, plus the bias row;
  then the column means and the biased column variances of the result. The kernel program also recasts the
  statistics and the scale and shift vectors as one-row arrays for its normalisation kernel.
-/
import proofs.«143667_j15642270892451_1_alg».proof.Proof.GlueBase

set_option maxRecDepth 16384

noncomputable section

namespace Cert.Glue

open Idealize.ShloMosaic Idealize.ShloMosaic.TcCoe Idealize.SL.Sem Idealize.ShloMosaic.StableHlo

/-- The kernel program's buffers after layer 2's host lines, from contents `W`. -/
abbrev kConv2 (W : KV) : KV := after (Cert.KernelIdeal.Gen.hostOps3_2 (F := Ideal)) (after (Cert.KernelIdeal.Gen.hostOps3_1 (F := Ideal)) (after (Cert.KernelIdeal.Gen.hostOps3 (F := Ideal)) (W)))
/-- The reference program's buffers after the same lines. -/
abbrev rConv2 (W : RV) : RV := after (Cert.ReferenceIdeal.RefOps.stats2 (F := Ideal)) (after (Cert.ReferenceIdeal.RefOps.conv2 (F := Ideal)) (W))

set_option maxHeartbeats 4000000 in
/-- The aggregated rows plus bias agree, when the transformed rows, the edge lists, the edge weights and the bias do. -/
theorem conv2_h (WK : KV) (WR : RV)
    (hmm : (WK (Proc.devRef .tc Cert.KernelIdeal.main_v56) : Cert.KernelIdeal.S50000x256.Idx → EReal) = WR (Proc.devRef .tc Cert.ReferenceIdeal.main_v67))
    (h3 : (WK (Proc.devRef .tc Cert.KernelIdeal.main_v3) : Cert.KernelIdeal.S850000.Idx → Elt Ideal (.i32)) = WR (Proc.devRef .tc Cert.ReferenceIdeal.main_v3))
    (h6 : (WK (Proc.devRef .tc Cert.KernelIdeal.main_v6) : Cert.KernelIdeal.S850000.Idx → Elt Ideal (.i32)) = WR (Proc.devRef .tc Cert.ReferenceIdeal.main_v6))
    (h29 : (WK (Proc.devRef .tc Cert.KernelIdeal.main_v29) : Cert.KernelIdeal.S850000.Idx → EReal) = WR (Proc.devRef .tc Cert.ReferenceIdeal.main_v29))
    (hb : (WK (Proc.devRef .tc Cert.KernelIdeal.main_arg7) : Cert.KernelIdeal.S256.Idx → EReal) = WR (Proc.devRef .tc Cert.ReferenceIdeal.main_arg7)) :
    (kConv2 WK (Proc.devRef .tc Cert.KernelIdeal.main_v72) : Cert.KernelIdeal.S50000x256.Idx → EReal) = rConv2 WR (Proc.devRef .tc Cert.ReferenceIdeal.main_v83) := by
  dsimp only [kConv2, rConv2, Cert.KernelIdeal.Gen.hostOps3, Cert.KernelIdeal.Gen.hostOps3_1, Cert.KernelIdeal.Gen.hostOps3_2, Cert.ReferenceIdeal.RefOps.conv2, Cert.ReferenceIdeal.RefOps.stats2]
  read_fold
  rw [hmm, h3, h6, h29, hb]
  rfl

set_option maxHeartbeats 4000000 in
/-- The kernel program's one-row array of column means is the reference's vector of column means recast as one row. -/
theorem conv2_mean (WK : KV) (WR : RV)
    (hmm : (WK (Proc.devRef .tc Cert.KernelIdeal.main_v56) : Cert.KernelIdeal.S50000x256.Idx → EReal) = WR (Proc.devRef .tc Cert.ReferenceIdeal.main_v67))
    (h3 : (WK (Proc.devRef .tc Cert.KernelIdeal.main_v3) : Cert.KernelIdeal.S850000.Idx → Elt Ideal (.i32)) = WR (Proc.devRef .tc Cert.ReferenceIdeal.main_v3))
    (h6 : (WK (Proc.devRef .tc Cert.KernelIdeal.main_v6) : Cert.KernelIdeal.S850000.Idx → Elt Ideal (.i32)) = WR (Proc.devRef .tc Cert.ReferenceIdeal.main_v6))
    (h29 : (WK (Proc.devRef .tc Cert.KernelIdeal.main_v29) : Cert.KernelIdeal.S850000.Idx → EReal) = WR (Proc.devRef .tc Cert.ReferenceIdeal.main_v29))
    (hb : (WK (Proc.devRef .tc Cert.KernelIdeal.main_arg7) : Cert.KernelIdeal.S256.Idx → EReal) = WR (Proc.devRef .tc Cert.ReferenceIdeal.main_arg7)) :
    (kConv2 WK (Proc.devRef .tc Cert.KernelIdeal.main_v76) : Cert.KernelIdeal.S1x256.Idx → EReal)
      = shapeCast Cert.KernelIdeal.S1x256 (rConv2 WR (Proc.devRef .tc Cert.ReferenceIdeal.main_v86) : Cert.KernelIdeal.S256.Idx → EReal) Cert.KernelIdeal.Gen.shapeCasts_S256_S1x256 := by
  dsimp only [kConv2, rConv2, Cert.KernelIdeal.Gen.hostOps3, Cert.KernelIdeal.Gen.hostOps3_1, Cert.KernelIdeal.Gen.hostOps3_2, Cert.ReferenceIdeal.RefOps.conv2, Cert.ReferenceIdeal.RefOps.stats2]
  read_fold
  rw [hmm, h3, h6, h29, hb]
  rfl

set_option maxHeartbeats 4000000 in
/-- The same for the column variances. -/
theorem conv2_var (WK : KV) (WR : RV)
    (hmm : (WK (Proc.devRef .tc Cert.KernelIdeal.main_v56) : Cert.KernelIdeal.S50000x256.Idx → EReal) = WR (Proc.devRef .tc Cert.ReferenceIdeal.main_v67))
    (h3 : (WK (Proc.devRef .tc Cert.KernelIdeal.main_v3) : Cert.KernelIdeal.S850000.Idx → Elt Ideal (.i32)) = WR (Proc.devRef .tc Cert.ReferenceIdeal.main_v3))
    (h6 : (WK (Proc.devRef .tc Cert.KernelIdeal.main_v6) : Cert.KernelIdeal.S850000.Idx → Elt Ideal (.i32)) = WR (Proc.devRef .tc Cert.ReferenceIdeal.main_v6))
    (h29 : (WK (Proc.devRef .tc Cert.KernelIdeal.main_v29) : Cert.KernelIdeal.S850000.Idx → EReal) = WR (Proc.devRef .tc Cert.ReferenceIdeal.main_v29))
    (hb : (WK (Proc.devRef .tc Cert.KernelIdeal.main_arg7) : Cert.KernelIdeal.S256.Idx → EReal) = WR (Proc.devRef .tc Cert.ReferenceIdeal.main_arg7)) :
    (kConv2 WK (Proc.devRef .tc Cert.KernelIdeal.main_v78) : Cert.KernelIdeal.S1x256.Idx → EReal)
      = shapeCast Cert.KernelIdeal.S1x256 (rConv2 WR (Proc.devRef .tc Cert.ReferenceIdeal.main_v87) : Cert.KernelIdeal.S256.Idx → EReal) Cert.KernelIdeal.Gen.shapeCasts_S256_S1x256 := by
  dsimp only [kConv2, rConv2, Cert.KernelIdeal.Gen.hostOps3, Cert.KernelIdeal.Gen.hostOps3_1, Cert.KernelIdeal.Gen.hostOps3_2, Cert.ReferenceIdeal.RefOps.conv2, Cert.ReferenceIdeal.RefOps.stats2]
  read_fold
  rw [hmm, h3, h6, h29, hb]
  rfl

set_option maxHeartbeats 4000000 in
/-- The scale vector recast as one row. -/
theorem conv2_g (WK : KV) :
    (kConv2 WK (Proc.devRef .tc Cert.KernelIdeal.main_v79) : Cert.KernelIdeal.S1x256.Idx → EReal)
      = shapeCast Cert.KernelIdeal.S1x256 (WK (Proc.devRef .tc Cert.KernelIdeal.main_arg8) : Cert.KernelIdeal.S256.Idx → EReal) Cert.KernelIdeal.Gen.shapeCasts_S256_S1x256 := by
  dsimp only [kConv2, Cert.KernelIdeal.Gen.hostOps3, Cert.KernelIdeal.Gen.hostOps3_1, Cert.KernelIdeal.Gen.hostOps3_2]
  read_fold
  rfl

set_option maxHeartbeats 4000000 in
/-- The shift vector recast as one row. -/
theorem conv2_be (WK : KV) :
    (kConv2 WK (Proc.devRef .tc Cert.KernelIdeal.main_v80) : Cert.KernelIdeal.S1x256.Idx → EReal)
      = shapeCast Cert.KernelIdeal.S1x256 (WK (Proc.devRef .tc Cert.KernelIdeal.main_arg9) : Cert.KernelIdeal.S256.Idx → EReal) Cert.KernelIdeal.Gen.shapeCasts_S256_S1x256 := by
  dsimp only [kConv2, Cert.KernelIdeal.Gen.hostOps3, Cert.KernelIdeal.Gen.hostOps3_1, Cert.KernelIdeal.Gen.hostOps3_2]
  read_fold
  rfl

end Cert.Glue

end
-- ==== Proof.GlueConv3.lean ====
/-
  Layer 3's message passing is the same arithmetic in both programs: the transformed rows gathered at the edges'
  sources, scaled by the edge weights, scatter-added at the destinations, plus the bias row. The kernel program also
  recasts the classifier's bias vector as a one-row array for its last kernel.
-/
import proofs.«143667_j15642270892451_1_alg».proof.Proof.GlueBase

set_option maxRecDepth 16384

noncomputable section

namespace Cert.Glue

open Idealize.ShloMosaic Idealize.ShloMosaic.TcCoe Idealize.SL.Sem Idealize.ShloMosaic.StableHlo

/-- The kernel program's buffers after layer 3's host lines, from contents `W`. -/
abbrev kConv3 (W : KV) : KV := after (Cert.KernelIdeal.Gen.hostOps5 (F := Ideal)) (W)
/-- The reference program's buffers after the same lines. -/
abbrev rConv3 (W : RV) : RV := after (Cert.ReferenceIdeal.RefOps.conv3 (F := Ideal)) (W)

set_option maxHeartbeats 4000000 in
/-- The aggregated rows plus bias agree, when the transformed rows, the edge lists, the edge weights and the bias do. -/
theorem conv3_h (WK : KV) (WR : RV)
    (hmm : (WK (Proc.devRef .tc Cert.KernelIdeal.main_v82) : Cert.KernelIdeal.S50000x40.Idx → EReal) = WR (Proc.devRef .tc Cert.ReferenceIdeal.main_v104))
    (h3 : (WK (Proc.devRef .tc Cert.KernelIdeal.main_v3) : Cert.KernelIdeal.S850000.Idx → Elt Ideal (.i32)) = WR (Proc.devRef .tc Cert.ReferenceIdeal.main_v3))
    (h6 : (WK (Proc.devRef .tc Cert.KernelIdeal.main_v6) : Cert.KernelIdeal.S850000.Idx → Elt Ideal (.i32)) = WR (Proc.devRef .tc Cert.ReferenceIdeal.main_v6))
    (h29 : (WK (Proc.devRef .tc Cert.KernelIdeal.main_v29) : Cert.KernelIdeal.S850000.Idx → EReal) = WR (Proc.devRef .tc Cert.ReferenceIdeal.main_v29))
    (hb : (WK (Proc.devRef .tc Cert.KernelIdeal.main_arg11) : Cert.KernelIdeal.S40.Idx → EReal) = WR (Proc.devRef .tc Cert.ReferenceIdeal.main_arg11)) :
    (kConv3 WK (Proc.devRef .tc Cert.KernelIdeal.main_v98) : Cert.KernelIdeal.S50000x40.Idx → EReal) = rConv3 WR (Proc.devRef .tc Cert.ReferenceIdeal.main_v120) := by
  dsimp only [kConv3, rConv3, Cert.KernelIdeal.Gen.hostOps5, Cert.ReferenceIdeal.RefOps.conv3]
  read_fold
  rw [hmm, h3, h6, h29, hb]
  rfl

set_option maxHeartbeats 4000000 in
/-- The classifier's bias vector recast as one row. -/
theorem conv3_brow (WK : KV) :
    (kConv3 WK (Proc.devRef .tc Cert.KernelIdeal.main_v99) : Cert.KernelIdeal.S1x40.Idx → EReal)
      = shapeCast Cert.KernelIdeal.S1x40 (WK (Proc.devRef .tc Cert.KernelIdeal.main_arg13) : Cert.KernelIdeal.S40.Idx → EReal) Cert.KernelIdeal.Gen.shapeCasts_S40_S1x40 := by
  dsimp only [kConv3, Cert.KernelIdeal.Gen.hostOps5]
  read_fold
  rfl

end Cert.Glue

end
-- ==== Proof.GlueChain.lean ====
/-
  The reference program's run cut at the points where the kernel program enters and leaves its kernels: the buffer
  contents after the graph's structure, after each layer's dense transform, message passing with statistics, and
  normalisation, and after the classifier. The whole program's fold is the last of these; and the kernel program's
  own host stretches are the folds compared with them.
-/
import proofs.«143667_j15642270892451_1_alg».proof.Proof.GlueGraph
import proofs.«143667_j15642270892451_1_alg».proof.Proof.GlueConv1
import proofs.«143667_j15642270892451_1_alg».proof.Proof.GlueConv2
import proofs.«143667_j15642270892451_1_alg».proof.Proof.GlueConv3

set_option maxRecDepth 16384

noncomputable section

namespace Cert.Glue

open Idealize.ShloMosaic Idealize.ShloMosaic.TcCoe Idealize.SL.Sem Idealize.ShloMosaic.StableHlo

open Cert.ReferenceIdeal in
/-- After the graph's structure. -/
abbrev R1 (V : RV) : RV := rGraph V
/-- After layer 1's dense transform. -/
abbrev R2 (V : RV) : RV := after (Cert.ReferenceIdeal.RefOps.dot1 (F := Ideal)) (R1 V)
/-- After layer 1's message passing and statistics. -/
abbrev R3 (V : RV) : RV := rConv1 (R2 V)
/-- After layer 1's normalisation and rectifier. -/
abbrev R4 (V : RV) : RV := after (Cert.ReferenceIdeal.RefOps.bn1 (F := Ideal)) (R3 V)
/-- After layer 2's dense transform. -/
abbrev R5 (V : RV) : RV := after (Cert.ReferenceIdeal.RefOps.dot2 (F := Ideal)) (R4 V)
/-- After layer 2's message passing and statistics. -/
abbrev R6 (V : RV) : RV := rConv2 (R5 V)
/-- After layer 2's normalisation and rectifier. -/
abbrev R7 (V : RV) : RV := after (Cert.ReferenceIdeal.RefOps.bn2 (F := Ideal)) (R6 V)
/-- After layer 3's dense transform. -/
abbrev R8 (V : RV) : RV := after (Cert.ReferenceIdeal.RefOps.dot3 (F := Ideal)) (R7 V)
/-- After layer 3's message passing. -/
abbrev R9 (V : RV) : RV := rConv3 (R8 V)
/-- After the classifier: the end of the program. -/
abbrev R10 (V : RV) : RV := after (Cert.ReferenceIdeal.RefOps.fin (F := Ideal)) (R9 V)

/-- The whole program's fold is the fold stretch by stretch. -/
theorem all_eq (V : RV) : after (Cert.ReferenceIdeal.RefOps.all (F := Ideal)) V = R10 V := by
  dsimp only [Cert.ReferenceIdeal.RefOps.all]
  simp only [after_append]

end Cert.Glue

end
-- ==== Proof.GlueKeepK.lean ====
/-
  What the kernel program's host lines and kernels leave alone. A stretch of host operations writes only its own
  result buffers, and a kernel's write-backs change only its windows' arrays; every other buffer holds after the
  stretch or the kernel what it held before. So each parameter array (a weight matrix, a bias, a scale, a shift)
  still holds its launch contents at the point of the program where it is first read, and the edge lists and edge
  weights computed once at the start still hold those values when each later layer's message passing reads them.
-/
import proofs.«143667_j15642270892451_1_alg».proof.Proof.Gen.KernelIdeal.Frame
import Idealize.ShloMosaic.Lib.StableHlo.Run
import Idealize.ShloMosaic.PureOps.Ideal

set_option maxRecDepth 16384

noncomputable section

namespace Cert.Glue

open Idealize.ShloMosaic Idealize.ShloMosaic.TcCoe Idealize.SL.Sem Idealize.ShloMosaic.StableHlo
open Cert.KernelIdeal Cert.KernelIdeal.Gen

/-- A buffer that no operation of a stretch writes holds after the stretch what it held before. -/
theorem kept_k {τ : Topo} {sig : RefSig} {Val : EltTy → Type} (ops : List (HloOp τ sig Val)) (W : Valuation τ sig Val) (b : Ref sig .tc)
    (h : ops.Forall fun op => Proc.devRef (τ := τ) .tc b ∉ op.writes) :
    after ops W (Proc.devRef .tc b) = W (Proc.devRef .tc b) :=
  after_of_forall_not_mem ops W (List.forall_iff_forall_mem.mp h)

/-- Decides, operation by operation, that a literal stretch of the kernel program's host lines does not write a
    literal buffer: each operation writes its one result buffer, another reference. -/
macro "k_not_written" : tactic =>
  `(tactic| (
    simp only [hostOps0, hostOps0_1, hostOps0_2, hostOps1, hostOps1_1, hostOps1_2, hostOps3, hostOps3_1, hostOps3_2, hostOps5,
      List.Forall, nullary_writes, unary_writes, binary_writes, ternary_writes, quaternary_writes, reshape_writes,
      binaryIndexed_writes, Finset.mem_singleton]
    repeat' apply And.intro
    all_goals exact devRef_ne_of_ne (by decide)))

variable (m : (ℓ : Loc nD τ sig) → Buf (Elt Ideal) ℓ) (ρ : Dev nD → PrngReg)

/-! ## The parameter arrays where they are first read: still the launch contents

Each chain walks back from the point of the program named in the statement to the launch, one stretch of host lines or
one kernel at a time; none of them writes the argument. -/

/-- Argument 0 still holds its launch contents when the first kernel (layer 1's dense product) is entered. -/
theorem karg0 (c : Dev nD) : W3 m ρ c (Proc.devRef .tc main_arg0) = m ((c : Thread nD τ).loc main_arg0) :=
  calc W3 m ρ c (Proc.devRef .tc main_arg0)
    _ = W2 m ρ c (Proc.devRef .tc main_arg0) := kept_k hostOps0_2 (W2 m ρ c) main_arg0 (by k_not_written)
    _ = W1 m ρ c (Proc.devRef .tc main_arg0) := kept_k hostOps0_1 (W1 m ρ c) main_arg0 (by k_not_written)
    _ = W0 m ρ c (Proc.devRef .tc main_arg0) := kept_k hostOps0 (W0 m ρ c) main_arg0 (by k_not_written)
    _ = m ((c : Thread nD τ).loc main_arg0) := rfl

/-- Argument 2 still holds its launch contents when the first kernel (layer 1's dense product) is entered. -/
theorem karg2 (c : Dev nD) : W3 m ρ c (Proc.devRef .tc main_arg2) = m ((c : Thread nD τ).loc main_arg2) :=
  calc W3 m ρ c (Proc.devRef .tc main_arg2)
    _ = W2 m ρ c (Proc.devRef .tc main_arg2) := kept_k hostOps0_2 (W2 m ρ c) main_arg2 (by k_not_written)
    _ = W1 m ρ c (Proc.devRef .tc main_arg2) := kept_k hostOps0_1 (W1 m ρ c) main_arg2 (by k_not_written)
    _ = W0 m ρ c (Proc.devRef .tc main_arg2) := kept_k hostOps0 (W0 m ρ c) main_arg2 (by k_not_written)
    _ = m ((c : Thread nD τ).loc main_arg2) := rfl

/-- Argument 3 still holds its launch contents when layer 1's message passing starts, after the first kernel. -/
theorem karg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := kept_k hostOps0_2 (W2 m ρ c) main_arg3 (by k_not_written)
    _ = W1 m ρ c (Proc.devRef .tc main_arg3) := kept_k hostOps0_1 (W1 m ρ c) main_arg3 (by k_not_written)
    _ = W0 m ρ c (Proc.devRef .tc main_arg3) := kept_k hostOps0 (W0 m ρ c) main_arg3 (by k_not_written)
    _ = m ((c : Thread nD τ).loc main_arg3) := rfl

/-- Argument 4 still holds its launch contents when layer 1's message passing starts, after the first kernel. -/
theorem karg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := kept_k hostOps0_2 (W2 m ρ c) main_arg4 (by k_not_written)
    _ = W1 m ρ c (Proc.devRef .tc main_arg4) := kept_k hostOps0_1 (W1 m ρ c) main_arg4 (by k_not_written)
    _ = W0 m ρ c (Proc.devRef .tc main_arg4) := kept_k hostOps0 (W0 m ρ c) main_arg4 (by k_not_written)
    _ = m ((c : Thread nD τ).loc main_arg4) := rfl

/-- Argument 5 still holds its launch contents when layer 1's message passing starts, after the first kernel. -/
theorem karg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := kept_k hostOps0_2 (W2 m ρ c) main_arg5 (by k_not_written)
    _ = W1 m ρ c (Proc.devRef .tc main_arg5) := kept_k hostOps0_1 (W1 m ρ c) main_arg5 (by k_not_written)
    _ = W0 m ρ c (Proc.devRef .tc main_arg5) := kept_k hostOps0 (W0 m ρ c) main_arg5 (by k_not_written)
    _ = m ((c : Thread nD τ).loc main_arg5) := rfl

/-- Argument 6 still holds its launch contents when the third kernel (layer 2's dense product) is entered. -/
theorem karg6 (c : Dev nD) : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := kept_k hostOps1_2 (W6 m ρ c) main_arg6 (by k_not_written)
    _ = W5 m ρ c (Proc.devRef .tc main_arg6) := kept_k hostOps1_1 (W5 m ρ c) main_arg6 (by k_not_written)
    _ = W4 m ρ c (Proc.devRef .tc main_arg6) := kept_k hostOps1 (W4 m ρ c) main_arg6 (by k_not_written)
    _ = W3 m ρ c (Proc.devRef .tc main_arg6) := W4_of_ne m ρ c main_arg6 (by decide)
    _ = W2 m ρ c (Proc.devRef .tc main_arg6) := kept_k hostOps0_2 (W2 m ρ c) main_arg6 (by k_not_written)
    _ = W1 m ρ c (Proc.devRef .tc main_arg6) := kept_k hostOps0_1 (W1 m ρ c) main_arg6 (by k_not_written)
    _ = W0 m ρ c (Proc.devRef .tc main_arg6) := kept_k hostOps0 (W0 m ρ c) main_arg6 (by k_not_written)
    _ = m ((c : Thread nD τ).loc main_arg6) := rfl

/-- Argument 7 still holds its launch contents when layer 2's message passing starts, after the third kernel. -/
theorem karg7 (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := kept_k hostOps1_2 (W6 m ρ c) main_arg7 (by k_not_written)
    _ = W5 m ρ c (Proc.devRef .tc main_arg7) := kept_k hostOps1_1 (W5 m ρ c) main_arg7 (by k_not_written)
    _ = W4 m ρ c (Proc.devRef .tc main_arg7) := kept_k hostOps1 (W4 m ρ c) main_arg7 (by k_not_written)
    _ = W3 m ρ c (Proc.devRef .tc main_arg7) := W4_of_ne m ρ c main_arg7 (by decide)
    _ = W2 m ρ c (Proc.devRef .tc main_arg7) := kept_k hostOps0_2 (W2 m ρ c) main_arg7 (by k_not_written)
    _ = W1 m ρ c (Proc.devRef .tc main_arg7) := kept_k hostOps0_1 (W1 m ρ c) main_arg7 (by k_not_written)
    _ = W0 m ρ c (Proc.devRef .tc main_arg7) := kept_k hostOps0 (W0 m ρ c) main_arg7 (by k_not_written)
    _ = m ((c : Thread nD τ).loc main_arg7) := rfl

/-- Argument 8 still holds its launch contents when layer 2's message passing starts, after the third kernel. -/
theorem karg8 (c : Dev nD) : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := kept_k hostOps1_2 (W6 m ρ c) main_arg8 (by k_not_written)
    _ = W5 m ρ c (Proc.devRef .tc main_arg8) := kept_k hostOps1_1 (W5 m ρ c) main_arg8 (by k_not_written)
    _ = W4 m ρ c (Proc.devRef .tc main_arg8) := kept_k hostOps1 (W4 m ρ c) main_arg8 (by k_not_written)
    _ = W3 m ρ c (Proc.devRef .tc main_arg8) := W4_of_ne m ρ c main_arg8 (by decide)
    _ = W2 m ρ c (Proc.devRef .tc main_arg8) := kept_k hostOps0_2 (W2 m ρ c) main_arg8 (by k_not_written)
    _ = W1 m ρ c (Proc.devRef .tc main_arg8) := kept_k hostOps0_1 (W1 m ρ c) main_arg8 (by k_not_written)
    _ = W0 m ρ c (Proc.devRef .tc main_arg8) := kept_k hostOps0 (W0 m ρ c) main_arg8 (by k_not_written)
    _ = m ((c : Thread nD τ).loc main_arg8) := rfl

/-- Argument 9 still holds its launch contents when layer 2's message passing starts, after the third kernel. -/
theorem karg9 (c : Dev nD) : W9 m ρ c (Proc.devRef .tc main_arg9) = m ((c : Thread nD τ).loc main_arg9) :=
  calc W9 m ρ c (Proc.devRef .tc main_arg9)
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := kept_k hostOps1_2 (W6 m ρ c) main_arg9 (by k_not_written)
    _ = W5 m ρ c (Proc.devRef .tc main_arg9) := kept_k hostOps1_1 (W5 m ρ c) main_arg9 (by k_not_written)
    _ = W4 m ρ c (Proc.devRef .tc main_arg9) := kept_k hostOps1 (W4 m ρ c) main_arg9 (by k_not_written)
    _ = W3 m ρ c (Proc.devRef .tc main_arg9) := W4_of_ne m ρ c main_arg9 (by decide)
    _ = W2 m ρ c (Proc.devRef .tc main_arg9) := kept_k hostOps0_2 (W2 m ρ c) main_arg9 (by k_not_written)
    _ = W1 m ρ c (Proc.devRef .tc main_arg9) := kept_k hostOps0_1 (W1 m ρ c) main_arg9 (by k_not_written)
    _ = W0 m ρ c (Proc.devRef .tc main_arg9) := kept_k hostOps0 (W0 m ρ c) main_arg9 (by k_not_written)
    _ = m ((c : Thread nD τ).loc main_arg9) := rfl

/-- Argument 10 still holds its launch contents when the fifth kernel (layer 3's dense product) is entered. -/
theorem karg10 (c : Dev nD) : W13 m ρ c (Proc.devRef .tc main_arg10) = m ((c : Thread nD τ).loc main_arg10) :=
  calc W13 m ρ c (Proc.devRef .tc main_arg10)
    _ = W12 m ρ c (Proc.devRef .tc main_arg10) := W13_of_ne m ρ c main_arg10 (by decide)
    _ = W11 m ρ c (Proc.devRef .tc main_arg10) := kept_k hostOps3_2 (W11 m ρ c) main_arg10 (by k_not_written)
    _ = W10 m ρ c (Proc.devRef .tc main_arg10) := kept_k hostOps3_1 (W10 m ρ c) main_arg10 (by k_not_written)
    _ = W9 m ρ c (Proc.devRef .tc main_arg10) := kept_k hostOps3 (W9 m ρ c) main_arg10 (by k_not_written)
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := kept_k hostOps1_2 (W6 m ρ c) main_arg10 (by k_not_written)
    _ = W5 m ρ c (Proc.devRef .tc main_arg10) := kept_k hostOps1_1 (W5 m ρ c) main_arg10 (by k_not_written)
    _ = W4 m ρ c (Proc.devRef .tc main_arg10) := kept_k hostOps1 (W4 m ρ c) main_arg10 (by k_not_written)
    _ = W3 m ρ c (Proc.devRef .tc main_arg10) := W4_of_ne m ρ c main_arg10 (by decide)
    _ = W2 m ρ c (Proc.devRef .tc main_arg10) := kept_k hostOps0_2 (W2 m ρ c) main_arg10 (by k_not_written)
    _ = W1 m ρ c (Proc.devRef .tc main_arg10) := kept_k hostOps0_1 (W1 m ρ c) main_arg10 (by k_not_written)
    _ = W0 m ρ c (Proc.devRef .tc main_arg10) := kept_k hostOps0 (W0 m ρ c) main_arg10 (by k_not_written)
    _ = m ((c : Thread nD τ).loc main_arg10) := rfl

/-- Argument 11 still holds its launch contents when layer 3's message passing starts, after the fifth kernel. -/
theorem karg11 (c : Dev nD) : W14 m ρ c (Proc.devRef .tc main_arg11) = m ((c : Thread nD τ).loc main_arg11) :=
  calc W14 m ρ c (Proc.devRef .tc main_arg11)
    _ = W13 m ρ c (Proc.devRef .tc main_arg11) := W14_of_ne m ρ c main_arg11 (by decide)
    _ = W12 m ρ c (Proc.devRef .tc main_arg11) := W13_of_ne m ρ c main_arg11 (by decide)
    _ = W11 m ρ c (Proc.devRef .tc main_arg11) := kept_k hostOps3_2 (W11 m ρ c) main_arg11 (by k_not_written)
    _ = W10 m ρ c (Proc.devRef .tc main_arg11) := kept_k hostOps3_1 (W10 m ρ c) main_arg11 (by k_not_written)
    _ = W9 m ρ c (Proc.devRef .tc main_arg11) := kept_k hostOps3 (W9 m ρ c) main_arg11 (by k_not_written)
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := kept_k hostOps1_2 (W6 m ρ c) main_arg11 (by k_not_written)
    _ = W5 m ρ c (Proc.devRef .tc main_arg11) := kept_k hostOps1_1 (W5 m ρ c) main_arg11 (by k_not_written)
    _ = W4 m ρ c (Proc.devRef .tc main_arg11) := kept_k hostOps1 (W4 m ρ c) main_arg11 (by k_not_written)
    _ = W3 m ρ c (Proc.devRef .tc main_arg11) := W4_of_ne m ρ c main_arg11 (by decide)
    _ = W2 m ρ c (Proc.devRef .tc main_arg11) := kept_k hostOps0_2 (W2 m ρ c) main_arg11 (by k_not_written)
    _ = W1 m ρ c (Proc.devRef .tc main_arg11) := kept_k hostOps0_1 (W1 m ρ c) main_arg11 (by k_not_written)
    _ = W0 m ρ c (Proc.devRef .tc main_arg11) := kept_k hostOps0 (W0 m ρ c) main_arg11 (by k_not_written)
    _ = m ((c : Thread nD τ).loc main_arg11) := rfl

/-- Argument 13 still holds its launch contents when layer 3's message passing starts, after the fifth kernel. -/
theorem karg13 (c : Dev nD) : W14 m ρ c (Proc.devRef .tc main_arg13) = m ((c : Thread nD τ).loc main_arg13) :=
  calc W14 m ρ c (Proc.devRef .tc main_arg13)
    _ = W13 m ρ c (Proc.devRef .tc main_arg13) := W14_of_ne m ρ c main_arg13 (by decide)
    _ = W12 m ρ c (Proc.devRef .tc main_arg13) := W13_of_ne m ρ c main_arg13 (by decide)
    _ = W11 m ρ c (Proc.devRef .tc main_arg13) := kept_k hostOps3_2 (W11 m ρ c) main_arg13 (by k_not_written)
    _ = W10 m ρ c (Proc.devRef .tc main_arg13) := kept_k hostOps3_1 (W10 m ρ c) main_arg13 (by k_not_written)
    _ = W9 m ρ c (Proc.devRef .tc main_arg13) := kept_k hostOps3 (W9 m ρ c) main_arg13 (by k_not_written)
    _ = W8 m ρ c (Proc.devRef .tc main_arg13) := W9_of_ne m ρ c main_arg13 (by decide)
    _ = W7 m ρ c (Proc.devRef .tc main_arg13) := W8_of_ne m ρ c main_arg13 (by decide)
    _ = W6 m ρ c (Proc.devRef .tc main_arg13) := kept_k hostOps1_2 (W6 m ρ c) main_arg13 (by k_not_written)
    _ = W5 m ρ c (Proc.devRef .tc main_arg13) := kept_k hostOps1_1 (W5 m ρ c) main_arg13 (by k_not_written)
    _ = W4 m ρ c (Proc.devRef .tc main_arg13) := kept_k hostOps1 (W4 m ρ c) main_arg13 (by k_not_written)
    _ = W3 m ρ c (Proc.devRef .tc main_arg13) := W4_of_ne m ρ c main_arg13 (by decide)
    _ = W2 m ρ c (Proc.devRef .tc main_arg13) := kept_k hostOps0_2 (W2 m ρ c) main_arg13 (by k_not_written)
    _ = W1 m ρ c (Proc.devRef .tc main_arg13) := kept_k hostOps0_1 (W1 m ρ c) main_arg13 (by k_not_written)
    _ = W0 m ρ c (Proc.devRef .tc main_arg13) := kept_k hostOps0 (W0 m ρ c) main_arg13 (by k_not_written)
    _ = m ((c : Thread nD τ).loc main_arg13) := rfl

/-- Argument 12 still holds its launch contents when the last kernel (the classifier) is entered. -/
theorem karg12 (c : Dev nD) : W15 m ρ c (Proc.devRef .tc main_arg12) = m ((c : Thread nD τ).loc main_arg12) :=
  calc W15 m ρ c (Proc.devRef .tc main_arg12)
    _ = W14 m ρ c (Proc.devRef .tc main_arg12) := kept_k hostOps5 (W14 m ρ c) main_arg12 (by k_not_written)
    _ = W13 m ρ c (Proc.devRef .tc main_arg12) := W14_of_ne m ρ c main_arg12 (by decide)
    _ = W12 m ρ c (Proc.devRef .tc main_arg12) := W13_of_ne m ρ c main_arg12 (by decide)
    _ = W11 m ρ c (Proc.devRef .tc main_arg12) := kept_k hostOps3_2 (W11 m ρ c) main_arg12 (by k_not_written)
    _ = W10 m ρ c (Proc.devRef .tc main_arg12) := kept_k hostOps3_1 (W10 m ρ c) main_arg12 (by k_not_written)
    _ = W9 m ρ c (Proc.devRef .tc main_arg12) := kept_k hostOps3 (W9 m ρ c) main_arg12 (by k_not_written)
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := kept_k hostOps1_2 (W6 m ρ c) main_arg12 (by k_not_written)
    _ = W5 m ρ c (Proc.devRef .tc main_arg12) := kept_k hostOps1_1 (W5 m ρ c) main_arg12 (by k_not_written)
    _ = W4 m ρ c (Proc.devRef .tc main_arg12) := kept_k hostOps1 (W4 m ρ c) main_arg12 (by k_not_written)
    _ = W3 m ρ c (Proc.devRef .tc main_arg12) := W4_of_ne m ρ c main_arg12 (by decide)
    _ = W2 m ρ c (Proc.devRef .tc main_arg12) := kept_k hostOps0_2 (W2 m ρ c) main_arg12 (by k_not_written)
    _ = W1 m ρ c (Proc.devRef .tc main_arg12) := kept_k hostOps0_1 (W1 m ρ c) main_arg12 (by k_not_written)
    _ = W0 m ρ c (Proc.devRef .tc main_arg12) := kept_k hostOps0 (W0 m ρ c) main_arg12 (by k_not_written)
    _ = m ((c : Thread nD τ).loc main_arg12) := rfl

/-! ## The edge lists and the edge weights, computed before the first kernel, where each layer reads them -/

/-- The first kernel leaves the edges' source node numbers as the graph's lines computed them. -/
theorem keep4_src (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

/-- The first kernel leaves the edges' destination node numbers as the graph's lines computed them. -/
theorem keep4_dst (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- The first kernel leaves the edge weights as the graph's lines computed them. -/
theorem keep4_norm (c : Dev nD) : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

/-- The first three kernels and layer 1's host lines leave the edges' source node numbers as the graph's lines computed them. -/
theorem keep9_src (c : Dev nD) : W9 m ρ c (Proc.devRef .tc main_v3) = W3 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := kept_k hostOps1_2 (W6 m ρ c) main_v3 (by k_not_written)
    _ = W5 m ρ c (Proc.devRef .tc main_v3) := kept_k hostOps1_1 (W5 m ρ c) main_v3 (by k_not_written)
    _ = W4 m ρ c (Proc.devRef .tc main_v3) := kept_k hostOps1 (W4 m ρ c) main_v3 (by k_not_written)
    _ = W3 m ρ c (Proc.devRef .tc main_v3) := W4_of_ne m ρ c main_v3 (by decide)

/-- The first three kernels and layer 1's host lines leave the edges' destination node numbers as the graph's lines computed them. -/
theorem keep9_dst (c : Dev nD) : W9 m ρ c (Proc.devRef .tc main_v6) = W3 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := kept_k hostOps1_2 (W6 m ρ c) main_v6 (by k_not_written)
    _ = W5 m ρ c (Proc.devRef .tc main_v6) := kept_k hostOps1_1 (W5 m ρ c) main_v6 (by k_not_written)
    _ = W4 m ρ c (Proc.devRef .tc main_v6) := kept_k hostOps1 (W4 m ρ c) main_v6 (by k_not_written)
    _ = W3 m ρ c (Proc.devRef .tc main_v6) := W4_of_ne m ρ c main_v6 (by decide)

/-- The first three kernels and layer 1's host lines leave the edge weights as the graph's lines computed them. -/
theorem keep9_norm (c : Dev nD) : W9 m ρ c (Proc.devRef .tc main_v29) = W3 m ρ c (Proc.devRef .tc main_v29) :=
  calc W9 m ρ c (Proc.devRef .tc main_v29)
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := kept_k hostOps1_2 (W6 m ρ c) main_v29 (by k_not_written)
    _ = W5 m ρ c (Proc.devRef .tc main_v29) := kept_k hostOps1_1 (W5 m ρ c) main_v29 (by k_not_written)
    _ = W4 m ρ c (Proc.devRef .tc main_v29) := kept_k hostOps1 (W4 m ρ c) main_v29 (by k_not_written)
    _ = W3 m ρ c (Proc.devRef .tc main_v29) := W4_of_ne m ρ c main_v29 (by decide)

/-- The first five kernels and the host lines of layers 1 and 2 leave the edges' source node numbers as the graph's lines computed them. -/
theorem keep14_src (c : Dev nD) : W14 m ρ c (Proc.devRef .tc main_v3) = W3 m ρ c (Proc.devRef .tc main_v3) :=
  calc W14 m ρ c (Proc.devRef .tc main_v3)
    _ = W13 m ρ c (Proc.devRef .tc main_v3) := W14_of_ne m ρ c main_v3 (by decide)
    _ = W12 m ρ c (Proc.devRef .tc main_v3) := W13_of_ne m ρ c main_v3 (by decide)
    _ = W11 m ρ c (Proc.devRef .tc main_v3) := kept_k hostOps3_2 (W11 m ρ c) main_v3 (by k_not_written)
    _ = W10 m ρ c (Proc.devRef .tc main_v3) := kept_k hostOps3_1 (W10 m ρ c) main_v3 (by k_not_written)
    _ = W9 m ρ c (Proc.devRef .tc main_v3) := kept_k hostOps3 (W9 m ρ c) main_v3 (by k_not_written)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := kept_k hostOps1_2 (W6 m ρ c) main_v3 (by k_not_written)
    _ = W5 m ρ c (Proc.devRef .tc main_v3) := kept_k hostOps1_1 (W5 m ρ c) main_v3 (by k_not_written)
    _ = W4 m ρ c (Proc.devRef .tc main_v3) := kept_k hostOps1 (W4 m ρ c) main_v3 (by k_not_written)
    _ = W3 m ρ c (Proc.devRef .tc main_v3) := W4_of_ne m ρ c main_v3 (by decide)

/-- The first five kernels and the host lines of layers 1 and 2 leave the edges' destination node numbers as the graph's lines computed them. -/
theorem keep14_dst (c : Dev nD) : W14 m ρ c (Proc.devRef .tc main_v6) = W3 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := W13_of_ne m ρ c main_v6 (by decide)
    _ = W11 m ρ c (Proc.devRef .tc main_v6) := kept_k hostOps3_2 (W11 m ρ c) main_v6 (by k_not_written)
    _ = W10 m ρ c (Proc.devRef .tc main_v6) := kept_k hostOps3_1 (W10 m ρ c) main_v6 (by k_not_written)
    _ = W9 m ρ c (Proc.devRef .tc main_v6) := kept_k hostOps3 (W9 m ρ c) main_v6 (by k_not_written)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := kept_k hostOps1_2 (W6 m ρ c) main_v6 (by k_not_written)
    _ = W5 m ρ c (Proc.devRef .tc main_v6) := kept_k hostOps1_1 (W5 m ρ c) main_v6 (by k_not_written)
    _ = W4 m ρ c (Proc.devRef .tc main_v6) := kept_k hostOps1 (W4 m ρ c) main_v6 (by k_not_written)
    _ = W3 m ρ c (Proc.devRef .tc main_v6) := W4_of_ne m ρ c main_v6 (by decide)

/-- The first five kernels and the host lines of layers 1 and 2 leave the edge weights as the graph's lines computed them. -/
theorem keep14_norm (c : Dev nD) : W14 m ρ c (Proc.devRef .tc main_v29) = W3 m ρ c (Proc.devRef .tc main_v29) :=
  calc W14 m ρ c (Proc.devRef .tc main_v29)
    _ = W13 m ρ c (Proc.devRef .tc main_v29) := W14_of_ne m ρ c main_v29 (by decide)
    _ = W12 m ρ c (Proc.devRef .tc main_v29) := W13_of_ne m ρ c main_v29 (by decide)
    _ = W11 m ρ c (Proc.devRef .tc main_v29) := kept_k hostOps3_2 (W11 m ρ c) main_v29 (by k_not_written)
    _ = W10 m ρ c (Proc.devRef .tc main_v29) := kept_k hostOps3_1 (W10 m ρ c) main_v29 (by k_not_written)
    _ = W9 m ρ c (Proc.devRef .tc main_v29) := kept_k hostOps3 (W9 m ρ c) main_v29 (by k_not_written)
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := kept_k hostOps1_2 (W6 m ρ c) main_v29 (by k_not_written)
    _ = W5 m ρ c (Proc.devRef .tc main_v29) := kept_k hostOps1_1 (W5 m ρ c) main_v29 (by k_not_written)
    _ = W4 m ρ c (Proc.devRef .tc main_v29) := kept_k hostOps1 (W4 m ρ c) main_v29 (by k_not_written)
    _ = W3 m ρ c (Proc.devRef .tc main_v29) := W4_of_ne m ρ c main_v29 (by decide)

end Cert.Glue

end
-- ==== Proof.GlueKeepR.lean ====
/-
  Which buffers the reference program's stretches leave alone. Each operation writes exactly its result buffer, so a
  buffer that is no operation's result keeps its contents through a stretch (references are compared by
  computation; distinct references are distinct device buffers). No stretch writes an argument; and after the
  graph's structure no stretch writes the edges' source and destination node numbers or the edge weights, which
  every layer's message passing reads. So at each cut of the run an argument still holds its launch contents, and
  the three buffers of the graph's structure still hold what that stretch left.
-/
import proofs.«143667_j15642270892451_1_alg».proof.Proof.GlueChain

set_option maxRecDepth 16384

noncomputable section

namespace Cert.Glue

open Idealize.ShloMosaic Idealize.ShloMosaic.TcCoe Idealize.SL.Sem Idealize.ShloMosaic.StableHlo

/-- The fourteen argument buffers. -/
abbrev argL : List (Ref Cert.ReferenceIdeal.sig .tc) :=
  [Cert.ReferenceIdeal.main_arg0, Cert.ReferenceIdeal.main_arg1, Cert.ReferenceIdeal.main_arg2, Cert.ReferenceIdeal.main_arg3, Cert.ReferenceIdeal.main_arg4,
   Cert.ReferenceIdeal.main_arg5, Cert.ReferenceIdeal.main_arg6, Cert.ReferenceIdeal.main_arg7, Cert.ReferenceIdeal.main_arg8, Cert.ReferenceIdeal.main_arg9,
   Cert.ReferenceIdeal.main_arg10, Cert.ReferenceIdeal.main_arg11, Cert.ReferenceIdeal.main_arg12, Cert.ReferenceIdeal.main_arg13]

/-- The arguments, and the three buffers of the graph's structure the layers read: the edges' source and destination
    node numbers and the edge weights. -/
abbrev keepL : List (Ref Cert.ReferenceIdeal.sig .tc) :=
  argL ++ [Cert.ReferenceIdeal.main_v3, Cert.ReferenceIdeal.main_v6, Cert.ReferenceIdeal.main_v29]

theorem mem_keepL_of_arg {r : Ref Cert.ReferenceIdeal.sig .tc} (hr : r ∈ argL) : r ∈ keepL := List.mem_append_left _ hr

/-- A buffer none of a stretch's operations writes keeps its contents through the stretch. -/
theorem keep_of {ops : List (HloOp Cert.ReferenceIdeal.τ Cert.ReferenceIdeal.sig (Elt Ideal))} {r : Ref Cert.ReferenceIdeal.sig .tc}
    (h : ops.Forall fun op => (Proc.devRef .tc r : DevRef Cert.ReferenceIdeal.τ Cert.ReferenceIdeal.sig) ∉ op.writes) (W : RV) :
    after ops W (Proc.devRef .tc r) = W (Proc.devRef .tc r) :=
  after_of_forall_not_mem ops W (List.forall_iff_forall_mem.mp h)

/-! ## Stretch by stretch -/

/-- The graph's structure writes no argument (it writes the three buffers the layers read, among others). -/
theorem graph_nw (r : Ref Cert.ReferenceIdeal.sig .tc) (hr : r ∈ argL) :
    (Cert.ReferenceIdeal.RefOps.graph (F := Ideal)).Forall fun op => (Proc.devRef .tc r : DevRef Cert.ReferenceIdeal.τ Cert.ReferenceIdeal.sig) ∉ op.writes := by
  simp only [Cert.ReferenceIdeal.RefOps.graph, List.Forall, TRef.nullary, TRef.unary, TRef.binary, TRef.ternary,
    nullary_writes, unary_writes, binary_writes, ternary_writes, reshape_writes, Finset.mem_singleton]
  repeat' apply And.intro
  all_goals exact devRef_ne_of_ne ((by decide : ∀ r' ∈ argL, r' ≠ _) r hr)

/-- Layer 1's dense transform writes none of the seventeen. -/
theorem dot1_nw (r : Ref Cert.ReferenceIdeal.sig .tc) (hr : r ∈ keepL) :
    (Cert.ReferenceIdeal.RefOps.dot1 (F := Ideal)).Forall fun op => (Proc.devRef .tc r : DevRef Cert.ReferenceIdeal.τ Cert.ReferenceIdeal.sig) ∉ op.writes := by
  simp only [Cert.ReferenceIdeal.RefOps.dot1, List.Forall, TRef.nullary, TRef.unary, TRef.binary, TRef.ternary,
    nullary_writes, unary_writes, binary_writes, ternary_writes, reshape_writes, Finset.mem_singleton]
  repeat' apply And.intro
  all_goals exact devRef_ne_of_ne ((by decide : ∀ r' ∈ keepL, r' ≠ _) r hr)

/-- Layer 1's message passing writes none of the seventeen. -/
theorem conv1_nw (r : Ref Cert.ReferenceIdeal.sig .tc) (hr : r ∈ keepL) :
    (Cert.ReferenceIdeal.RefOps.conv1 (F := Ideal)).Forall fun op => (Proc.devRef .tc r : DevRef Cert.ReferenceIdeal.τ Cert.ReferenceIdeal.sig) ∉ op.writes := by
  simp only [Cert.ReferenceIdeal.RefOps.conv1, List.Forall, TRef.nullary, TRef.unary, TRef.binary, TRef.ternary,
    nullary_writes, unary_writes, binary_writes, ternary_writes, reshape_writes, Finset.mem_singleton]
  repeat' apply And.intro
  all_goals exact devRef_ne_of_ne ((by decide : ∀ r' ∈ keepL, r' ≠ _) r hr)

/-- Layer 1's statistics write none of the seventeen. -/
theorem stats1_nw (r : Ref Cert.ReferenceIdeal.sig .tc) (hr : r ∈ keepL) :
    (Cert.ReferenceIdeal.RefOps.stats1 (F := Ideal)).Forall fun op => (Proc.devRef .tc r : DevRef Cert.ReferenceIdeal.τ Cert.ReferenceIdeal.sig) ∉ op.writes := by
  simp only [Cert.ReferenceIdeal.RefOps.stats1, List.Forall, TRef.nullary, TRef.unary, TRef.binary, TRef.ternary,
    nullary_writes, unary_writes, binary_writes, ternary_writes, reshape_writes, Finset.mem_singleton]
  repeat' apply And.intro
  all_goals exact devRef_ne_of_ne ((by decide : ∀ r' ∈ keepL, r' ≠ _) r hr)

/-- Layer 1's normalisation and rectifier write none of the seventeen. -/
theorem bn1_nw (r : Ref Cert.ReferenceIdeal.sig .tc) (hr : r ∈ keepL) :
    (Cert.ReferenceIdeal.RefOps.bn1 (F := Ideal)).Forall fun op => (Proc.devRef .tc r : DevRef Cert.ReferenceIdeal.τ Cert.ReferenceIdeal.sig) ∉ op.writes := by
  simp only [Cert.ReferenceIdeal.RefOps.bn1, List.Forall, TRef.nullary, TRef.unary, TRef.binary, TRef.ternary,
    nullary_writes, unary_writes, binary_writes, ternary_writes, reshape_writes, Finset.mem_singleton]
  repeat' apply And.intro
  all_goals exact devRef_ne_of_ne ((by decide : ∀ r' ∈ keepL, r' ≠ _) r hr)

/-- Layer 2's dense transform writes none of the seventeen. -/
theorem dot2_nw (r : Ref Cert.ReferenceIdeal.sig .tc) (hr : r ∈ keepL) :
    (Cert.ReferenceIdeal.RefOps.dot2 (F := Ideal)).Forall fun op => (Proc.devRef .tc r : DevRef Cert.ReferenceIdeal.τ Cert.ReferenceIdeal.sig) ∉ op.writes := by
  simp only [Cert.ReferenceIdeal.RefOps.dot2, List.Forall, TRef.nullary, TRef.unary, TRef.binary, TRef.ternary,
    nullary_writes, unary_writes, binary_writes, ternary_writes, reshape_writes, Finset.mem_singleton]
  repeat' apply And.intro
  all_goals exact devRef_ne_of_ne ((by decide : ∀ r' ∈ keepL, r' ≠ _) r hr)

/-- Layer 2's message passing writes none of the seventeen. -/
theorem conv2_nw (r : Ref Cert.ReferenceIdeal.sig .tc) (hr : r ∈ keepL) :
    (Cert.ReferenceIdeal.RefOps.conv2 (F := Ideal)).Forall fun op => (Proc.devRef .tc r : DevRef Cert.ReferenceIdeal.τ Cert.ReferenceIdeal.sig) ∉ op.writes := by
  simp only [Cert.ReferenceIdeal.RefOps.conv2, List.Forall, TRef.nullary, TRef.unary, TRef.binary, TRef.ternary,
    nullary_writes, unary_writes, binary_writes, ternary_writes, reshape_writes, Finset.mem_singleton]
  repeat' apply And.intro
  all_goals exact devRef_ne_of_ne ((by decide : ∀ r' ∈ keepL, r' ≠ _) r hr)

/-- Layer 2's statistics write none of the seventeen. -/
theorem stats2_nw (r : Ref Cert.ReferenceIdeal.sig .tc) (hr : r ∈ keepL) :
    (Cert.ReferenceIdeal.RefOps.stats2 (F := Ideal)).Forall fun op => (Proc.devRef .tc r : DevRef Cert.ReferenceIdeal.τ Cert.ReferenceIdeal.sig) ∉ op.writes := by
  simp only [Cert.ReferenceIdeal.RefOps.stats2, List.Forall, TRef.nullary, TRef.unary, TRef.binary, TRef.ternary,
    nullary_writes, unary_writes, binary_writes, ternary_writes, reshape_writes, Finset.mem_singleton]
  repeat' apply And.intro
  all_goals exact devRef_ne_of_ne ((by decide : ∀ r' ∈ keepL, r' ≠ _) r hr)

/-- Layer 2's normalisation and rectifier write none of the seventeen. -/
theorem bn2_nw (r : Ref Cert.ReferenceIdeal.sig .tc) (hr : r ∈ keepL) :
    (Cert.ReferenceIdeal.RefOps.bn2 (F := Ideal)).Forall fun op => (Proc.devRef .tc r : DevRef Cert.ReferenceIdeal.τ Cert.ReferenceIdeal.sig) ∉ op.writes := by
  simp only [Cert.ReferenceIdeal.RefOps.bn2, List.Forall, TRef.nullary, TRef.unary, TRef.binary, TRef.ternary,
    nullary_writes, unary_writes, binary_writes, ternary_writes, reshape_writes, Finset.mem_singleton]
  repeat' apply And.intro
  all_goals exact devRef_ne_of_ne ((by decide : ∀ r' ∈ keepL, r' ≠ _) r hr)

/-- Layer 3's dense transform writes none of the seventeen. -/
theorem dot3_nw (r : Ref Cert.ReferenceIdeal.sig .tc) (hr : r ∈ keepL) :
    (Cert.ReferenceIdeal.RefOps.dot3 (F := Ideal)).Forall fun op => (Proc.devRef .tc r : DevRef Cert.ReferenceIdeal.τ Cert.ReferenceIdeal.sig) ∉ op.writes := by
  simp only [Cert.ReferenceIdeal.RefOps.dot3, List.Forall, TRef.nullary, TRef.unary, TRef.binary, TRef.ternary,
    nullary_writes, unary_writes, binary_writes, ternary_writes, reshape_writes, Finset.mem_singleton]
  repeat' apply And.intro
  all_goals exact devRef_ne_of_ne ((by decide : ∀ r' ∈ keepL, r' ≠ _) r hr)

/-- Layer 3's message passing writes none of the seventeen. -/
theorem conv3_nw (r : Ref Cert.ReferenceIdeal.sig .tc) (hr : r ∈ keepL) :
    (Cert.ReferenceIdeal.RefOps.conv3 (F := Ideal)).Forall fun op => (Proc.devRef .tc r : DevRef Cert.ReferenceIdeal.τ Cert.ReferenceIdeal.sig) ∉ op.writes := by
  simp only [Cert.ReferenceIdeal.RefOps.conv3, List.Forall, TRef.nullary, TRef.unary, TRef.binary, TRef.ternary,
    nullary_writes, unary_writes, binary_writes, ternary_writes, reshape_writes, Finset.mem_singleton]
  repeat' apply And.intro
  all_goals exact devRef_ne_of_ne ((by decide : ∀ r' ∈ keepL, r' ≠ _) r hr)

/-! ## From cut to cut -/

variable (V : RV)

/-- Through the graph's structure an argument keeps its launch contents. -/
theorem R1_arg (r : Ref Cert.ReferenceIdeal.sig .tc) (hr : r ∈ argL) : R1 V (Proc.devRef .tc r) = V (Proc.devRef .tc r) :=
  keep_of (graph_nw r hr) V
/-- Through layer 1's dense transform. -/
theorem R2_R1 (r : Ref Cert.ReferenceIdeal.sig .tc) (hr : r ∈ keepL) : R2 V (Proc.devRef .tc r) = R1 V (Proc.devRef .tc r) :=
  keep_of (dot1_nw r hr) (R1 V)
/-- Through layer 1's message passing and statistics. -/
theorem R3_R2 (r : Ref Cert.ReferenceIdeal.sig .tc) (hr : r ∈ keepL) : R3 V (Proc.devRef .tc r) = R2 V (Proc.devRef .tc r) :=
  (keep_of (stats1_nw r hr) _).trans (keep_of (conv1_nw r hr) (R2 V))
/-- Through layer 1's normalisation and rectifier. -/
theorem R4_R3 (r : Ref Cert.ReferenceIdeal.sig .tc) (hr : r ∈ keepL) : R4 V (Proc.devRef .tc r) = R3 V (Proc.devRef .tc r) :=
  keep_of (bn1_nw r hr) (R3 V)
/-- Through layer 2's dense transform. -/
theorem R5_R4 (r : Ref Cert.ReferenceIdeal.sig .tc) (hr : r ∈ keepL) : R5 V (Proc.devRef .tc r) = R4 V (Proc.devRef .tc r) :=
  keep_of (dot2_nw r hr) (R4 V)
/-- Through layer 2's message passing and statistics. -/
theorem R6_R5 (r : Ref Cert.ReferenceIdeal.sig .tc) (hr : r ∈ keepL) : R6 V (Proc.devRef .tc r) = R5 V (Proc.devRef .tc r) :=
  (keep_of (stats2_nw r hr) _).trans (keep_of (conv2_nw r hr) (R5 V))
/-- Through layer 2's normalisation and rectifier. -/
theorem R7_R6 (r : Ref Cert.ReferenceIdeal.sig .tc) (hr : r ∈ keepL) : R7 V (Proc.devRef .tc r) = R6 V (Proc.devRef .tc r) :=
  keep_of (bn2_nw r hr) (R6 V)
/-- Through layer 3's dense transform. -/
theorem R8_R7 (r : Ref Cert.ReferenceIdeal.sig .tc) (hr : r ∈ keepL) : R8 V (Proc.devRef .tc r) = R7 V (Proc.devRef .tc r) :=
  keep_of (dot3_nw r hr) (R7 V)
/-- Through layer 3's message passing. -/
theorem R9_R8 (r : Ref Cert.ReferenceIdeal.sig .tc) (hr : r ∈ keepL) : R9 V (Proc.devRef .tc r) = R8 V (Proc.devRef .tc r) :=
  keep_of (conv3_nw r hr) (R8 V)

/-! ## Back to the graph's structure -/

theorem R3_R1 (r : Ref Cert.ReferenceIdeal.sig .tc) (hr : r ∈ keepL) : R3 V (Proc.devRef .tc r) = R1 V (Proc.devRef .tc r) :=
  (R3_R2 V r hr).trans (R2_R1 V r hr)
theorem R4_R1 (r : Ref Cert.ReferenceIdeal.sig .tc) (hr : r ∈ keepL) : R4 V (Proc.devRef .tc r) = R1 V (Proc.devRef .tc r) :=
  (R4_R3 V r hr).trans (R3_R1 V r hr)
theorem R5_R1 (r : Ref Cert.ReferenceIdeal.sig .tc) (hr : r ∈ keepL) : R5 V (Proc.devRef .tc r) = R1 V (Proc.devRef .tc r) :=
  (R5_R4 V r hr).trans (R4_R1 V r hr)
theorem R6_R1 (r : Ref Cert.ReferenceIdeal.sig .tc) (hr : r ∈ keepL) : R6 V (Proc.devRef .tc r) = R1 V (Proc.devRef .tc r) :=
  (R6_R5 V r hr).trans (R5_R1 V r hr)
theorem R7_R1 (r : Ref Cert.ReferenceIdeal.sig .tc) (hr : r ∈ keepL) : R7 V (Proc.devRef .tc r) = R1 V (Proc.devRef .tc r) :=
  (R7_R6 V r hr).trans (R6_R1 V r hr)
theorem R8_R1 (r : Ref Cert.ReferenceIdeal.sig .tc) (hr : r ∈ keepL) : R8 V (Proc.devRef .tc r) = R1 V (Proc.devRef .tc r) :=
  (R8_R7 V r hr).trans (R7_R1 V r hr)
theorem R9_R1 (r : Ref Cert.ReferenceIdeal.sig .tc) (hr : r ∈ keepL) : R9 V (Proc.devRef .tc r) = R1 V (Proc.devRef .tc r) :=
  (R9_R8 V r hr).trans (R8_R1 V r hr)

/-! ## The arguments at the cuts where they are read -/

/-- Argument 0 still holds its launch contents after the graph's structure. -/
theorem rarg0 : R1 V (Proc.devRef .tc Cert.ReferenceIdeal.main_arg0) = V (Proc.devRef .tc Cert.ReferenceIdeal.main_arg0) :=
  R1_arg V Cert.ReferenceIdeal.main_arg0 (by decide)
/-- Argument 2 still holds its launch contents after the graph's structure. -/
theorem rarg2 : R1 V (Proc.devRef .tc Cert.ReferenceIdeal.main_arg2) = V (Proc.devRef .tc Cert.ReferenceIdeal.main_arg2) :=
  R1_arg V Cert.ReferenceIdeal.main_arg2 (by decide)
/-- Argument 3 still holds its launch contents after layer 1's dense transform. -/
theorem rarg3 : R2 V (Proc.devRef .tc Cert.ReferenceIdeal.main_arg3) = V (Proc.devRef .tc Cert.ReferenceIdeal.main_arg3) :=
  (R2_R1 V Cert.ReferenceIdeal.main_arg3 (mem_keepL_of_arg (by decide))).trans (R1_arg V Cert.ReferenceIdeal.main_arg3 (by decide))
/-- Argument 4 still holds its launch contents after layer 1's message passing and statistics. -/
theorem rarg4 : R3 V (Proc.devRef .tc Cert.ReferenceIdeal.main_arg4) = V (Proc.devRef .tc Cert.ReferenceIdeal.main_arg4) :=
  (R3_R1 V Cert.ReferenceIdeal.main_arg4 (mem_keepL_of_arg (by decide))).trans (R1_arg V Cert.ReferenceIdeal.main_arg4 (by decide))
/-- Argument 5 still holds its launch contents after layer 1's message passing and statistics. -/
theorem rarg5 : R3 V (Proc.devRef .tc Cert.ReferenceIdeal.main_arg5) = V (Proc.devRef .tc Cert.ReferenceIdeal.main_arg5) :=
  (R3_R1 V Cert.ReferenceIdeal.main_arg5 (mem_keepL_of_arg (by decide))).trans (R1_arg V Cert.ReferenceIdeal.main_arg5 (by decide))
/-- Argument 6 still holds its launch contents after layer 1's normalisation. -/
theorem rarg6 : R4 V (Proc.devRef .tc Cert.ReferenceIdeal.main_arg6) = V (Proc.devRef .tc Cert.ReferenceIdeal.main_arg6) :=
  (R4_R1 V Cert.ReferenceIdeal.main_arg6 (mem_keepL_of_arg (by decide))).trans (R1_arg V Cert.ReferenceIdeal.main_arg6 (by decide))
/-- Argument 7 still holds its launch contents after layer 2's dense transform. -/
theorem rarg7 : R5 V (Proc.devRef .tc Cert.ReferenceIdeal.main_arg7) = V (Proc.devRef .tc Cert.ReferenceIdeal.main_arg7) :=
  (R5_R1 V Cert.ReferenceIdeal.main_arg7 (mem_keepL_of_arg (by decide))).trans (R1_arg V Cert.ReferenceIdeal.main_arg7 (by decide))
/-- Argument 8 still holds its launch contents after layer 2's message passing and statistics. -/
theorem rarg8 : R6 V (Proc.devRef .tc Cert.ReferenceIdeal.main_arg8) = V (Proc.devRef .tc Cert.ReferenceIdeal.main_arg8) :=
  (R6_R1 V Cert.ReferenceIdeal.main_arg8 (mem_keepL_of_arg (by decide))).trans (R1_arg V Cert.ReferenceIdeal.main_arg8 (by decide))
/-- Argument 9 still holds its launch contents after layer 2's message passing and statistics. -/
theorem rarg9 : R6 V (Proc.devRef .tc Cert.ReferenceIdeal.main_arg9) = V (Proc.devRef .tc Cert.ReferenceIdeal.main_arg9) :=
  (R6_R1 V Cert.ReferenceIdeal.main_arg9 (mem_keepL_of_arg (by decide))).trans (R1_arg V Cert.ReferenceIdeal.main_arg9 (by decide))
/-- Argument 10 still holds its launch contents after layer 2's normalisation. -/
theorem rarg10 : R7 V (Proc.devRef .tc Cert.ReferenceIdeal.main_arg10) = V (Proc.devRef .tc Cert.ReferenceIdeal.main_arg10) :=
  (R7_R1 V Cert.ReferenceIdeal.main_arg10 (mem_keepL_of_arg (by decide))).trans (R1_arg V Cert.ReferenceIdeal.main_arg10 (by decide))
/-- Argument 11 still holds its launch contents after layer 3's dense transform. -/
theorem rarg11 : R8 V (Proc.devRef .tc Cert.ReferenceIdeal.main_arg11) = V (Proc.devRef .tc Cert.ReferenceIdeal.main_arg11) :=
  (R8_R1 V Cert.ReferenceIdeal.main_arg11 (mem_keepL_of_arg (by decide))).trans (R1_arg V Cert.ReferenceIdeal.main_arg11 (by decide))
/-- Argument 12 still holds its launch contents after layer 3's message passing. -/
theorem rarg12 : R9 V (Proc.devRef .tc Cert.ReferenceIdeal.main_arg12) = V (Proc.devRef .tc Cert.ReferenceIdeal.main_arg12) :=
  (R9_R1 V Cert.ReferenceIdeal.main_arg12 (mem_keepL_of_arg (by decide))).trans (R1_arg V Cert.ReferenceIdeal.main_arg12 (by decide))
/-- Argument 13 still holds its launch contents after layer 3's message passing. -/
theorem rarg13 : R9 V (Proc.devRef .tc Cert.ReferenceIdeal.main_arg13) = V (Proc.devRef .tc Cert.ReferenceIdeal.main_arg13) :=
  (R9_R1 V Cert.ReferenceIdeal.main_arg13 (mem_keepL_of_arg (by decide))).trans (R1_arg V Cert.ReferenceIdeal.main_arg13 (by decide))

/-! ## The graph's structure at the cuts where the layers read it -/

/-- The edges' source node numbers after layer 1's dense transform are what the graph's structure left. -/
theorem rkeep2_src : R2 V (Proc.devRef .tc Cert.ReferenceIdeal.main_v3) = R1 V (Proc.devRef .tc Cert.ReferenceIdeal.main_v3) :=
  R2_R1 V Cert.ReferenceIdeal.main_v3 (by decide)
/-- The edges' destination node numbers after layer 1's dense transform are what the graph's structure left. -/
theorem rkeep2_dst : R2 V (Proc.devRef .tc Cert.ReferenceIdeal.main_v6) = R1 V (Proc.devRef .tc Cert.ReferenceIdeal.main_v6) :=
  R2_R1 V Cert.ReferenceIdeal.main_v6 (by decide)
/-- The edge weights after layer 1's dense transform are what the graph's structure left. -/
theorem rkeep2_norm : R2 V (Proc.devRef .tc Cert.ReferenceIdeal.main_v29) = R1 V (Proc.devRef .tc Cert.ReferenceIdeal.main_v29) :=
  R2_R1 V Cert.ReferenceIdeal.main_v29 (by decide)
/-- The edges' source node numbers after layer 2's dense transform are what the graph's structure left. -/
theorem rkeep5_src : R5 V (Proc.devRef .tc Cert.ReferenceIdeal.main_v3) = R1 V (Proc.devRef .tc Cert.ReferenceIdeal.main_v3) :=
  R5_R1 V Cert.ReferenceIdeal.main_v3 (by decide)
/-- The edges' destination node numbers after layer 2's dense transform are what the graph's structure left. -/
theorem rkeep5_dst : R5 V (Proc.devRef .tc Cert.ReferenceIdeal.main_v6) = R1 V (Proc.devRef .tc Cert.ReferenceIdeal.main_v6) :=
  R5_R1 V Cert.ReferenceIdeal.main_v6 (by decide)
/-- The edge weights after layer 2's dense transform are what the graph's structure left. -/
theorem rkeep5_norm : R5 V (Proc.devRef .tc Cert.ReferenceIdeal.main_v29) = R1 V (Proc.devRef .tc Cert.ReferenceIdeal.main_v29) :=
  R5_R1 V Cert.ReferenceIdeal.main_v29 (by decide)
/-- The edges' source node numbers after layer 3's dense transform are what the graph's structure left. -/
theorem rkeep8_src : R8 V (Proc.devRef .tc Cert.ReferenceIdeal.main_v3) = R1 V (Proc.devRef .tc Cert.ReferenceIdeal.main_v3) :=
  R8_R1 V Cert.ReferenceIdeal.main_v3 (by decide)
/-- The edges' destination node numbers after layer 3's dense transform are what the graph's structure left. -/
theorem rkeep8_dst : R8 V (Proc.devRef .tc Cert.ReferenceIdeal.main_v6) = R1 V (Proc.devRef .tc Cert.ReferenceIdeal.main_v6) :=
  R8_R1 V Cert.ReferenceIdeal.main_v6 (by decide)
/-- The edge weights after layer 3's dense transform are what the graph's structure left. -/
theorem rkeep8_norm : R8 V (Proc.devRef .tc Cert.ReferenceIdeal.main_v29) = R1 V (Proc.devRef .tc Cert.ReferenceIdeal.main_v29) :=
  R8_R1 V Cert.ReferenceIdeal.main_v29 (by decide)

end Cert.Glue

end
-- ==== Proof.LibLayerLaws.lean ====
/-
  A two-layer mean-aggregation network on the extended reals, read entry by entry.

  One layer sends node features `x`, neighbour sums `s` and a per-node scale to
      elu ( (∑ₖ mean(p,k) · Wl(k,q)) + b(q) + ∑ₖ x(p,k) · Wr(k,q) ),       elu y = y for y > 0, eʸ − 1 otherwise,
  where the mean is written either as the quotient `s(p,k) / c(p)` or as the product `s(p,k) · (1 / c(p))`.
  The two spellings agree whenever `c(p) ≠ 0`: on the extended reals a quotient by a non-zero `c` IS the product with
  `c⁻¹`, and `1 / c = c⁻¹`.  Nothing here distributes a product over a sum, so no entry needs to be finite.

  Also here: the exponential-linear unit in the two spellings a program writes it in, and a matrix product
  `[a, k] × [k, b]` contracting the inner axis, read at `(p, q)` as a sum over `Fin k`.
-/
import Idealize.ShloMosaic.Lib.ValueIdx
import Idealize.ShloMosaic.PureOps.Ideal.Laws
import Idealize.ShloMosaic.PureOps.IdealRules

noncomputable section

open scoped BigOperators

namespace Cert.LayerLaws

open Idealize.ShloMosaic Idealize.ShloMosaic.ValueIdx

/-! ## The exponential-linear unit -/

/-- `elu y = y` above zero, `eʸ − 1` at and below it. -/
def elu1 (y : EReal) : EReal := if 0 < y then y else Ideal.exp y - 1

/-- The binary32 word of `1.0` denotes `1`. -/
theorem one_f32 : Ideal.ofBits .f32 0x3F800000#32 = 1 := IdealRules.sign_bit.ideal_onePat .f32

/-- "select (y > 0) y (exp (min y 0) − 1)" is `elu`: off the positive side `min y 0 = y`. -/
theorem elu_min_form (y : EReal) :
    Scalar.select (Ideal.cmp .ogt y (Ideal.ofBits .f32 0x00000000#32)) y
        (Ideal.exp (min y (Ideal.ofBits .f32 0x00000000#32)) - Ideal.ofBits .f32 0x3F800000#32) = elu1 y := by
  rw [Ideal.ofBits_zero_f32, one_f32]
  unfold elu1 Scalar.select Ideal.cmp
  by_cases h : 0 < y
  · simp [h]
  · have hy : y ≤ 0 := not_lt.mp h
    simp [h, min_eq_left hy]

/-- "select (y > 0) y (1 · expm1 (select (y > 0) 0 y))" is `elu` too: `expm1 z = eᶻ − 1` and `1 · z = z`. -/
theorem elu_expm1_form (y : EReal) :
    Scalar.select (Ideal.cmp .ogt y (Ideal.ofBits .f32 0x00000000#32)) y
        (Ideal.ofBits .f32 0x3F800000#32 *
          (Ideal.exp (Scalar.select (Ideal.cmp .ogt y (Ideal.ofBits .f32 0x00000000#32)) (Ideal.ofBits .f32 0x00000000#32) y) - 1))
      = elu1 y := by
  rw [Ideal.ofBits_zero_f32, one_f32]
  unfold elu1 Scalar.select Ideal.cmp
  by_cases h : 0 < y
  · simp [h]
  · simp [h]

/-! ## Quotient and reciprocal -/

/-- A product with the reciprocal `1 / c` of a non-zero `c` is the quotient by `c`. -/
theorem mul_one_div (a c : EReal) (hc : c ≠ 0) :
    a * Ideal.div (Ideal.ofBits .f32 0x3F800000#32) c = Ideal.div a c := by
  rw [one_f32]
  unfold Ideal.div
  rw [if_neg hc, if_neg hc, one_mul]

/-- A maximum with `1.0` is not zero. -/
theorem max_one_ne_zero (a : EReal) : max a (Ideal.ofBits .f32 0x3F800000#32) ≠ 0 := by
  rw [one_f32]
  exact ne_of_gt (lt_of_lt_of_le zero_lt_one (le_max_right a 1))

/-! ## The layer, entry by entry -/

/-- Arrays of extended reals of shape `[n, k]`. -/
abbrev Mat (n k : ℕ) := (⟨2, ![n, k]⟩ : Shape).Idx → EReal

variable {n : ℕ}

/-- A layer before its activation at `(p, q)`, the mean written as a product with a per-row scale `[n, 1]`
    and the bias as a row `[1, 64]`. -/
def preMul (x s : Mat n 64) (inv : Mat n 1) (Wl : Mat 64 64) (b : Mat 1 64) (Wr : Mat 64 64) (p : Fin n) (q : Fin 64) : EReal :=
  (∑ k : Fin 64, (s (ix2 p k) * inv (ix2 p (0 : Fin 1))) * Wl (ix2 k q)) + b (ix2 (0 : Fin 1) q)
    + ∑ k : Fin 64, x (ix2 p k) * Wr (ix2 k q)

/-- The layer with that spelling, as an array. -/
def layerMul (x s : Mat n 64) (inv : Mat n 1) (Wl : Mat 64 64) (b : Mat 1 64) (Wr : Mat 64 64) : Mat n 64 :=
  fun i => elu1 (preMul x s inv Wl b Wr ⟨(i 0).val, idx2_lt0 i⟩ ⟨(i 1).val, idx2_lt1 i⟩)

theorem layerMul_apply (x s : Mat n 64) (inv : Mat n 1) (Wl : Mat 64 64) (b : Mat 1 64) (Wr : Mat 64 64) (p : Fin n) (q : Fin 64) :
    layerMul x s inv Wl b Wr (ix2 p q) = elu1 (preMul x s inv Wl b Wr p q) := rfl

/-- A final linear map of an `[n, 64]` array at `(p, q)`, its bias a row `[1, 64]`. -/
def linRow (h : Mat n 64) (W : Mat 64 64) (b : Mat 1 64) : Mat n 64 :=
  fun i => (∑ k : Fin 64, h (ix2 (⟨(i 0).val, idx2_lt0 i⟩ : Fin n) k) * W (ix2 k (⟨(i 1).val, idx2_lt1 i⟩ : Fin 64)))
    + b (ix2 (0 : Fin 1) (⟨(i 1).val, idx2_lt1 i⟩ : Fin 64))

theorem linRow_apply (h : Mat n 64) (W : Mat 64 64) (b : Mat 1 64) (p : Fin n) (q : Fin 64) :
    linRow h W b (ix2 p q) = (∑ k : Fin 64, h (ix2 p k) * W (ix2 k q)) + b (ix2 (0 : Fin 1) q) := rfl

/-- A layer before its activation at `(p, q)`, the mean written as a quotient by a per-node count `[n]`
    and the bias as a vector `[64]`. -/
def preDiv (x s : Mat n 64) (c : (⟨1, ![n]⟩ : Shape).Idx → EReal) (Wl : Mat 64 64) (b : (⟨1, ![64]⟩ : Shape).Idx → EReal)
    (Wr : Mat 64 64) (p : Fin n) (q : Fin 64) : EReal :=
  (∑ k : Fin 64, Ideal.div (s (ix2 p k)) (c (ix1 p)) * Wl (ix2 k q)) + b (ix1 q)
    + ∑ k : Fin 64, x (ix2 p k) * Wr (ix2 k q)

/-- The two spellings of a layer agree when the scale is the reciprocal of a count that is nowhere zero and the
    bias row is the bias vector. -/
theorem preMul_eq_preDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64) (p : Fin n) (q : Fin 64)
    (hinv : inv (ix2 p (0 : Fin 1)) = Ideal.div (Ideal.ofBits .f32 0x3F800000#32) (c (ix1 p))) (hc : c (ix1 p) ≠ 0)
    (hb : b2 (ix2 (0 : Fin 1) q) = b (ix1 q)) :
    preMul x s inv Wl b2 Wr p q = preDiv x s c Wl b Wr p q := by
  unfold preMul preDiv
  rw [hinv, hb]
  refine congrArg (· + _) (congrArg (· + _) (Finset.sum_congr rfl fun k _ => ?_))
  rw [mul_one_div _ _ hc]

/-! ## A matrix product contracting the inner axis -/

variable {a k b : ℕ} {φ₁ φ₂ : FTy}

/-- The contraction sum of `[a, k] × [k, b]` at entry `(p, q)`, re-indexed by the contracted coordinate — from four
    facts about the dimension record's operand indices, which each use proves by evaluating its record. -/
theorem sum_inner (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

end Cert.LayerLaws

end
-- ==== Proof.LibDenseStages.lean ====
/-
  The dense stages of a graph convolution network on the extended reals, read entry by entry.

  A matrix product `[a, k] × [k, b]` at `(p, q)` is the sum over the inner coordinate of the products of row `p` and
  column `q`; a bias row `[1, b]` added to every row and clamped below at zero is `max (x(p,q) + r(0,q)) 0`.  Both read
  row `p` of their first operand only, so a tile of rows of the result is the result of the tile: that is all a
  row-blocked computation needs, and no entry has to be finite (nothing here distributes a product over a sum).
-/
import Idealize.ShloMosaic.Lib.ValueIdx
import Idealize.ShloMosaic.Lib.Pipeline.Value
import Idealize.ShloMosaic.Lib.ValueLayout
import Idealize.ShloMosaic.PureOps.Ideal.Laws
import proofs.«143667_j15642270892451_1_alg».proof.Proof.LibLayerLaws

noncomputable section

open scoped BigOperators

namespace Cert.Gcn

open Idealize.ShloMosaic Idealize.ShloMosaic.ValueIdx Cert.LayerLaws

variable {a k b n N : ℕ} {φ₁ φ₂ : FTy}

/-! ## The two stages -/

/-- The matrix product, as an array. -/
def mm (x : Mat a k) (w : Mat k b) : Mat a b :=
  fun i => ∑ j : Fin k, x (ix2 (⟨(i 0).val, idx2_lt0 i⟩ : Fin a) j) * w (ix2 j (⟨(i 1).val, idx2_lt1 i⟩ : Fin b))

theorem mm_apply (x : Mat a k) (w : Mat k b) (p : Fin a) (q : Fin b) :
    mm x w (ix2 p q) = ∑ j : Fin k, x (ix2 p j) * w (ix2 j q) := rfl

/-- A bias row added to every row, then the positive part. -/
def biasRelu (x : Mat a b) (r : Mat 1 b) : Mat a b :=
  fun i => max (x i + r (ix2 (0 : Fin 1) (⟨(i 1).val, idx2_lt1 i⟩ : Fin b))) 0

theorem biasRelu_apply (x : Mat a b) (r : Mat 1 b) (p : Fin a) (q : Fin b) :
    biasRelu x r (ix2 p q) = max (x (ix2 p q) + r (ix2 (0 : Fin 1) q)) 0 := rfl

/-- A bias row added to every row. -/
def addRow (x : Mat a b) (r : Mat 1 b) : Mat a b :=
  fun i => x i + r (ix2 (0 : Fin 1) (⟨(i 1).val, idx2_lt1 i⟩ : Fin b))

theorem addRow_apply (x : Mat a b) (r : Mat 1 b) (p : Fin a) (q : Fin b) :
    addRow x r (ix2 p q) = x (ix2 p q) + r (ix2 (0 : Fin 1) q) := rfl

/-- A vector as a one-row array. -/
def rowVec (v : (⟨1, ![b]⟩ : Shape).Idx → EReal) : Mat 1 b :=
  fun i => v (ix1 (⟨(i 1).val, idx2_lt1 i⟩ : Fin b))

theorem rowVec_apply (v : (⟨1, ![b]⟩ : Shape).Idx → EReal) (u : Fin 1) (q : Fin b) : rowVec v (ix2 u q) = v (ix1 q) := rfl

/-- A vector recast as `[1, b]` is that row. -/
theorem shapeCast_rowVec (v : (⟨1, ![b]⟩ : Shape).Idx → EReal) (h : (⟨1, ![b]⟩ : Shape).ShapeCasts ⟨2, ![1, b]⟩) :
    shapeCast ⟨2, ![1, b]⟩ v h = rowVec v := by
  funext i
  obtain ⟨u, q, rfl⟩ : ∃ (u : Fin 1) (q : Fin b), i = ix2 u q := ⟨i 0, i 1, eq_ix2 i⟩
  exact shapeCast_a_1a_apply v h u q

/-- A vector broadcast along a new leading unit axis is that row too. -/
theorem bcast_rowVec (v : (⟨1, ![b]⟩ : Shape).Idx → EReal) (h : (⟨1, ![b]⟩ : Shape).BroadcastsInDim ⟨2, ![1, b]⟩ ![1]) :
    broadcastInDim ⟨2, ![1, b]⟩ ![1] h v = rowVec v := by
  funext i
  obtain ⟨u, q, rfl⟩ : ∃ (u : Fin 1) (q : Fin b), i = ix2 u q := ⟨i 0, i 1, eq_ix2 i⟩
  refine broadcastInDim_apply ![1] h v (ix2 u q) (ix1 q) fun ax => ?_
  match ax with
  | ⟨0, _⟩ =>
    show q.val = if b = 1 then 0 else q.val
    split
    · have := q.isLt; omega
    · rfl

/-- A one-row array broadcast over `a` rows, read at `(p, q)`. -/
theorem bcast_rows_apply (r : Mat 1 b) (h : (⟨2, ![1, b]⟩ : Shape).BroadcastsInDim ⟨2, ![a, b]⟩ ![0, 1]) (p : Fin a) (q : Fin b) :
    broadcastInDim ⟨2, ![a, b]⟩ ![0, 1] h r (ix2 p q) = r (ix2 (0 : Fin 1) q) := by
  refine broadcastInDim_apply ![0, 1] h r (ix2 p q) (ix2 (0 : Fin 1) q) fun ax => ?_
  match ax with
  | ⟨0, _⟩ => rfl
  | ⟨1, _⟩ =>
    show q.val = if b = 1 then 0 else q.val
    split
    · have := q.isLt; omega
    · rfl

/-- A scalar broadcast to any shape, read anywhere. -/
theorem bcast_scalar_apply {t : Shape} (x : (⟨0, ![]⟩ : Shape).Idx → EReal) (h : (⟨0, ![]⟩ : Shape).BroadcastsInDim t ![]) (j : t.Idx) :
    broadcastInDim t ![] h x j = x ix0 :=
  broadcastInDim_apply ![] h x j ix0 fun ax => ax.elim0

/-! ## A tile of rows of a stage is the stage of the tile -/

theorem mm_rows (e : Fin n → Fin N) (x : Mat n k) (X : Mat N k) (w : Mat k b)
    (hx : ∀ r j, x (ix2 r j) = X (ix2 (e r) j)) (r : Fin n) (q : Fin b) :
    mm x w (ix2 r q) = mm X w (ix2 (e r) q) := by
  rw [mm_apply, mm_apply]
  exact Finset.sum_congr rfl fun j _ => by rw [hx r j]

theorem biasRelu_rows (e : Fin n → Fin N) (x : Mat n b) (X : Mat N b) (r0 : Mat 1 b)
    (hx : ∀ r q, x (ix2 r q) = X (ix2 (e r) q)) (r : Fin n) (q : Fin b) :
    biasRelu x r0 (ix2 r q) = biasRelu X r0 (ix2 (e r) q) := by
  rw [biasRelu_apply, biasRelu_apply, hx r q]

/-! ## The two spellings of a product: the accelerator's, into a zero accumulator, and the host's -/

/-- A `[a, k] × [k, b]` product into a zero accumulator at `(p, q)`, from the four facts about the record's operand indices. -/
theorem matmul_zero_apply (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![a, k]⟩ φ₁) (w : FVec Ideal ⟨2, ![k, b]⟩ φ₂) (p : Fin a) (q : Fin b) :
    FloatOps.matmul D none x w (constant ⟨2, ![a, b]⟩ .f32 0x00000000#32) (ix2 p q) = ∑ j : Fin k, x (ix2 p j) * w (ix2 j q) :=
  (Ideal.matmul_constant_zero_apply D none x w (ix2 p q)).trans (sum_inner D hr hs hl0 hl1 hr0 hr1 x w p q)

/-- The host's product at `(p, q)`, the same way. -/
theorem dotGeneral_apply (D : DotDims ⟨2, ![a, k]⟩ ⟨2, ![k, b]⟩ ⟨2, ![a, b]⟩) (sched : HostSchedule)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (x : FVec Ideal ⟨2, ![a, k]⟩ φ₁) (w : FVec Ideal ⟨2, ![k, b]⟩ φ₂) (p : Fin a) (q : Fin b) :
    FloatOps.dotGeneral D none sched x w (ix2 p q) = ∑ j : Fin k, x (ix2 p j) * w (ix2 j q) :=
  (Ideal.dotGeneral_apply D none sched x w (ix2 p q)).trans (sum_inner D hr hs hl0 hl1 hr0 hr1 x w p q)

end Cert.Gcn

end
-- ==== Proof.LibVectorStages.lean ====
/-
  The vector spellings of the dense stages of a graph convolution network, on the extended reals, as whole arrays.

  A kernel body writes a matrix product as a product into an accumulator of zeros, a bias as a one-row array
  broadcast over the rows, a clamp as a maximum with a splat of the zero word, and a per-row scale as a one-column
  array broadcast over the columns.  Each is the corresponding stage of `Cert.Gcn` (the product `mm`, `biasRelu`,
  `addRow`) or the row-scaled quotient below, entry by entry; nothing here needs an entry to be finite.
-/
import Idealize.ShloMosaic.Lib.ValueIdx
import Idealize.ShloMosaic.Lib.Pipeline.Value
import Idealize.ShloMosaic.Lib.ValueLayout
import Idealize.ShloMosaic.PureOps.Ideal.Laws
import proofs.«143667_j15642270892451_1_alg».proof.Proof.LibDenseStages

noncomputable section

open scoped BigOperators

namespace Cert.Gcn

open Idealize.ShloMosaic Idealize.ShloMosaic.ValueIdx Cert.LayerLaws

variable {a k b : ℕ} {φ₁ φ₂ : FTy}

/-! ## A record that contracts the inner axis -/

/-- The facts about a dimension record that make its product the sum over the inner coordinate. -/
structure Inner (D : DotDims ⟨2, ![a, k]⟩ ⟨2, ![k, b]⟩ ⟨2, ![a, b]⟩) : Prop where
  rank : D.contr.rank = 1
  size : D.contr.size ⟨0, by rw [rank]; exact Nat.zero_lt_one⟩ = k
  l0 : ∀ i q, (D.lhsIdx i q 0).val = (i 0).val
  l1 : ∀ i q, (D.lhsIdx i q 1).val = (q ⟨0, by rw [rank]; exact Nat.zero_lt_one⟩).val
  r0 : ∀ i q, (D.rhsIdx i q 0).val = (q ⟨0, by rw [rank]; exact Nat.zero_lt_one⟩).val
  r1 : ∀ i q, (D.rhsIdx i q 1).val = (i 1).val

/-- A product into a zero accumulator is the matrix product. -/
theorem matmul_zero_eq_mm {D : DotDims ⟨2, ![a, k]⟩ ⟨2, ![k, b]⟩ ⟨2, ![a, b]⟩} (hD : Inner D)
    (x : FVec Ideal ⟨2, ![a, k]⟩ φ₁) (w : FVec Ideal ⟨2, ![k, b]⟩ φ₂) :
    FloatOps.matmul D none x w (constant ⟨2, ![a, b]⟩ .f32 0x00000000#32) = mm x w := by
  funext i
  obtain ⟨p, q, rfl⟩ : ∃ (p : Fin a) (q : Fin b), i = ix2 p q := ⟨i 0, i 1, eq_ix2 i⟩
  exact matmul_zero_apply D hD.rank hD.size hD.l0 hD.l1 hD.r0 hD.r1 x w p q

/-- The host's product is the matrix product too. -/
theorem dotGeneral_eq_mm {D : DotDims ⟨2, ![a, k]⟩ ⟨2, ![k, b]⟩ ⟨2, ![a, b]⟩} (hD : Inner D) (sched : HostSchedule)
    (x : FVec Ideal ⟨2, ![a, k]⟩ φ₁) (w : FVec Ideal ⟨2, ![k, b]⟩ φ₂) :
    FloatOps.dotGeneral D none sched x w = mm x w := by
  funext i
  obtain ⟨p, q, rfl⟩ : ∃ (p : Fin a) (q : Fin b), i = ix2 p q := ⟨i 0, i 1, eq_ix2 i⟩
  exact dotGeneral_apply D sched hD.rank hD.size hD.l0 hD.l1 hD.r0 hD.r1 x w p q

/-! ## Rows and columns broadcast by `vector.broadcast` -/

/-- A one-row array broadcast over `a` rows, read at `(p, q)`. -/
theorem broadcastTo_rows_apply (r : Mat 1 b) (h : (⟨2, ![1, b]⟩ : Shape).Broadcasts ⟨2, ![a, b]⟩) (p : Fin a) (q : Fin b) :
    broadcastTo ⟨2, ![a, b]⟩ r h (ix2 p q) = r (ix2 (0 : Fin 1) q) := by
  refine broadcastTo_apply r h (ix2 p q) (ix2 (0 : Fin 1) q) fun ax => ?_
  match ax with
  | ⟨0, _⟩ => rfl
  | ⟨1, _⟩ =>
    show q.val = if b = 1 then 0 else q.val
    split
    · have := q.isLt; omega
    · rfl

/-- A one-column array broadcast over `b` columns, read at `(p, q)`. -/
theorem broadcastTo_cols_apply (c : Mat a 1) (h : (⟨2, ![a, 1]⟩ : Shape).Broadcasts ⟨2, ![a, b]⟩) (p : Fin a) (q : Fin b) :
    broadcastTo ⟨2, ![a, b]⟩ c h (ix2 p q) = c (ix2 p (0 : Fin 1)) := by
  refine broadcastTo_apply c h (ix2 p q) (ix2 p (0 : Fin 1)) fun ax => ?_
  match ax with
  | ⟨0, _⟩ =>
    show p.val = if a = 1 then 0 else p.val
    split
    · have := p.isLt; omega
    · rfl
  | ⟨1, _⟩ => rfl

/-! ## The stages in their vector spelling -/

/-- "add the broadcast row, then the maximum with a splat of the zero word" is `biasRelu`. -/
theorem vector_biasRelu (x : Mat a b) (r : Mat 1 b) (h : (⟨2, ![1, b]⟩ : Shape).Broadcasts ⟨2, ![a, b]⟩) :
    maximumf (F := Ideal) (φ := .f32) (addf x (broadcastTo ⟨2, ![a, b]⟩ r h))
      (broadcast ⟨2, ![a, b]⟩ (Ideal.ofBits .f32 0x00000000#32)) = biasRelu x r := by
  funext i
  obtain ⟨p, q, rfl⟩ : ∃ (p : Fin a) (q : Fin b), i = ix2 p q := ⟨i 0, i 1, eq_ix2 i⟩
  rw [maximumf_apply, addf_apply, broadcast_apply, broadcastTo_rows_apply, biasRelu_apply, Ideal.ofBits_zero_f32]

/-- "add the broadcast row" is `addRow`. -/
theorem vector_addRow (x : Mat a b) (r : Mat 1 b) (h : (⟨2, ![1, b]⟩ : Shape).Broadcasts ⟨2, ![a, b]⟩) :
    addf (F := Ideal) (φ := .f32) x (broadcastTo ⟨2, ![a, b]⟩ r h) = addRow x r := by
  funext i
  obtain ⟨p, q, rfl⟩ : ∃ (p : Fin a) (q : Fin b), i = ix2 p q := ⟨i 0, i 1, eq_ix2 i⟩
  rw [addf_apply, broadcastTo_rows_apply, addRow_apply]

/-- Every row of `s` divided by that row's entry of a column clamped below at the word `lo`. -/
def rowQuot (lo : EReal) (s : Mat a b) (c : Mat a 1) : Mat a b :=
  fun i => Ideal.div (s i) (max (c (ix2 (⟨(i 0).val, idx2_lt0 i⟩ : Fin a) (0 : Fin 1))) lo)

theorem rowQuot_apply (lo : EReal) (s : Mat a b) (c : Mat a 1) (p : Fin a) (q : Fin b) :
    rowQuot lo s c (ix2 p q) = Ideal.div (s (ix2 p q)) (max (c (ix2 p (0 : Fin 1))) lo) := rfl

/-- "divide by the broadcast of the column's maximum with a splat" is `rowQuot`. -/
theorem vector_rowQuot (lo : EReal) (s : Mat a b) (c : Mat a 1) (h : (⟨2, ![a, 1]⟩ : Shape).Broadcasts ⟨2, ![a, b]⟩) :
    divf (F := Ideal) (φ := .f32) s (broadcastTo ⟨2, ![a, b]⟩ (maximumf (F := Ideal) (φ := .f32) c (broadcast ⟨2, ![a, 1]⟩ lo)) h)
      = rowQuot lo s c := by
  funext i
  obtain ⟨p, q, rfl⟩ : ∃ (p : Fin a) (q : Fin b), i = ix2 p q := ⟨i 0, i 1, eq_ix2 i⟩
  rw [divf_apply, broadcastTo_cols_apply, maximumf_apply, broadcast_apply, rowQuot_apply]

/-- The pooled head: every row of the sums divided by that graph's count clamped below at `lo`, a dense layer clamped at
    zero, a dense layer. -/
def pooledHead {g h j : ℕ} (lo : EReal) (s : Mat g h) (c : Mat g 1) (wl : Mat h j) (bl : Mat 1 j) (wo : Mat j 1) (bo : Mat 1 1) :
    Mat g 1 :=
  addRow (mm (biasRelu (mm (rowQuot lo s c) wl) bl) wo) bo

end Cert.Gcn

end
-- ==== Proof.MatmulRegions.lean ====
/-
  The three dense products of the network, each computed by a pipeline over ten tiles of 5000 rows.

  At a grid point `t` the body reads rows `5000 t … 5000 t + 4999` of the activations `X : [50000, k]` and the whole
  weight matrix `W : [k, n]`, narrows both to bf16 (the identity on the extended reals), multiplies them into an
  accumulator of zeros and stores the `[5000, n]` product whole; the pipeline writes it back as rows
  `5000 t … 5000 t + 4999` of the output.  Entry `(p, q)` of a product is `∑ⱼ X(p, j) · W(j, q)`: it reads row `p` of `X`
  only, so a tile of rows of the product `X · W` is the product of the tile with `W`, and the ten tiles — row `r` lies
  in tile `r / 5000` — fill the output with `X · W`.  The host's `dot_general` over the same dimension numbers is the same
  sum, entry by entry.  Nothing distributes over a sum, so no entry has to be finite.
-/
import proofs.«143667_j15642270892451_1_alg».proof.Proof.Gen.KernelIdeal.Frame
import proofs.«143667_j15642270892451_1_alg».proof.Proof.Gen.ReferenceIdeal
import proofs.«143667_j15642270892451_1_alg».proof.Proof.LibVectorStages
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.LayerLaws Cert.Gcn

/-- The zero offsets of a rank-2 rectangle that is its whole buffer. -/
theorem hz2 : (![0, 0] : Fin 2 → Nat) = fun _ => 0 := funext fun a => by fin_cases a <;> rfl

/-! ## A tile of rows of a product is the product of the tile -/

/-- If `x` is rows `o … o + a − 1` of `X` and `w` is `W`, entry `y` of `x · w` is entry `i` of `X · W`, where `i` is `y`
    moved down by `o` rows. -/
theorem mm_tile {a A k b : ℕ} (x : Mat a k) (w : Mat k b) (X : Mat A k) (W : Mat k b) (o : ℕ) (ho : o + a ≤ A)
    (hx : ∀ (r : Fin a) (j : Fin k), x (ix2 r j) = X (ix2 (⟨o + r.val, by have := r.isLt; omega⟩ : Fin A) j))
    (hw : ∀ (j : Fin k) (q : Fin b), w (ix2 j q) = W (ix2 j q))
    (r : Fin a) (q : Fin b) :
    mm x w (ix2 r q) = mm X W (ix2 (⟨o + r.val, by have := r.isLt; omega⟩ : Fin A) q) := by
  rw [mm_apply, mm_apply]
  exact Finset.sum_congr rfl fun j _ => by rw [hx r j, hw j q]

/-! # Region 0: `[50000, 128] × [128, 256]` -/

section Region0

/-- The body's dimension numbers contract the inner axis. -/
theorem inner_k0 : Inner dot_S5000x128_S128x256_S5000x256_1_0_0_1_n_n where
  rank := rfl
  size := rfl
  l0 := fun i q => rfl
  l1 := fun i q => DotDims.lhsIdx_val_of_single _ rfl i q
  r0 := fun i q => DotDims.rhsIdx_val_of_single _ rfl i q
  r1 := fun i q => rfl

/-- So do the host's. -/
theorem inner_r0 [Cert.ReferenceIdeal.Facts₀] : Inner Cert.ReferenceIdeal.dot_S50000x128_S128x256_S50000x256_1_0_0_1_n_n where
  rank := rfl
  size := rfl
  l0 := fun i q => rfl
  l1 := fun i q => DotDims.lhsIdx_val_of_single _ rfl i q
  r0 := fun i q => DotDims.rhsIdx_val_of_single _ rfl i q
  r1 := fun i q => rfl

/-- The body's stored value is the product of its two loaded blocks: narrowing to bf16 changes nothing on the
    extended reals and the accumulator is zero. -/
theorem pay0_eq (x0 : Vec Ideal S5000x128 .f32) (x1 : Vec Ideal S128x256 .f32) :
    k0_pay1 (F := Ideal) x0 x1 = mm x0 x1 := by
  unfold k0_pay1
  exact matmul_zero_eq_mm inner_k0 _ _

/-- The block indices of the three windows at point `t`: the row tile `t` of the activations and of the output, the
    weights whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The product the region computes, of the two arrays as the region finds them. -/
abbrev prod0 (c : Dev nD) : Mat 50000 256 :=
  mm (V c (Pipeline.arrRef spec0 0) : S50000x128.Idx → EReal) (V c (Pipeline.arrRef spec0 1) : S128x256.Idx → EReal)

/-- Point `t`'s block of the activations is rows `5000 t …` of the array. -/
theorem iblk0_0_apply (c : Dev nD) (t : Fin cfg0.N) (r : Fin 5000) (j : Fin 128) :
    (iblk0 V c 0 t : Vec Ideal S5000x128 .f32) (ix2 r j)
      = (V c (Pipeline.arrRef spec0 0) : S50000x128.Idx → EReal) (ix2 (⟨t.val * 5000 + r.val, by have := r.isLt; have := t.isLt; have hN : cfg0.N = 10 := N_0; omega⟩ : Fin 50000) j) := by
  obtain ⟨e0, e1, -, -, -, -⟩ := idx_facts0 t
  unfold iblk0
  rw [View.read_apply]
  show V c (Pipeline.arrRef spec0 0) (((cfg0.win 0).blk t).view.emb (ix2 r j)) = V c (Pipeline.arrRef spec0 0) _
  refine congrArg _ (funext fun a => Fin.ext ?_)
  match a with
  | ⟨0, _⟩ => show win0_0.index t (0 : Fin 2) * 5000 + 1 * r.val = t.val * 5000 + r.val; rw [e0]; omega
  | ⟨1, _⟩ => show win0_0.index t (1 : Fin 2) * 128 + 1 * j.val = j.val; rw [e1]; omega

/-- Point `t`'s block of the weights is the array. -/
theorem iblk0_1_apply (c : Dev nD) (t : Fin cfg0.N) (j : Fin 128) (q : Fin 256) :
    (iblk0 V c 1 t : Vec Ideal S128x256 .f32) (ix2 j q)
      = (V c (Pipeline.arrRef spec0 1) : S128x256.Idx → EReal) (ix2 j q) := by
  obtain ⟨-, -, e2, e3, -, -⟩ := idx_facts0 t
  unfold iblk0
  rw [View.read_apply]
  show V c (Pipeline.arrRef spec0 1) (((cfg0.win 1).blk t).view.emb (ix2 j q)) = V c (Pipeline.arrRef spec0 1) _
  refine congrArg _ (funext fun a => Fin.ext ?_)
  match a with
  | ⟨0, _⟩ => show win0_1.index t (0 : Fin 2) * 128 + 1 * j.val = j.val; rw [e2]; omega
  | ⟨1, _⟩ => show win0_1.index t (1 : Fin 2) * 256 + 1 * q.val = q.val; rw [e3]; omega

/-- What point `t` writes back is block `t` of the product of the whole arrays. -/
theorem flushed0_eq (c : Dev nD) (t : Fin cfg0.N) :
    (dat0 (F := Ideal) V c).flushed 2 t = ((cfg0.win 2).blk t).view.read (Elt Ideal) (prod0 V c) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x256) hz2]
  rw [pay0_eq]
  obtain ⟨-, -, -, -, e4, e5⟩ := idx_facts0 t
  have hN : cfg0.N = 10 := N_0
  have ht := t.isLt
  funext y
  obtain ⟨r, q, rfl⟩ : ∃ (r : Fin 5000) (q : Fin 256), y = ix2 r q := ⟨y 0, y 1, eq_ix2 y⟩
  rw [View.read_apply]
  refine (mm_tile (iblk0 V c 0 t) (iblk0 V c 1 t) _ _ (t.val * 5000) (by omega)
    (fun r j => iblk0_0_apply V c t r j) (fun j q => iblk0_1_apply V c t j q) r q).trans ?_
  refine congrArg (prod0 V c) (funext fun a => Fin.ext ?_)
  match a with
  | ⟨0, _⟩ => show t.val * 5000 + r.val = win0_2.index t (0 : Fin 2) * 5000 + 1 * r.val; rw [e4]; omega
  | ⟨1, _⟩ => show q.val = win0_2.index t (1 : Fin 2) * 256 + 1 * q.val; rw [e5]; omega

/-- An index of the output is in point `t`'s block iff each coordinate is in the block's range on its axis. -/
theorem mem_blk0 (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v30).slice (win0_2.rect t)).set ↔ _
  rw [View.set_slice_whole, Rect.mem_set_unit]
  exact Iff.rfl

/-- Row `r` of the output is in the block of point `r / 5000`, which writes back: the ten blocks fill the array. -/
theorem cover0 (i : S50000x256.Idx) : ∃ t : Fin cfg0.N, (cfg0.win 2).flush t = true ∧ i ∈ ((cfg0.win 2).blk t).view.set := by
  have hN : cfg0.N = 10 := N_0
  have hi0 : (i 0).val < 50000 := (i 0).isLt
  have hi1 : (i 1).val < 256 := (i 1).isLt
  refine ⟨⟨(i 0).val / 5000, by omega⟩, flush0_2 _, ?_⟩
  obtain ⟨-, -, -, -, e4, e5⟩ := idx_facts0 ⟨(i 0).val / 5000, by omega⟩
  rw [mem_blk0]
  intro a
  match a with
  | ⟨0, _⟩ =>
    show win0_2.index ⟨(i 0).val / 5000, _⟩ (0 : Fin 2) * 5000 ≤ (i 0).val ∧ (i 0).val < win0_2.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, _⟩ (1 : Fin 2) * 256 ≤ (i 1).val ∧ (i 1).val < win0_2.index ⟨(i 0).val / 5000, _⟩ (1 : Fin 2) * 256 + 256
    rw [e5]; omega

/-- The output array after the region is the product of the two arrays as the region finds them. -/
theorem arr0 (c : Dev nD) : (dat0 (F := Ideal) V c).arrAt 2 cfg0.N = prod0 V c :=
  (dat0 (F := Ideal) V c).arrAt_eq_of_cover 2 (prod0 V c) (fun t _ => flushed0_eq V c t) cover0

/-- … which is the host's `dot_general` of them. -/
theorem mm0 [Cert.ReferenceIdeal.Facts₀] (c : Dev nD) :
    ((dat0 (F := Ideal) V c).arrAt 2 cfg0.N : S50000x256.Idx → EReal)
      = Host.dotGeneral (F := Ideal) (φ₁ := .f32) (φ₂ := .f32) Cert.ReferenceIdeal.dot_S50000x128_S128x256_S50000x256_1_0_0_1_n_n none
          (V c (Pipeline.arrRef spec0 0)) (V c (Pipeline.arrRef spec0 1)) :=
  (arr0 V c).trans (dotGeneral_eq_mm inner_r0 .single _ _).symm

end Region0

/-! # Region 2: `[50000, 256] × [256, 256]` -/

section Region2

/-- The body's dimension numbers contract the inner axis. -/
theorem inner_k2 : Inner dot_S5000x256_S256x256_S5000x256_1_0_0_1_n_n where
  rank := rfl
  size := rfl
  l0 := fun i q => rfl
  l1 := fun i q => DotDims.lhsIdx_val_of_single _ rfl i q
  r0 := fun i q => DotDims.rhsIdx_val_of_single _ rfl i q
  r1 := fun i q => rfl

/-- So do the host's. -/
theorem inner_r2 [Cert.ReferenceIdeal.Facts₀] : Inner Cert.ReferenceIdeal.dot_S50000x256_S256x256_S50000x256_1_0_0_1_n_n where
  rank := rfl
  size := rfl
  l0 := fun i q => rfl
  l1 := fun i q => DotDims.lhsIdx_val_of_single _ rfl i q
  r0 := fun i q => DotDims.rhsIdx_val_of_single _ rfl i q
  r1 := fun i q => rfl

/-- The body's stored value is the product of its two loaded blocks: the recast of the first block to its own shape
    is the block, narrowing to bf16 changes nothing on the extended reals and the accumulator is zero. -/
theorem pay2_eq (x0 : Vec Ideal S5000x256 .f32) (x1 : Vec Ideal S256x256 .f32) :
    k2_pay1 (F := Ideal) x0 x1 = mm x0 x1 := by
  unfold k2_pay1
  simp only [shapeCast_self]
  exact matmul_zero_eq_mm inner_k2 _ _

/-- The block indices of the three windows at point `t`: the row tile `t` of the activations and of the output, the
    weights whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- The product the region computes, of the two arrays as the region finds them. -/
abbrev prod2 (c : Dev nD) : Mat 50000 256 :=
  mm (V c (Pipeline.arrRef spec2 0) : S50000x256.Idx → EReal) (V c (Pipeline.arrRef spec2 1) : S256x256.Idx → EReal)

/-- Point `t`'s block of the activations is rows `5000 t …` of the array. -/
theorem iblk2_0_apply (c : Dev nD) (t : Fin cfg2.N) (r : Fin 5000) (j : Fin 256) :
    (iblk2 V c 0 t : Vec Ideal S5000x256 .f32) (ix2 r j)
      = (V c (Pipeline.arrRef spec2 0) : S50000x256.Idx → EReal) (ix2 (⟨t.val * 5000 + r.val, by have := r.isLt; have := t.isLt; have hN : cfg2.N = 10 := N_2; omega⟩ : Fin 50000) j) := by
  obtain ⟨e0, e1, -, -, -, -⟩ := idx_facts2 t
  unfold iblk2
  rw [View.read_apply]
  show V c (Pipeline.arrRef spec2 0) (((cfg2.win 0).blk t).view.emb (ix2 r j)) = V c (Pipeline.arrRef spec2 0) _
  refine congrArg _ (funext fun a => Fin.ext ?_)
  match a with
  | ⟨0, _⟩ => show win2_0.index t (0 : Fin 2) * 5000 + 1 * r.val = t.val * 5000 + r.val; rw [e0]; omega
  | ⟨1, _⟩ => show win2_0.index t (1 : Fin 2) * 256 + 1 * j.val = j.val; rw [e1]; omega

/-- Point `t`'s block of the weights is the array. -/
theorem iblk2_1_apply (c : Dev nD) (t : Fin cfg2.N) (j : Fin 256) (q : Fin 256) :
    (iblk2 V c 1 t : Vec Ideal S256x256 .f32) (ix2 j q)
      = (V c (Pipeline.arrRef spec2 1) : S256x256.Idx → EReal) (ix2 j q) := by
  obtain ⟨-, -, e2, e3, -, -⟩ := idx_facts2 t
  unfold iblk2
  rw [View.read_apply]
  show V c (Pipeline.arrRef spec2 1) (((cfg2.win 1).blk t).view.emb (ix2 j q)) = V c (Pipeline.arrRef spec2 1) _
  refine congrArg _ (funext fun a => Fin.ext ?_)
  match a with
  | ⟨0, _⟩ => show win2_1.index t (0 : Fin 2) * 256 + 1 * j.val = j.val; rw [e2]; omega
  | ⟨1, _⟩ => show win2_1.index t (1 : Fin 2) * 256 + 1 * q.val = q.val; rw [e3]; omega

/-- What point `t` writes back is block `t` of the product of the whole arrays. -/
theorem flushed2_eq (c : Dev nD) (t : Fin cfg2.N) :
    (dat2 (F := Ideal) V c).flushed 2 t = ((cfg2.win 2).blk t).view.read (Elt Ideal) (prod2 V c) := by
  show (cfg2.win 2).cut (grid2.coords t) ((dat2 V c).after 2 t) = _
  rw [after2_2]
  unfold out2_2
  rw [View.canon_unit_zero hz2]
  simp only [View.ld_unit_zero (S := S5000x256) hz2, View.ld_unit_zero (S := S256x256) hz2]
  rw [pay2_eq]
  obtain ⟨-, -, -, -, e4, e5⟩ := idx_facts2 t
  have hN : cfg2.N = 10 := N_2
  have ht := t.isLt
  funext y
  obtain ⟨r, q, rfl⟩ : ∃ (r : Fin 5000) (q : Fin 256), y = ix2 r q := ⟨y 0, y 1, eq_ix2 y⟩
  rw [View.read_apply]
  refine (mm_tile (iblk2 V c 0 t) (iblk2 V c 1 t) _ _ (t.val * 5000) (by omega)
    (fun r j => iblk2_0_apply V c t r j) (fun j q => iblk2_1_apply V c t j q) r q).trans ?_
  refine congrArg (prod2 V c) (funext fun a => Fin.ext ?_)
  match a with
  | ⟨0, _⟩ => show t.val * 5000 + r.val = win2_2.index t (0 : Fin 2) * 5000 + 1 * r.val; rw [e4]; omega
  | ⟨1, _⟩ => show q.val = win2_2.index t (1 : Fin 2) * 256 + 1 * q.val; rw [e5]; omega

/-- An index of the output is in point `t`'s block iff each coordinate is in the block's range on its axis. -/
theorem mem_blk2 (t : Fin cfg2.N) (i : S50000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v56).slice (win2_2.rect t)).set ↔ _
  rw [View.set_slice_whole, Rect.mem_set_unit]
  exact Iff.rfl

/-- Row `r` of the output is in the block of point `r / 5000`, which writes back: the ten blocks fill the array. -/
theorem cover2 (i : S50000x256.Idx) : ∃ t : Fin cfg2.N, (cfg2.win 2).flush t = true ∧ i ∈ ((cfg2.win 2).blk t).view.set := by
  have hN : cfg2.N = 10 := N_2
  have hi0 : (i 0).val < 50000 := (i 0).isLt
  have hi1 : (i 1).val < 256 := (i 1).isLt
  refine ⟨⟨(i 0).val / 5000, by omega⟩, flush2_2 _, ?_⟩
  obtain ⟨-, -, -, -, e4, e5⟩ := idx_facts2 ⟨(i 0).val / 5000, by omega⟩
  rw [mem_blk2]
  intro a
  match a with
  | ⟨0, _⟩ =>
    show win2_2.index ⟨(i 0).val / 5000, _⟩ (0 : Fin 2) * 5000 ≤ (i 0).val ∧ (i 0).val < win2_2.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, _⟩ (1 : Fin 2) * 256 ≤ (i 1).val ∧ (i 1).val < win2_2.index ⟨(i 0).val / 5000, _⟩ (1 : Fin 2) * 256 + 256
    rw [e5]; omega

/-- The output array after the region is the product of the two arrays as the region finds them. -/
theorem arr2 (c : Dev nD) : (dat2 (F := Ideal) V c).arrAt 2 cfg2.N = prod2 V c :=
  (dat2 (F := Ideal) V c).arrAt_eq_of_cover 2 (prod2 V c) (fun t _ => flushed2_eq V c t) cover2

/-- … which is the host's `dot_general` of them. -/
theorem mm2 [Cert.ReferenceIdeal.Facts₀] (c : Dev nD) :
    ((dat2 (F := Ideal) V c).arrAt 2 cfg2.N : S50000x256.Idx → EReal)
      = Host.dotGeneral (F := Ideal) (φ₁ := .f32) (φ₂ := .f32) Cert.ReferenceIdeal.dot_S50000x256_S256x256_S50000x256_1_0_0_1_n_n none
          (V c (Pipeline.arrRef spec2 0)) (V c (Pipeline.arrRef spec2 1)) :=
  (arr2 V c).trans (dotGeneral_eq_mm inner_r2 .single _ _).symm

end Region2

/-! # Region 4: `[50000, 256] × [256, 40]` -/

section Region4

/-- The body's dimension numbers contract the inner axis. -/
theorem inner_k4 : Inner dot_S5000x256_S256x40_S5000x40_1_0_0_1_n_n where
  rank := rfl
  size := rfl
  l0 := fun i q => rfl
  l1 := fun i q => DotDims.lhsIdx_val_of_single _ rfl i q
  r0 := fun i q => DotDims.rhsIdx_val_of_single _ rfl i q
  r1 := fun i q => rfl

/-- So do the host's. -/
theorem inner_r4 [Cert.ReferenceIdeal.Facts₀] : Inner Cert.ReferenceIdeal.dot_S50000x256_S256x40_S50000x40_1_0_0_1_n_n where
  rank := rfl
  size := rfl
  l0 := fun i q => rfl
  l1 := fun i q => DotDims.lhsIdx_val_of_single _ rfl i q
  r0 := fun i q => DotDims.rhsIdx_val_of_single _ rfl i q
  r1 := fun i q => rfl

/-- The body's stored value is the product of its two loaded blocks: the recast of the first block to its own shape
    is the block, narrowing to bf16 changes nothing on the extended reals and the accumulator is zero. -/
theorem pay4_eq (x0 : Vec Ideal S5000x256 .f32) (x1 : Vec Ideal S256x40 .f32) :
    k4_pay1 (F := Ideal) x0 x1 = mm x0 x1 := by
  unfold k4_pay1
  simp only [shapeCast_self]
  exact matmul_zero_eq_mm inner_k4 _ _

/-- The block indices of the three windows at point `t`: the row tile `t` of the activations and of the output, the
    weights whole. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- The product the region computes, of the two arrays as the region finds them. -/
abbrev prod4 (c : Dev nD) : Mat 50000 40 :=
  mm (V c (Pipeline.arrRef spec4 0) : S50000x256.Idx → EReal) (V c (Pipeline.arrRef spec4 1) : S256x40.Idx → EReal)

/-- Point `t`'s block of the activations is rows `5000 t …` of the array. -/
theorem iblk4_0_apply (c : Dev nD) (t : Fin cfg4.N) (r : Fin 5000) (j : Fin 256) :
    (iblk4 V c 0 t : Vec Ideal S5000x256 .f32) (ix2 r j)
      = (V c (Pipeline.arrRef spec4 0) : S50000x256.Idx → EReal) (ix2 (⟨t.val * 5000 + r.val, by have := r.isLt; have := t.isLt; have hN : cfg4.N = 10 := N_4; omega⟩ : Fin 50000) j) := by
  obtain ⟨e0, e1, -, -, -, -⟩ := idx_facts4 t
  unfold iblk4
  rw [View.read_apply]
  show V c (Pipeline.arrRef spec4 0) (((cfg4.win 0).blk t).view.emb (ix2 r j)) = V c (Pipeline.arrRef spec4 0) _
  refine congrArg _ (funext fun a => Fin.ext ?_)
  match a with
  | ⟨0, _⟩ => show win4_0.index t (0 : Fin 2) * 5000 + 1 * r.val = t.val * 5000 + r.val; rw [e0]; omega
  | ⟨1, _⟩ => show win4_0.index t (1 : Fin 2) * 256 + 1 * j.val = j.val; rw [e1]; omega

/-- Point `t`'s block of the weights is the array. -/
theorem iblk4_1_apply (c : Dev nD) (t : Fin cfg4.N) (j : Fin 256) (q : Fin 40) :
    (iblk4 V c 1 t : Vec Ideal S256x40 .f32) (ix2 j q)
      = (V c (Pipeline.arrRef spec4 1) : S256x40.Idx → EReal) (ix2 j q) := by
  obtain ⟨-, -, e2, e3, -, -⟩ := idx_facts4 t
  unfold iblk4
  rw [View.read_apply]
  show V c (Pipeline.arrRef spec4 1) (((cfg4.win 1).blk t).view.emb (ix2 j q)) = V c (Pipeline.arrRef spec4 1) _
  refine congrArg _ (funext fun a => Fin.ext ?_)
  match a with
  | ⟨0, _⟩ => show win4_1.index t (0 : Fin 2) * 256 + 1 * j.val = j.val; rw [e2]; omega
  | ⟨1, _⟩ => show win4_1.index t (1 : Fin 2) * 40 + 1 * q.val = q.val; rw [e3]; omega

/-- What point `t` writes back is block `t` of the product of the whole arrays. -/
theorem flushed4_eq (c : Dev nD) (t : Fin cfg4.N) :
    (dat4 (F := Ideal) V c).flushed 2 t = ((cfg4.win 2).blk t).view.read (Elt Ideal) (prod4 V c) := by
  show (cfg4.win 2).cut (grid4.coords t) ((dat4 V c).after 2 t) = _
  rw [after4_2]
  unfold out4_2
  rw [View.canon_unit_zero hz2]
  simp only [View.ld_unit_zero (S := S5000x256) hz2, View.ld_unit_zero (S := S256x40) hz2]
  rw [pay4_eq]
  obtain ⟨-, -, -, -, e4, e5⟩ := idx_facts4 t
  have hN : cfg4.N = 10 := N_4
  have ht := t.isLt
  funext y
  obtain ⟨r, q, rfl⟩ : ∃ (r : Fin 5000) (q : Fin 40), y = ix2 r q := ⟨y 0, y 1, eq_ix2 y⟩
  rw [View.read_apply]
  refine (mm_tile (iblk4 V c 0 t) (iblk4 V c 1 t) _ _ (t.val * 5000) (by omega)
    (fun r j => iblk4_0_apply V c t r j) (fun j q => iblk4_1_apply V c t j q) r q).trans ?_
  refine congrArg (prod4 V c) (funext fun a => Fin.ext ?_)
  match a with
  | ⟨0, _⟩ => show t.val * 5000 + r.val = win4_2.index t (0 : Fin 2) * 5000 + 1 * r.val; rw [e4]; omega
  | ⟨1, _⟩ => show q.val = win4_2.index t (1 : Fin 2) * 40 + 1 * q.val; rw [e5]; omega

/-- An index of the output is in point `t`'s block iff each coordinate is in the block's range on its axis. -/
theorem mem_blk4 (t : Fin cfg4.N) (i : S50000x40.Idx) :
    i ∈ ((cfg4.win 2).blk t).view.set ↔ ∀ a : Fin 2, win4_2.index t a * S5000x40.size a ≤ (i a).val ∧ (i a).val < win4_2.index t a * S5000x40.size a + S5000x40.size a := by
  show i ∈ ((View.whole main_v82).slice (win4_2.rect t)).set ↔ _
  rw [View.set_slice_whole, Rect.mem_set_unit]
  exact Iff.rfl

/-- Row `r` of the output is in the block of point `r / 5000`, which writes back: the ten blocks fill the array. -/
theorem cover4 (i : S50000x40.Idx) : ∃ t : Fin cfg4.N, (cfg4.win 2).flush t = true ∧ i ∈ ((cfg4.win 2).blk t).view.set := by
  have hN : cfg4.N = 10 := N_4
  have hi0 : (i 0).val < 50000 := (i 0).isLt
  have hi1 : (i 1).val < 40 := (i 1).isLt
  refine ⟨⟨(i 0).val / 5000, by omega⟩, flush4_2 _, ?_⟩
  obtain ⟨-, -, -, -, e4, e5⟩ := idx_facts4 ⟨(i 0).val / 5000, by omega⟩
  rw [mem_blk4]
  intro a
  match a with
  | ⟨0, _⟩ =>
    show win4_2.index ⟨(i 0).val / 5000, _⟩ (0 : Fin 2) * 5000 ≤ (i 0).val ∧ (i 0).val < win4_2.index ⟨(i 0).val / 5000, _⟩ (0 : Fin 2) * 5000 + 5000
    rw [e4]; show (i 0).val / 5000 * 5000 ≤ (i 0).val ∧ (i 0).val < (i 0).val / 5000 * 5000 + 5000; omega
  | ⟨1, _⟩ =>
    show win4_2.index ⟨(i 0).val / 5000, _⟩ (1 : Fin 2) * 40 ≤ (i 1).val ∧ (i 1).val < win4_2.index ⟨(i 0).val / 5000, _⟩ (1 : Fin 2) * 40 + 40
    rw [e5]; omega

/-- The output array after the region is the product of the two arrays as the region finds them. -/
theorem arr4 (c : Dev nD) : (dat4 (F := Ideal) V c).arrAt 2 cfg4.N = prod4 V c :=
  (dat4 (F := Ideal) V c).arrAt_eq_of_cover 2 (prod4 V c) (fun t _ => flushed4_eq V c t) cover4

/-- … which is the host's `dot_general` of them. -/
theorem mm4 [Cert.ReferenceIdeal.Facts₀] (c : Dev nD) :
    ((dat4 (F := Ideal) V c).arrAt 2 cfg4.N : S50000x40.Idx → EReal)
      = Host.dotGeneral (F := Ideal) (φ₁ := .f32) (φ₂ := .f32) Cert.ReferenceIdeal.dot_S50000x256_S256x40_S50000x40_1_0_0_1_n_n none
          (V c (Pipeline.arrRef spec4 0)) (V c (Pipeline.arrRef spec4 1)) :=
  (arr4 V c).trans (dotGeneral_eq_mm inner_r4 .single _ _).symm

end Region4

end Cert.KernelIdeal.Regions

end
-- ==== Proof.NormSpec.lean ====
/- The fused batch-normalisation + ReLU stage of the three-layer graph network, as ONE whole-array function on the
   extended reals: every row of the node features is centred by the batch mean row, scaled by the reciprocal square
   root of the batch variance row plus a small constant, multiplied by the gain row, shifted by the bias row, and
   clamped below at zero. Both programs' spellings of the stage are shown equal to this function. -/
import Idealize.ShloMosaic.Lib.ValueIdx

noncomputable section

namespace Cert.Spec

open Idealize.ShloMosaic Idealize.ShloMosaic.ValueIdx

/-- The node-feature arrays: 50000 nodes, 256 features each. -/
abbrev SNodes256 : Shape := ⟨2, ![50000, 256]⟩
/-- One row of 256 features (a per-feature statistic or parameter, kept as a [1,256] array). -/
abbrev SRow256 : Shape := ⟨2, ![1, 256]⟩

/-- The small constant added to the variance: the single-precision word nearest to 1e-5, read as an extended real. -/
abbrev bnEps : EReal := Ideal.ofBits .f32 0x3727C5AC#32

/-- The stage at one entry, from the entry of `h` and the four per-feature numbers. -/
def bnReluAt (x mu var g be : EReal) : EReal :=
  max (((x - mu) * Ideal.rsqrt (var + bnEps)) * g + be) (Ideal.ofBits .f32 0x00000000#32)

/-- BATCH NORMALISATION THEN ReLU, index by index: entry `(p, q)` is
    `max (((h p q − mu q) · rsqrt (var q + ε)) · g q + be q) 0`, the statistics and parameters read from their one row. -/
def bnRelu (h : SNodes256.Idx → EReal) (mu var g be : SRow256.Idx → EReal) : SNodes256.Idx → EReal := fun i =>
  bnReluAt (h i) (mu (ix2 (0 : Fin 1) (i 1 : Fin 256))) (var (ix2 (0 : Fin 1) (i 1 : Fin 256)))
    (g (ix2 (0 : Fin 1) (i 1 : Fin 256))) (be (ix2 (0 : Fin 1) (i 1 : Fin 256)))

/-- The stage read at explicit coordinates. -/
theorem bnRelu_apply (h : SNodes256.Idx → EReal) (mu var g be : SRow256.Idx → EReal) (p : Fin 50000) (q : Fin 256) :
    bnRelu h mu var g be (ix2 p q)
      = bnReluAt (h (ix2 p q)) (mu (ix2 (0 : Fin 1) q)) (var (ix2 (0 : Fin 1) q)) (g (ix2 (0 : Fin 1) q)) (be (ix2 (0 : Fin 1) q)) := rfl

end Cert.Spec

end
-- ==== Proof.NormKernel.lean ====
/- The kernel's fused batch-normalisation + ReLU regions read as whole arrays: each grid point centres, scales, shifts
   and clamps one tile of 5000 rows against the same four parameter rows, the ten tiles cover the 50000 rows, so the
   region's output array is the whole-array function `Cert.Spec.bnRelu` of the region's five input arrays. -/
import proofs.«143667_j15642270892451_1_alg».proof.Proof.Gen.KernelIdeal.Frame
import proofs.«143667_j15642270892451_1_alg».proof.Proof.NormSpec
import Idealize.ShloMosaic.Lib.Pipeline.Value
import Idealize.ShloMosaic.Lib.ValueIdx
import Idealize.ShloMosaic.Lib.ValueLayout

set_option maxRecDepth 16384

noncomputable section

namespace Cert.KernelIdeal.Regions

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-buffer access. -/
theorem zeroOffsets : (![0, 0] : Fin 2 → Nat) = fun _ => 0 := funext fun a => by fin_cases a <;> rfl

/-! ## Region 1: one tile of the stage -/

/-- THE TILE'S ARITHMETIC AT AN ENTRY: the body's stored value at row `p`, feature `q` of the tile is the stage's
    entry formula of the tile's entry and of the four rows at feature `q` (the broadcasts of a row over the tile read
    the row; the casts to the same shape are the identity). -/
theorem tile1_apply (x0 : Vec Ideal S5000x256 .f32) (xv xm xg xb : Vec Ideal S1x256 .f32) (p : Fin 5000) (q : Fin 256) :
    k1_pay1 (F := Ideal) x0 xv xm xg xb (ix2 p q)
      = Cert.Spec.bnReluAt (x0 (ix2 p q)) (xm (ix2 (0 : Fin 1) q)) (xv (ix2 (0 : Fin 1) q)) (xg (ix2 (0 : Fin 1) q)) (xb (ix2 (0 : Fin 1) q)) := by
  unfold k1_pay1 Cert.Spec.bnReluAt
  simp only [shapeCast_self]
  show max (((x0 (ix2 p q) - broadcastTo S5000x256 xm broadcasts_S1x256_S5000x256 (ix2 p q))
      * broadcastTo S5000x256 (rsqrt (F := Ideal) (addf (F := Ideal) xv (broadcast S1x256 (Scalar.ofBits (F := Ideal) .f32 0x3727C5AC#32)))) broadcasts_S1x256_S5000x256 (ix2 p q))
      * broadcastTo S5000x256 xg broadcasts_S1x256_S5000x256 (ix2 p q)
      + broadcastTo S5000x256 xb broadcasts_S1x256_S5000x256 (ix2 p q)) (Ideal.ofBits .f32 0x00000000#32) = _
  rw [broadcastTo_1b_ab_apply, broadcastTo_1b_ab_apply, broadcastTo_1b_ab_apply, broadcastTo_1b_ab_apply]
  rfl

variable (V : (c : Dev nD) → (b : Ref sig .tc) → Buf (Elt Ideal) ((c : Thread nD τ).loc b)) in
section

/-- THE TILE AGAINST THE WHOLE ARRAY: when the tile's entry `j` is the array's entry `i` (same feature) and the four
    rows are the arrays' rows, the body's stored value at `j` is the whole-array stage at `i`. -/
theorem tile1_eq (H : S50000x256.Idx → EReal) (MU VAR G BE : S1x256.Idx → EReal)
    (x0 : Vec Ideal S5000x256 .f32) (xv xm xg xb : Vec Ideal S1x256 .f32) (j : S5000x256.Idx) (i : S50000x256.Idx)
    (h0 : x0 j = H i) (h1 : (i 1).val = (j 1).val) (hm : xm = MU) (hv : xv = VAR) (hg : xg = G) (hb : xb = BE) :
    k1_pay1 (F := Ideal) x0 xv xm xg xb j = Cert.Spec.bnRelu H MU VAR G BE i := by
  subst hm hv hg hb
  obtain ⟨p, q, rfl⟩ : ∃ (p : Fin 5000) (q : Fin 256), j = ix2 p q := ⟨j 0, j 1, eq_ix2 j⟩
  obtain ⟨a, b, rfl⟩ : ∃ (a : Fin 50000) (b : Fin 256), i = ix2 a b := ⟨i 0, i 1, eq_ix2 i⟩
  obtain rfl : b = q := Fin.ext h1
  rw [tile1_apply, Cert.Spec.bnRelu_apply, h0]

/-- The printed index maps over the ten grid points: the feature tile and the output tile sit at block row `t`,
    the four parameter rows at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)
end

variable (V : (c : Dev nD) → (b : Ref sig .tc) → Buf (Elt Ideal) ((c : Thread nD τ).loc b)) in
section

/-- A parameter row's window holds the whole [1,256] array at every point (its block index is (0, 0)). -/
theorem row1_1 (c : Dev nD) (t : Fin cfg1.N) :
    (iblk1 V c 1 t : Vec Ideal S1x256 .f32) = (V c (Pipeline.arrRef spec1 1) : S1x256.Idx → EReal) := by
  obtain ⟨-, -, e0, e1, -⟩ := idx_facts1 t
  funext y
  unfold iblk1
  rw [View.read_apply]
  refine congrArg (V c (Pipeline.arrRef spec1 1)) (funext fun a => Fin.ext ?_)
  match a with
  | ⟨0, _⟩ => show win1_1.index t (0 : Fin 2) * 1 + 1 * (y 0).val = (y 0).val; rw [e0]; omega
  | ⟨1, _⟩ => show win1_1.index t (1 : Fin 2) * 256 + 1 * (y 1).val = (y 1).val; rw [e1]; omega

theorem row1_2 (c : Dev nD) (t : Fin cfg1.N) :
    (iblk1 V c 2 t : Vec Ideal S1x256 .f32) = (V c (Pipeline.arrRef spec1 2) : S1x256.Idx → EReal) := by
  obtain ⟨-, -, -, -, e0, e1, -⟩ := idx_facts1 t
  funext y
  unfold iblk1
  rw [View.read_apply]
  refine congrArg (V c (Pipeline.arrRef spec1 2)) (funext fun a => Fin.ext ?_)
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

theorem row1_3 (c : Dev nD) (t : Fin cfg1.N) :
    (iblk1 V c 3 t : Vec Ideal S1x256 .f32) = (V c (Pipeline.arrRef spec1 3) : S1x256.Idx → EReal) := by
  obtain ⟨-, -, -, -, -, -, e0, e1, -⟩ := idx_facts1 t
  funext y
  unfold iblk1
  rw [View.read_apply]
  refine congrArg (V c (Pipeline.arrRef spec1 3)) (funext fun a => Fin.ext ?_)
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

theorem row1_4 (c : Dev nD) (t : Fin cfg1.N) :
    (iblk1 V c 4 t : Vec Ideal S1x256 .f32) = (V c (Pipeline.arrRef spec1 4) : S1x256.Idx → EReal) := by
  obtain ⟨-, -, -, -, -, -, -, -, e0, e1, -⟩ := idx_facts1 t
  funext y
  unfold iblk1
  rw [View.read_apply]
  refine congrArg (V c (Pipeline.arrRef spec1 4)) (funext fun a => Fin.ext ?_)
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

/-- The feature window's tile at point `t` holds the array's entries that the output window's tile at `t` names
    (both sit at block row `t`). -/
theorem tile1_in (c : Dev nD) (t : Fin cfg1.N) (j : S5000x256.Idx) :
    (iblk1 V c 0 t : Vec Ideal S5000x256 .f32) j
      = (V c (Pipeline.arrRef spec1 0) : S50000x256.Idx → EReal) (((cfg1.win 5).blk t).view.emb j) := by
  obtain ⟨e0, e1, -, -, -, -, -, -, -, -, e10, e11⟩ := idx_facts1 t
  unfold iblk1
  rw [View.read_apply]
  refine congrArg (V c (Pipeline.arrRef spec1 0)) (funext fun a => Fin.ext ?_)
  match a with
  | ⟨0, _⟩ => show win1_0.index t (0 : Fin 2) * 5000 + 1 * (j 0).val = win1_5.index t (0 : Fin 2) * 5000 + 1 * (j 0).val; rw [e0, e10]
  | ⟨1, _⟩ => show win1_0.index t (1 : Fin 2) * 256 + 1 * (j 1).val = win1_5.index t (1 : Fin 2) * 256 + 1 * (j 1).val; rw [e1, e11]

/-- WHAT POINT `t` WRITES BACK is tile `t` of the whole-array stage of the region's input arrays. -/
theorem flushed1_eq (c : Dev nD) (t : Fin cfg1.N) :
    (dat1 (F := Ideal) V c).flushed 5 t = ((cfg1.win 5).blk t).view.read (Elt Ideal)
      (Cert.Spec.bnRelu (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  unfold out1_5
  rw [View.canon_unit_zero zeroOffsets]
  simp only [View.ld_unit_zero (S := S5000x256) zeroOffsets, View.ld_unit_zero (S := S1x256) zeroOffsets]
  obtain ⟨-, -, -, -, -, -, -, -, -, -, -, e11⟩ := idx_facts1 t
  funext j
  refine tile1_eq (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 2 t) (iblk1 V c 1 t) (iblk1 V c 3 t) (iblk1 V c 4 t) j (((cfg1.win 5).blk t).view.emb j)
    (tile1_in V c t j) ?_ (row1_1 V c t) (row1_2 V c t) (row1_3 V c t) (row1_4 V c t)
  show win1_5.index t (1 : Fin 2) * 256 + 1 * (j 1).val = (j 1).val
  rw [e11]; omega

/-- An index of the output array is in point `t`'s tile iff each coordinate is in the tile's range on its axis. -/
theorem mem_tile1 (t : Fin cfg1.N) (i : S50000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v55).slice (win1_5.rect t)).set ↔ _
  rw [View.set_slice_whole, Rect.mem_set_unit]
  exact Iff.rfl

/-- THE TEN TILES COVER THE ARRAY: row `r` lies in the tile of point `r / 5000`. -/
theorem cover1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : grid1.N = 10 := N_1
  obtain ⟨t, ht⟩ : ∃ t : Fin cfg1.N, t.val = (i 0).val / 5000 := ⟨⟨(i 0).val / 5000, by show (i 0).val / 5000 < grid1.N; omega⟩, rfl⟩
  obtain ⟨-, -, -, -, -, -, -, -, -, -, e10, e11⟩ := idx_facts1 t
  refine ⟨t, flush1_5 t, ?_⟩
  rw [mem_tile1]
  intro a
  match a with
  | ⟨0, _⟩ => show win1_5.index t (0 : Fin 2) * 5000 ≤ (i 0).val ∧ (i 0).val < win1_5.index t (0 : Fin 2) * 5000 + 5000; rw [e10, ht]; omega
  | ⟨1, _⟩ => show win1_5.index t (1 : Fin 2) * 256 ≤ (i 1).val ∧ (i 1).val < win1_5.index t (1 : Fin 2) * 256 + 256; rw [e11]; omega

/-- REGION 1'S OUTPUT ARRAY after the region is the whole-array stage of its five input arrays as the region finds
    them: every point writes its tile of that function, and the tiles cover the array. -/
theorem bn1 (c : Dev nD) :
    ((dat1 (F := Ideal) V c).arrAt 5 cfg1.N : S50000x256.Idx → EReal)
      = Cert.Spec.bnRelu (V c (Pipeline.arrRef spec1 0)) (V c (Pipeline.arrRef spec1 1)) (V c (Pipeline.arrRef spec1 2))
          (V c (Pipeline.arrRef spec1 3)) (V c (Pipeline.arrRef spec1 4)) :=
  (dat1 (F := Ideal) V c).arrAt_eq_of_cover 5 _ (fun t _ => flushed1_eq V c t) cover1
end

/-! ## Region 3: one tile of the stage -/

/-- THE TILE'S ARITHMETIC AT AN ENTRY: the body's stored value at row `p`, feature `q` of the tile is the stage's
    entry formula of the tile's entry and of the four rows at feature `q` (the broadcasts of a row over the tile read
    the row; the casts to the same shape are the identity). -/
theorem tile3_apply (x0 : Vec Ideal S5000x256 .f32) (xv xm xg xb : Vec Ideal S1x256 .f32) (p : Fin 5000) (q : Fin 256) :
    k3_pay1 (F := Ideal) x0 xv xm xg xb (ix2 p q)
      = Cert.Spec.bnReluAt (x0 (ix2 p q)) (xm (ix2 (0 : Fin 1) q)) (xv (ix2 (0 : Fin 1) q)) (xg (ix2 (0 : Fin 1) q)) (xb (ix2 (0 : Fin 1) q)) := by
  unfold k3_pay1 Cert.Spec.bnReluAt
  simp only [shapeCast_self]
  show max (((x0 (ix2 p q) - broadcastTo S5000x256 xm broadcasts_S1x256_S5000x256 (ix2 p q))
      * broadcastTo S5000x256 (rsqrt (F := Ideal) (addf (F := Ideal) xv (broadcast S1x256 (Scalar.ofBits (F := Ideal) .f32 0x3727C5AC#32)))) broadcasts_S1x256_S5000x256 (ix2 p q))
      * broadcastTo S5000x256 xg broadcasts_S1x256_S5000x256 (ix2 p q)
      + broadcastTo S5000x256 xb broadcasts_S1x256_S5000x256 (ix2 p q)) (Ideal.ofBits .f32 0x00000000#32) = _
  rw [broadcastTo_1b_ab_apply, broadcastTo_1b_ab_apply, broadcastTo_1b_ab_apply, broadcastTo_1b_ab_apply]
  rfl

variable (V : (c : Dev nD) → (b : Ref sig .tc) → Buf (Elt Ideal) ((c : Thread nD τ).loc b)) in
section

/-- THE TILE AGAINST THE WHOLE ARRAY: when the tile's entry `j` is the array's entry `i` (same feature) and the four
    rows are the arrays' rows, the body's stored value at `j` is the whole-array stage at `i`. -/
theorem tile3_eq (H : S50000x256.Idx → EReal) (MU VAR G BE : S1x256.Idx → EReal)
    (x0 : Vec Ideal S5000x256 .f32) (xv xm xg xb : Vec Ideal S1x256 .f32) (j : S5000x256.Idx) (i : S50000x256.Idx)
    (h0 : x0 j = H i) (h1 : (i 1).val = (j 1).val) (hm : xm = MU) (hv : xv = VAR) (hg : xg = G) (hb : xb = BE) :
    k3_pay1 (F := Ideal) x0 xv xm xg xb j = Cert.Spec.bnRelu H MU VAR G BE i := by
  subst hm hv hg hb
  obtain ⟨p, q, rfl⟩ : ∃ (p : Fin 5000) (q : Fin 256), j = ix2 p q := ⟨j 0, j 1, eq_ix2 j⟩
  obtain ⟨a, b, rfl⟩ : ∃ (a : Fin 50000) (b : Fin 256), i = ix2 a b := ⟨i 0, i 1, eq_ix2 i⟩
  obtain rfl : b = q := Fin.ext h1
  rw [tile3_apply, Cert.Spec.bnRelu_apply, h0]

/-- The printed index maps over the ten grid points: the feature tile and the output tile sit at block row `t`,
    the four parameter rows at block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)
end

variable (V : (c : Dev nD) → (b : Ref sig .tc) → Buf (Elt Ideal) ((c : Thread nD τ).loc b)) in
section

/-- A parameter row's window holds the whole [1,256] array at every point (its block index is (0, 0)). -/
theorem row3_1 (c : Dev nD) (t : Fin cfg3.N) :
    (iblk3 V c 1 t : Vec Ideal S1x256 .f32) = (V c (Pipeline.arrRef spec3 1) : S1x256.Idx → EReal) := by
  obtain ⟨-, -, e0, e1, -⟩ := idx_facts3 t
  funext y
  unfold iblk3
  rw [View.read_apply]
  refine congrArg (V c (Pipeline.arrRef spec3 1)) (funext fun a => Fin.ext ?_)
  match a with
  | ⟨0, _⟩ => show win3_1.index t (0 : Fin 2) * 1 + 1 * (y 0).val = (y 0).val; rw [e0]; omega
  | ⟨1, _⟩ => show win3_1.index t (1 : Fin 2) * 256 + 1 * (y 1).val = (y 1).val; rw [e1]; omega

theorem row3_2 (c : Dev nD) (t : Fin cfg3.N) :
    (iblk3 V c 2 t : Vec Ideal S1x256 .f32) = (V c (Pipeline.arrRef spec3 2) : S1x256.Idx → EReal) := by
  obtain ⟨-, -, -, -, e0, e1, -⟩ := idx_facts3 t
  funext y
  unfold iblk3
  rw [View.read_apply]
  refine congrArg (V c (Pipeline.arrRef spec3 2)) (funext fun a => Fin.ext ?_)
  match a with
  | ⟨0, _⟩ => show win3_2.index t (0 : Fin 2) * 1 + 1 * (y 0).val = (y 0).val; rw [e0]; omega
  | ⟨1, _⟩ => show win3_2.index t (1 : Fin 2) * 256 + 1 * (y 1).val = (y 1).val; rw [e1]; omega

theorem row3_3 (c : Dev nD) (t : Fin cfg3.N) :
    (iblk3 V c 3 t : Vec Ideal S1x256 .f32) = (V c (Pipeline.arrRef spec3 3) : S1x256.Idx → EReal) := by
  obtain ⟨-, -, -, -, -, -, e0, e1, -⟩ := idx_facts3 t
  funext y
  unfold iblk3
  rw [View.read_apply]
  refine congrArg (V c (Pipeline.arrRef spec3 3)) (funext fun a => Fin.ext ?_)
  match a with
  | ⟨0, _⟩ => show win3_3.index t (0 : Fin 2) * 1 + 1 * (y 0).val = (y 0).val; rw [e0]; omega
  | ⟨1, _⟩ => show win3_3.index t (1 : Fin 2) * 256 + 1 * (y 1).val = (y 1).val; rw [e1]; omega

theorem row3_4 (c : Dev nD) (t : Fin cfg3.N) :
    (iblk3 V c 4 t : Vec Ideal S1x256 .f32) = (V c (Pipeline.arrRef spec3 4) : S1x256.Idx → EReal) := by
  obtain ⟨-, -, -, -, -, -, -, -, e0, e1, -⟩ := idx_facts3 t
  funext y
  unfold iblk3
  rw [View.read_apply]
  refine congrArg (V c (Pipeline.arrRef spec3 4)) (funext fun a => Fin.ext ?_)
  match a with
  | ⟨0, _⟩ => show win3_4.index t (0 : Fin 2) * 1 + 1 * (y 0).val = (y 0).val; rw [e0]; omega
  | ⟨1, _⟩ => show win3_4.index t (1 : Fin 2) * 256 + 1 * (y 1).val = (y 1).val; rw [e1]; omega

/-- The feature window's tile at point `t` holds the array's entries that the output window's tile at `t` names
    (both sit at block row `t`). -/
theorem tile3_in (c : Dev nD) (t : Fin cfg3.N) (j : S5000x256.Idx) :
    (iblk3 V c 0 t : Vec Ideal S5000x256 .f32) j
      = (V c (Pipeline.arrRef spec3 0) : S50000x256.Idx → EReal) (((cfg3.win 5).blk t).view.emb j) := by
  obtain ⟨e0, e1, -, -, -, -, -, -, -, -, e10, e11⟩ := idx_facts3 t
  unfold iblk3
  rw [View.read_apply]
  refine congrArg (V c (Pipeline.arrRef spec3 0)) (funext fun a => Fin.ext ?_)
  match a with
  | ⟨0, _⟩ => show win3_0.index t (0 : Fin 2) * 5000 + 1 * (j 0).val = win3_5.index t (0 : Fin 2) * 5000 + 1 * (j 0).val; rw [e0, e10]
  | ⟨1, _⟩ => show win3_0.index t (1 : Fin 2) * 256 + 1 * (j 1).val = win3_5.index t (1 : Fin 2) * 256 + 1 * (j 1).val; rw [e1, e11]

/-- WHAT POINT `t` WRITES BACK is tile `t` of the whole-array stage of the region's input arrays. -/
theorem flushed3_eq (c : Dev nD) (t : Fin cfg3.N) :
    (dat3 (F := Ideal) V c).flushed 5 t = ((cfg3.win 5).blk t).view.read (Elt Ideal)
      (Cert.Spec.bnRelu (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  unfold out3_5
  rw [View.canon_unit_zero zeroOffsets]
  simp only [View.ld_unit_zero (S := S5000x256) zeroOffsets, View.ld_unit_zero (S := S1x256) zeroOffsets]
  obtain ⟨-, -, -, -, -, -, -, -, -, -, -, e11⟩ := idx_facts3 t
  funext j
  refine tile3_eq (V c (Pipeline.arrRef spec3 0)) (V c (Pipeline.arrRef spec3 1)) (V c (Pipeline.arrRef spec3 2))
    (V c (Pipeline.arrRef spec3 3)) (V c (Pipeline.arrRef spec3 4))
    (iblk3 V c 0 t) (iblk3 V c 2 t) (iblk3 V c 1 t) (iblk3 V c 3 t) (iblk3 V c 4 t) j (((cfg3.win 5).blk t).view.emb j)
    (tile3_in V c t j) ?_ (row3_1 V c t) (row3_2 V c t) (row3_3 V c t) (row3_4 V c t)
  show win3_5.index t (1 : Fin 2) * 256 + 1 * (j 1).val = (j 1).val
  rw [e11]; omega

/-- An index of the output array is in point `t`'s tile iff each coordinate is in the tile's range on its axis. -/
theorem mem_tile3 (t : Fin cfg3.N) (i : S50000x256.Idx) :
    i ∈ ((cfg3.win 5).blk t).view.set ↔ ∀ a : Fin 2, win3_5.index t a * S5000x256.size a ≤ (i a).val ∧ (i a).val < win3_5.index t a * S5000x256.size a + S5000x256.size a := by
  show i ∈ ((View.whole main_v81).slice (win3_5.rect t)).set ↔ _
  rw [View.set_slice_whole, Rect.mem_set_unit]
  exact Iff.rfl

/-- THE TEN TILES COVER THE ARRAY: row `r` lies in the tile of point `r / 5000`. -/
theorem cover3 (i : S50000x256.Idx) :
    ∃ t : Fin cfg3.N, (cfg3.win 5).flush t = true ∧ i ∈ ((cfg3.win 5).blk t).view.set := by
  have hi0 : (i 0).val < 50000 := (i 0).isLt
  have hi1 : (i 1).val < 256 := (i 1).isLt
  have hN : grid3.N = 10 := N_3
  obtain ⟨t, ht⟩ : ∃ t : Fin cfg3.N, t.val = (i 0).val / 5000 := ⟨⟨(i 0).val / 5000, by show (i 0).val / 5000 < grid3.N; omega⟩, rfl⟩
  obtain ⟨-, -, -, -, -, -, -, -, -, -, e10, e11⟩ := idx_facts3 t
  refine ⟨t, flush3_5 t, ?_⟩
  rw [mem_tile3]
  intro a
  match a with
  | ⟨0, _⟩ => show win3_5.index t (0 : Fin 2) * 5000 ≤ (i 0).val ∧ (i 0).val < win3_5.index t (0 : Fin 2) * 5000 + 5000; rw [e10, ht]; omega
  | ⟨1, _⟩ => show win3_5.index t (1 : Fin 2) * 256 ≤ (i 1).val ∧ (i 1).val < win3_5.index t (1 : Fin 2) * 256 + 256; rw [e11]; omega

/-- REGION 3'S OUTPUT ARRAY after the region is the whole-array stage of its five input arrays as the region finds
    them: every point writes its tile of that function, and the tiles cover the array. -/
theorem bn3 (c : Dev nD) :
    ((dat3 (F := Ideal) V c).arrAt 5 cfg3.N : S50000x256.Idx → EReal)
      = Cert.Spec.bnRelu (V c (Pipeline.arrRef spec3 0)) (V c (Pipeline.arrRef spec3 1)) (V c (Pipeline.arrRef spec3 2))
          (V c (Pipeline.arrRef spec3 3)) (V c (Pipeline.arrRef spec3 4)) :=
  (dat3 (F := Ideal) V c).arrAt_eq_of_cover 5 _ (fun t _ => flushed3_eq V c t) cover3
end

end Cert.KernelIdeal.Regions

end
-- ==== Proof.LibLayerHost.lean ====
/-
  The host's spelling of a layer's small operands, read at an index.

  A per-node count `[a]` reaches the `[a, b]` array it divides through two broadcasts: to a column `[a, 1]`, then across
  the columns; entry `(p, k)` of the result is the count of node `p`.  A bias `[b]` reaches the `[a, b]` array it is added to
  through a row `[1, b]`, then down the rows; entry `(p, q)` of the result is the bias at `q`.
  Also the layer with its mean written as a quotient, as an array.
-/
import proofs.«143667_j15642270892451_1_alg».proof.Proof.LibLayerLaws
import Idealize.ShloMosaic.Lib.Pipeline.Value

noncomputable section

open scoped BigOperators

namespace Cert.LayerLaws

open Idealize.ShloMosaic Idealize.ShloMosaic.ValueIdx

variable {α : Type} {a b : ℕ}

/-- A vector `[a]` broadcast to a column `[a, 1]` reads, at `(p, u)`, entry `p`. -/
theorem bcast_col_apply (c : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h c (ix2 p u) = c (ix1 p) := by
  refine broadcastInDim_apply ![0] h c (ix2 p u) (ix1 p) fun ax => ?_
  match ax with
  | ⟨0, _⟩ =>
    show p.val = if a = 1 then 0 else p.val
    split
    · have := p.isLt; omega
    · rfl

/-- A column `[a, 1]` broadcast across `[a, b]` reads, at `(p, k)`, the column's entry of row `p`. -/
theorem bcast_cols_apply (v : (⟨2, ![a, 1]⟩ : Shape).Idx → α)
    (h : (⟨2, ![a, 1]⟩ : Shape).BroadcastsInDim ⟨2, ![a, b]⟩ (![0, 1] : Fin 2 → Fin 2)) (p : Fin a) (k : Fin b) :
    broadcastInDim ⟨2, ![a, b]⟩ ![0, 1] h v (ix2 p k) = v (ix2 p (0 : Fin 1)) := by
  refine broadcastInDim_apply ![0, 1] h v (ix2 p k) (ix2 p (0 : Fin 1)) fun ax => ?_
  match ax with
  | ⟨0, _⟩ =>
    show p.val = if a = 1 then 0 else p.val
    split
    · have := p.isLt; omega
    · rfl
  | ⟨1, _⟩ => rfl

/-- A vector `[b]` broadcast to a row `[1, b]` reads, at `(u, q)`, entry `q`. -/
theorem bcast_row_apply (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ ![1] h v (ix2 u q) = v (ix1 q) := by
  refine broadcastInDim_apply ![1] h v (ix2 u q) (ix1 q) fun ax => ?_
  match ax with
  | ⟨0, _⟩ =>
    show q.val = if b = 1 then 0 else q.val
    split
    · have := q.isLt; omega
    · rfl

/-- A row `[1, b]` broadcast down `[a, b]` reads, at `(p, q)`, the row's entry of column `q`. -/
theorem bcast_rows_apply (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

variable {n : ℕ}

/-- The layer with its mean written as a quotient, as an array. -/
def layerDiv (x s : Mat n 64) (c : (⟨1, ![n]⟩ : Shape).Idx → EReal) (Wl : Mat 64 64) (b : (⟨1, ![64]⟩ : Shape).Idx → EReal)
    (Wr : Mat 64 64) : Mat n 64 :=
  fun i => elu1 (preDiv x s c Wl b Wr ⟨(i 0).val, idx2_lt0 i⟩ ⟨(i 1).val, idx2_lt1 i⟩)

theorem layerDiv_apply (x s : Mat n 64) (c : (⟨1, ![n]⟩ : Shape).Idx → EReal) (Wl : Mat 64 64) (b : (⟨1, ![64]⟩ : Shape).Idx → EReal)
    (Wr : Mat 64 64) (p : Fin n) (q : Fin 64) : layerDiv x s c Wl b Wr (ix2 p q) = elu1 (preDiv x s c Wl b Wr p q) := rfl

/-- The product spelling of the layer is the quotient spelling when, row by row, the scale is the reciprocal of a count
    that is not zero and the bias row is the bias vector. -/
theorem layerMul_eq_layerDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64)
    (hinv : ∀ p : Fin n, inv (ix2 p (0 : Fin 1)) = Ideal.div (Ideal.ofBits .f32 0x3F800000#32) (c (ix1 p)))
    (hc : ∀ p : Fin n, c (ix1 p) ≠ 0) (hb : ∀ q : Fin 64, b2 (ix2 (0 : Fin 1) q) = b (ix1 q)) :
    layerMul x s inv Wl b2 Wr = layerDiv x s c Wl b Wr := by
  funext i
  obtain ⟨p, q, rfl⟩ : ∃ (p : Fin n) (q : Fin 64), i = ix2 p q := ⟨i 0, i 1, eq_ix2 i⟩
  rw [layerMul_apply, layerDiv_apply, preMul_eq_preDiv x s inv c Wl b2 b Wr p q (hinv p) (hc p) (hb q)]

end Cert.LayerLaws

end
-- ==== Proof.NormRef.lean ====
/- The reference's spelling of the batch-normalisation + ReLU stage, read as a whole array: the mean, the reciprocal
   square root of the variance plus the small constant, the gain and the bias are each a vector of 256 numbers
   broadcast to one row and then down the 50000 rows; the array is centred, scaled, multiplied, shifted, and clamped
   below at a broadcast zero. Index by index this is the extended-real expression of `Cert.Spec.bnRelu`. -/
import proofs.«143667_j15642270892451_1_alg».proof.Proof.RefOps
import proofs.«143667_j15642270892451_1_alg».proof.Proof.NormSpec
import proofs.«143667_j15642270892451_1_alg».proof.Proof.LibLayerHost
import Idealize.ShloMosaic.Lib.StableHlo.Run
import Idealize.ShloMosaic.Lib.Pipeline.Value
import Idealize.ShloMosaic.Lib.ValueIdx
import Idealize.ShloMosaic.Lib.ValueLayout

noncomputable section

namespace Cert.ReferenceIdeal.Regions

open Cert.ReferenceIdeal Cert.ReferenceIdeal.Facts₀ Cert.ReferenceIdeal.Facts Idealize.ShloMosaic Idealize.ShloMosaic.TcCoe Idealize.SL.Sem
open Idealize.ShloMosaic.ValueIdx

/-- A vector of 256 per-feature numbers laid out as one row: entry `(0, q)` is entry `q`. -/
abbrev row (x : S256.Idx → EReal) : S1x256.Idx → EReal := shapeCast S1x256 x (by decide)

/-- The row read at a feature. -/
theorem row_apply (x : S256.Idx → EReal) (u : Fin 1) (q : Fin 256) : row x (ix2 u q) = x (ix1 q) :=
  shapeCast_a_1a_apply x _ u q

/-- A vector broadcast to one row and then down the 50000 rows reads, at `(p, q)`, its entry `q`. -/
theorem rows_apply (v : S256.Idx → EReal) (p : Fin 50000) (q : Fin 256) :
    broadcastInDim S50000x256 ![0, 1] bcast_S1x256_S50000x256_0_1 (broadcastInDim S1x256 ![1] bcast_S256_S1x256_1 v) (ix2 p q)
      = v (ix1 q) :=
  (Cert.LayerLaws.bcast_rows_apply _ bcast_S1x256_S50000x256_0_1 p q).trans
    (Cert.LayerLaws.bcast_row_apply v bcast_S256_S1x256_1 (0 : Fin 1) q)

/-- A constant of rank 0 broadcast to any shape reads, everywhere, the extended real its word encodes. -/
theorem splat_apply {t : Shape} (w : BitVec 32) (h : S_.BroadcastsInDim t (![] : Fin 0 → Fin t.rank)) (j : t.Idx) :
    broadcastInDim t ![] h (constant (F := Ideal) S_ .f32 w) j = Ideal.ofBits .f32 w :=
  broadcastInDim_apply ![] h _ j ix0 fun a => a.elim0

/-- THE HOST'S STAGE IS THE WHOLE-ARRAY STAGE: the reference's sixteen operations on the feature array and the four
    vectors give, index by index, the stage's entry formula with each vector read as its one row. -/
theorem hostStage_eq (h : S50000x256.Idx → EReal) (mu var g be : S256.Idx → EReal) :
    maximumf (F := Ideal) (φ := .f32)
      (addf (F := Ideal) (φ := .f32)
        (mulf (F := Ideal) (φ := .f32)
          (mulf (F := Ideal) (φ := .f32)
            (subf (F := Ideal) (φ := .f32) h
              (broadcastInDim S50000x256 ![0, 1] bcast_S1x256_S50000x256_0_1 (broadcastInDim S1x256 ![1] bcast_S256_S1x256_1 mu)))
            (broadcastInDim S50000x256 ![0, 1] bcast_S1x256_S50000x256_0_1 (broadcastInDim S1x256 ![1] bcast_S256_S1x256_1
              (Host.rsqrt (F := Ideal) (φ := .f32) (addf (F := Ideal) (φ := .f32) var
                (broadcastInDim S256 ![] bcast_S_S256 (constant (F := Ideal) S_ .f32 0x3727C5AC#32)))))))
          (broadcastInDim S50000x256 ![0, 1] bcast_S1x256_S50000x256_0_1 (broadcastInDim S1x256 ![1] bcast_S256_S1x256_1 g)))
        (broadcastInDim S50000x256 ![0, 1] bcast_S1x256_S50000x256_0_1 (broadcastInDim S1x256 ![1] bcast_S256_S1x256_1 be)))
      (broadcastInDim S50000x256 ![] bcast_S_S50000x256 (constant (F := Ideal) S_ .f32 0x00000000#32))
    = Cert.Spec.bnRelu h (row mu) (row var) (row g) (row be) := by
  funext i
  obtain ⟨p, q, rfl⟩ : ∃ (p : Fin 50000) (q : Fin 256), i = ix2 p q := ⟨i 0, i 1, eq_ix2 i⟩
  rw [Cert.Spec.bnRelu_apply, row_apply, row_apply, row_apply, row_apply]
  unfold Cert.Spec.bnReluAt
  simp only [maximumf_apply, addf_apply, mulf_apply, subf_apply]
  rw [rows_apply mu p q, rows_apply g p q, rows_apply be p q, rows_apply _ p q, splat_apply]
  show max ((h (ix2 p q) - mu (ix1 q))
      * Ideal.rsqrt (var (ix1 q) + broadcastInDim S256 ![] bcast_S_S256 (constant (F := Ideal) S_ .f32 0x3727C5AC#32) (ix1 q))
      * g (ix1 q) + be (ix1 q)) (Ideal.ofBits .f32 0x00000000#32) = _
  rw [splat_apply]

set_option maxHeartbeats 2000000 in
/-- The reference's stage `bn1`: its result array is the whole-array stage of the feature array it reads and of the
    mean, variance, gain and bias vectors, each as its one row. -/
theorem bn1 (W : Valuation τ sig (Elt Ideal)) :
    (StableHlo.after (RefOps.bn1 (F := Ideal)) W (Proc.devRef .tc main_v66) : S50000x256.Idx → EReal)
      = Cert.Spec.bnRelu (W (Proc.devRef .tc main_v46)) (row (W (Proc.devRef .tc main_v49))) (row (W (Proc.devRef .tc main_v50)))
          (row (W (Proc.devRef .tc main_arg4))) (row (W (Proc.devRef .tc main_arg5))) := by
  unfold RefOps.bn1
  after_results_simp
  simp only [StableHlo.TRef.toBuf, StableHlo.TRef.ofBuf, cast_eq]
  exact hostStage_eq _ _ _ _ _

set_option maxHeartbeats 2000000 in
/-- The reference's stage `bn2`: its result array is the whole-array stage of the feature array it reads and of the
    mean, variance, gain and bias vectors, each as its one row. -/
theorem bn2 (W : Valuation τ sig (Elt Ideal)) :
    (StableHlo.after (RefOps.bn2 (F := Ideal)) W (Proc.devRef .tc main_v103) : S50000x256.Idx → EReal)
      = Cert.Spec.bnRelu (W (Proc.devRef .tc main_v83)) (row (W (Proc.devRef .tc main_v86))) (row (W (Proc.devRef .tc main_v87)))
          (row (W (Proc.devRef .tc main_arg8))) (row (W (Proc.devRef .tc main_arg9))) := by
  unfold RefOps.bn2
  after_results_simp
  simp only [StableHlo.TRef.toBuf, StableHlo.TRef.ofBuf, cast_eq]
  exact hostStage_eq _ _ _ _ _

end Cert.ReferenceIdeal.Regions

end
-- ==== Proof.FinalSpec.lean ====
/-
  The last stage of the network as one whole-array function on the extended reals: a linear map with a bias row,
  then the logarithm of the softmax of each row.

  For a row r of 40 features, weights w : [40, 40] and a bias row b : [1, 40]:
      z(q)   = (∑ₖ r(k) · w(k, q)) + b(0, q)                    (the row's logits)
      M      = max over q of z(q), taken from −∞                  (the row's maximum)
      out(q) = (z(q) − M) − log ( ∑ⱼ exp (z(j) − M) ).
  The result at (p, q) depends on row p of the features only, so a block of rows of the result is the same
  function of that block of rows of the features (logSoftmaxRows_congr).
-/
import Idealize.ShloMosaic.Lib.ValueIdx
import Idealize.ShloMosaic.PureOps.Ideal.Laws

noncomputable section

open scoped BigOperators

namespace Cert.Spec

open Idealize.ShloMosaic Idealize.ShloMosaic.ValueIdx

/-- Arrays of extended reals of shape [n, k]. -/
abbrev Mat (n k : ℕ) := (⟨2, ![n, k]⟩ : Shape).Idx → EReal

/-- The logits of one row of features: the row times the weights, plus the bias row. -/
def rowLogits (r : Fin 40 → EReal) (w : Mat 40 40) (b : Mat 1 40) (q : Fin 40) : EReal :=
  (∑ k : Fin 40, r k * w (ix2 k q)) + b (ix2 (0 : Fin 1) q)

/-- The maximum of a row, taken from −∞. -/
def rowMax (z : Fin 40 → EReal) : EReal := (Finset.univ : Finset (Fin 40)).fold max ⊥ z

/-- The logarithm of the softmax of a row, in its shifted form. -/
def rowLogSoftmax (z : Fin 40 → EReal) (q : Fin 40) : EReal :=
  (z q - rowMax z) - Ideal.log (∑ j : Fin 40, Ideal.exp (z j - rowMax z))

/-- Linear map, bias, and the log-softmax of each row, for any number of rows. -/
def logSoftmaxRows {n : ℕ} (h : Mat n 40) (w : Mat 40 40) (b : Mat 1 40) : Mat n 40 :=
  fun i => rowLogSoftmax (rowLogits (fun k => h (ix2 (⟨(i 0).val, idx2_lt0 i⟩ : Fin n) k)) w b) ⟨(i 1).val, idx2_lt1 i⟩

theorem logSoftmaxRows_apply {n : ℕ} (h : Mat n 40) (w : Mat 40 40) (b : Mat 1 40) (p : Fin n) (q : Fin 40) :
    logSoftmaxRows h w b (ix2 p q) = rowLogSoftmax (rowLogits (fun k => h (ix2 p k)) w b) q := rfl

/-- The result at a row depends on that row of the features only: two feature arrays, of any heights, that agree on
    a row give the same result there. -/
theorem logSoftmaxRows_congr {n n' : ℕ} (h : Mat n 40) (h' : Mat n' 40) (w : Mat 40 40) (b : Mat 1 40)
    (p : Fin n) (p' : Fin n') (q : Fin 40) (hrow : ∀ k : Fin 40, h (ix2 p k) = h' (ix2 p' k)) :
    logSoftmaxRows h w b (ix2 p q) = logSoftmaxRows h' w b (ix2 p' q) := by
  rw [logSoftmaxRows_apply, logSoftmaxRows_apply, show (fun k => h (ix2 p k)) = fun k => h' (ix2 p' k) from funext hrow]

/-- The network's last stage on its 50000 nodes. -/
def logSoftmaxLinear (h : Mat 50000 40) (w : Mat 40 40) (b : Mat 1 40) : Mat 50000 40 := logSoftmaxRows h w b

end Cert.Spec

end
-- ==== Proof.LibRowLayout.lean ====
/-
  Rows of a matrix read by coordinates: what the layout and reduction operations of a row-wise computation give at
  an index written `ix1 p` / `ix2 p j`.

  • a vector `[a]` cast to a column `[a, 1]` reads, at `(p, u)`, entry `p`;
  • a column `[a, 1]` broadcast to `[a, b]` reads, at `(p, j)`, the column's entry `(p, 0)`;
  • the index obtained from the reduced index `p` by putting coordinate `k` back on axis 1 is `(p, k)`;
  • hence a reduction of an `[a, b]` array over axis 1, read at `p`, runs over the row `j ↦ (p, j)`: a sum for an
    `add` reduction (the kernel's and the host's), a fold of `max` for a `maximumf` one (the kernel's and the host's).
-/
import Idealize.ShloMosaic.Lib.ValueLayout
import Idealize.ShloMosaic.Lib.ValueIdx
import Idealize.ShloMosaic.PureOps.Ideal.Laws
import Idealize.ShloMosaic.PureOps.Reduce

noncomputable section

open scoped BigOperators

namespace Cert.RowLayout

open Idealize.ShloMosaic Idealize.ShloMosaic.ValueIdx

variable {α : Type}

/-! ## The column forms of a cast and a broadcast -/

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, j)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (j : Fin b) :
    broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

/-! ## A reduction over axis 1 runs over the row -/

/-- The reduced index `p` with column `k` put back on axis 1 is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The kernel's `add` reduction of an `[a, b]` array over axis 1, read at row `p`: the sum over the row. -/
theorem multiReduction_add_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] (⟨1, ![a]⟩ : Shape) src acc h hφ hacc (ix1 p) = ∑ j : Fin b, src (ix2 p j) := by
  refine (Ideal.multiReduction_add_single src acc h hφ hacc (ix1 p)).trans ?_
  exact Finset.sum_congr rfl fun k _ => congrArg src (lift_row h p k)

/-- The kernel's `maximumf` reduction of an `[a, b]` array over axis 1, read at row `p`: the fold of `max` from the
    accumulator's value over the row. -/
theorem multiReduction_maximumf_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) fun j => src (ix2 p j) := by
  refine (Ideal.multiReduction_maximumf_single src acc h hφ hacc (ix1 p)).trans ?_
  have hf : (src ∘ h.lift (ix1 p)) = fun k : Fin b => src (ix2 p k) :=
    funext fun k => congrArg src (lift_row h p k)
  exact congrArg (fun f => Finset.fold max (Ideal.ofBits .f32 acc) f (Finset.univ : Finset (Fin b))) hf

/-- The host's reduce with a maximum body of an `[a, b]` array over axis 1, read at row `p`: the fold of `max` from the
    initial value's element over the row. -/
theorem hostReduce_maximumf_row {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) fun j => x (ix2 p j) := by
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Cert.RowLayout

end
-- ==== Proof.FinalKernel.lean ====
/-
  Region 5 of the kernel program, read as one whole-array function on the extended reals.

  The body of the region maps a block of 5000 rows of the features, the weights and the bias row to the same block of
  rows of  logits − row maximum − log of the row's sum of exponentials  (Cert.Spec.logSoftmaxRows).  The ten points of
  the grid write back the ten consecutive blocks of 5000 rows, which tile the 50000 rows; the result at a row depends
  on that row of the features only, so the whole array ends at Cert.Spec.logSoftmaxLinear of the three input arrays.
-/
import proofs.«143667_j15642270892451_1_alg».proof.Proof.Gen.KernelIdeal.Frame
import proofs.«143667_j15642270892451_1_alg».proof.Proof.FinalSpec
import proofs.«143667_j15642270892451_1_alg».proof.Proof.LibRowLayout
import proofs.«143667_j15642270892451_1_alg».proof.Proof.LibLayerLaws
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen
open Cert.Spec (rowLogits rowMax rowLogSoftmax logSoftmaxRows logSoftmaxLinear)

/-! ## The body's payload at an index -/

/-- The bit pattern of −∞ denotes the least extended real. -/
theorem negInf_f32 : Ideal.ofBits .f32 0xFF800000#32 = ⊥ := by simp [Ideal.ofBits, Ideal.ieee]

/-- The logits of a block: the block times the weights (both through a format change that is the identity on the
    extended reals, into a zero accumulator) plus the bias row broadcast over the rows, at (p, q). -/
theorem logits5_apply (x0 : FVec Ideal S5000x40 .f32) (x1 : FVec Ideal S40x40 .f32) (x2 : FVec Ideal S1x40 .f32)
    (p : Fin 5000) (q : Fin 40) :
    addf (matmul dot_S5000x40_S40x40_S5000x40_1_0_0_1_n_n none
            (truncf .bf16 (shapeCast S5000x40 x0 shapeCasts_S5000x40_S5000x40) bitsLt_bf16_f32)
            (truncf .bf16 x1 bitsLt_bf16_f32) (constant (F := Ideal) S5000x40 .f32 0x00000000#32))
         (broadcastTo S5000x40 (shapeCast S1x40 x2 shapeCasts_S1x40_S1x40) broadcasts_S1x40_S5000x40) (ix2 p q)
      = rowLogits (fun k => x0 (ix2 p k)) x1 x2 q := by
  rw [addf_apply, shapeCast_self, shapeCast_self]
  unfold rowLogits
  refine congrArg₂ (· + ·) ?_ (broadcastTo_1b_ab_apply x2 broadcasts_S1x40_S5000x40 p q)
  refine (Ideal.matmul_constant_zero_apply _ none _ _ (ix2 p q)).trans ?_
  exact Cert.LayerLaws.sum_inner dot_S5000x40_S40x40_S5000x40_1_0_0_1_n_n rfl rfl (fun _ _ => rfl) (fun _ _ => rfl)
    (fun _ _ => rfl) (fun _ _ => rfl) _ _ p q

/-- The row maximum of a block of logits, taken from −∞ along the lanes, set in a column and broadcast back over the
    lanes: at (p, q) it is the maximum of row p. -/
theorem rowMax5_apply (z : FVec Ideal S5000x40 .f32) (p : Fin 5000) (q : Fin 40) :
    broadcastTo S5000x40 (shapeCast S5000x1 (multiReduction .maximumf [1] S5000 z 0xFF800000#32 reduces_S5000x40_S5000 (.inl rfl) rfl)
        shapeCasts_S5000_S5000x1) broadcasts_S5000x1_S5000x40 (ix2 p q)
      = rowMax (fun j => z (ix2 p j)) := by
  refine (Cert.RowLayout.broadcastTo_a1_ab_apply _ broadcasts_S5000x1_S5000x40 p q).trans ?_
  refine (Cert.RowLayout.shapeCast_a_a1_apply _ shapeCasts_S5000_S5000x1 p (0 : Fin 1)).trans ?_
  refine (Cert.RowLayout.multiReduction_maximumf_row z 0xFF800000#32 reduces_S5000x40_S5000 (.inl rfl) rfl p).trans ?_
  rw [negInf_f32]
  rfl

/-- The logarithm of a row's sum of exponentials, the sum taken along the lanes, set in a column, the logarithm taken
    there and broadcast back over the lanes: at (p, q) it is the logarithm of the sum over row p. -/
theorem logSum5_apply (e : FVec Ideal S5000x40 .f32) (p : Fin 5000) (q : Fin 40) :
    broadcastTo S5000x40 (log (shapeCast S5000x1 (multiReduction .add [1] S5000 e 0x00000000#32 reduces_S5000x40_S5000 (.inl rfl) rfl)
        shapeCasts_S5000_S5000x1)) broadcasts_S5000x1_S5000x40 (ix2 p q)
      = Ideal.log (∑ j : Fin 40, e (ix2 p j)) := by
  refine (Cert.RowLayout.broadcastTo_a1_ab_apply _ broadcasts_S5000x1_S5000x40 p q).trans ?_
  show Ideal.log (shapeCast S5000x1 (multiReduction .add [1] S5000 e 0x00000000#32 reduces_S5000x40_S5000 (.inl rfl) rfl)
        shapeCasts_S5000_S5000x1 (ix2 p (0 : Fin 1))) = _
  refine congrArg Ideal.log ?_
  refine (Cert.RowLayout.shapeCast_a_a1_apply _ shapeCasts_S5000_S5000x1 p (0 : Fin 1)).trans ?_
  exact Cert.RowLayout.multiReduction_add_row e 0x00000000#32 reduces_S5000x40_S5000 (.inl rfl) rfl p

/-- From a block of logits z: subtract each row's maximum, then the logarithm of the row's sum of exponentials of the
    shifted logits. At (p, q) this is the log-softmax of row p at q. -/
theorem tail5_apply (z : FVec Ideal S5000x40 .f32) (p : Fin 5000) (q : Fin 40) :
    subf (subf z (broadcastTo S5000x40 (shapeCast S5000x1 (multiReduction .maximumf [1] S5000 z 0xFF800000#32 reduces_S5000x40_S5000 (.inl rfl) rfl)
            shapeCasts_S5000_S5000x1) broadcasts_S5000x1_S5000x40))
         (broadcastTo S5000x40 (log (shapeCast S5000x1 (multiReduction .add [1] S5000
            (exp (subf z (broadcastTo S5000x40 (shapeCast S5000x1 (multiReduction .maximumf [1] S5000 z 0xFF800000#32 reduces_S5000x40_S5000 (.inl rfl) rfl)
              shapeCasts_S5000_S5000x1) broadcasts_S5000x1_S5000x40)))
            0x00000000#32 reduces_S5000x40_S5000 (.inl rfl) rfl) shapeCasts_S5000_S5000x1)) broadcasts_S5000x1_S5000x40) (ix2 p q)
      = rowLogSoftmax (fun j => z (ix2 p j)) q := by
  rw [subf_apply, subf_apply, logSum5_apply, rowMax5_apply]
  unfold rowLogSoftmax
  refine congrArg (fun s => (z (ix2 p q) - rowMax (fun j => z (ix2 p j))) - Ideal.log s) ?_
  refine Finset.sum_congr rfl fun j _ => ?_
  show Ideal.exp (subf z _ (ix2 p j)) = _
  rw [subf_apply, rowMax5_apply]

/-- The body's payload at (p, q): the log-softmax of the linear map of the block's row p. -/
theorem pay5_apply (x0 : FVec Ideal S5000x40 .f32) (x1 : FVec Ideal S40x40 .f32) (x2 : FVec Ideal S1x40 .f32)
    (p : Fin 5000) (q : Fin 40) :
    k5_pay1 (F := Ideal) x0 x1 x2 (ix2 p q) = logSoftmaxRows (n := 5000) x0 x1 x2 (ix2 p q) := by
  rw [Cert.Spec.logSoftmaxRows_apply]
  unfold k5_pay1
  refine (tail5_apply _ p q).trans ?_
  exact congrArg (fun z => rowLogSoftmax z q) (funext fun j => logits5_apply x0 x1 x2 p j)

/-- The body's payload is the log-softmax of the linear map of its block of rows. -/
theorem pay5_eq (x0 : FVec Ideal S5000x40 .f32) (x1 : FVec Ideal S40x40 .f32) (x2 : FVec Ideal S1x40 .f32) :
    k5_pay1 (F := Ideal) x0 x1 x2 = logSoftmaxRows (n := 5000) x0 x1 x2 := by
  funext j
  obtain ⟨p, q, rfl⟩ : ∃ (p : Fin 5000) (q : Fin 40), j = ix2 p q := ⟨j 0, j 1, eq_ix2 j⟩
  exact pay5_apply x0 x1 x2 p q

/-! ## From the blocks to the array -/

/-- One block of rows of the result from the blocks the body reads: when the block of features holds, at its row, the
    array's row, and the weights and the bias row are the arrays', the payload at an index of the block is the whole-array
    function at the index of the array with the same column on that row. -/
theorem block5 (A0 : Cert.Spec.Mat 50000 40) (A1 : Cert.Spec.Mat 40 40) (A2 : Cert.Spec.Mat 1 40)
    (x0 : FVec Ideal S5000x40 .f32) (x1 : FVec Ideal S40x40 .f32) (x2 : FVec Ideal S1x40 .f32)
    (j : S5000x40.Idx) (i : S50000x40.Idx) (hq : (i 1).val = (j 1).val)
    (h0 : ∀ k : Fin 40, x0 (ix2 (⟨(j 0).val, idx2_lt0 j⟩ : Fin 5000) k) = A0 (ix2 (⟨(i 0).val, idx2_lt0 i⟩ : Fin 50000) k))
    (h1 : x1 = A1) (h2 : x2 = A2) :
    k5_pay1 (F := Ideal) x0 x1 x2 j = logSoftmaxLinear A0 A1 A2 i := by
  subst h1 h2
  rw [pay5_eq]
  obtain ⟨p, q, rfl⟩ : ∃ (p : Fin 5000) (q : Fin 40), j = ix2 p q := ⟨j 0, j 1, eq_ix2 j⟩
  obtain ⟨P, Q, rfl⟩ : ∃ (P : Fin 50000) (Q : Fin 40), i = ix2 P Q := ⟨i 0, i 1, eq_ix2 i⟩
  obtain rfl : Q = q := Fin.ext hq
  exact Cert.Spec.logSoftmaxRows_congr x0 A0 x1 x2 p P Q h0

section Blocks

variable (V : (c : Dev nD) → (b : Ref sig .tc) → Buf (Elt Ideal) ((c : Thread nD τ).loc b))

theorem zeroOff5 : (![0, 0] : Fin 2 → Nat) = fun _ => 0 := funext fun a => by fin_cases a <;> rfl

/-- The index maps of the four windows, decided over the ten points of the grid: the features and the result move
    down by one block of rows per point, the weights and the bias row stay. -/
theorem index5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The block of features at point t holds rows 5000 t … 5000 t + 4999 of the array. -/
theorem iblk5_0_apply (c : Dev nD) (t : Fin cfg5.N) (y : S5000x40.Idx) (i : S50000x40.Idx)
    (h0 : (i 0).val = t.val * 5000 + (y 0).val) (h1 : (i 1).val = (y 1).val) :
    (iblk5 V c 0 t : Vec Ideal S5000x40 .f32) y = (V c (Pipeline.arrRef spec5 0) : S50000x40.Idx → EReal) i := by
  obtain ⟨e0, e1, -⟩ := index5 t
  unfold iblk5
  rw [View.read_apply]
  show (V c (Pipeline.arrRef spec5 0) : S50000x40.Idx → EReal) _ = _
  refine congrArg _ ?_
  funext a
  apply Fin.ext
  match a with
  | ⟨0, _⟩ => show win5_0.index t (0 : Fin 2) * 5000 + 1 * (y 0).val = (i 0).val; rw [e0, h0]; omega
  | ⟨1, _⟩ => show win5_0.index t (1 : Fin 2) * 40 + 1 * (y 1).val = (i 1).val; rw [e1, h1]; omega

/-- The block of weights at every point is the whole array. -/
theorem iblk5_1_eq (c : Dev nD) (t : Fin cfg5.N) :
    (iblk5 V c 1 t : Vec Ideal S40x40 .f32) = (V c (Pipeline.arrRef spec5 1) : S40x40.Idx → EReal) := by
  obtain ⟨-, -, e2, e3, -⟩ := index5 t
  funext y
  unfold iblk5
  rw [View.read_apply]
  show (V c (Pipeline.arrRef spec5 1) : S40x40.Idx → EReal) _ = _
  refine congrArg _ ?_
  funext a
  apply Fin.ext
  match a with
  | ⟨0, _⟩ => show win5_1.index t (0 : Fin 2) * 40 + 1 * (y 0).val = (y 0).val; rw [e2]; omega
  | ⟨1, _⟩ => show win5_1.index t (1 : Fin 2) * 40 + 1 * (y 1).val = (y 1).val; rw [e3]; omega

/-- The block of the bias row at every point is the whole array. -/
theorem iblk5_2_eq (c : Dev nD) (t : Fin cfg5.N) :
    (iblk5 V c 2 t : Vec Ideal S1x40 .f32) = (V c (Pipeline.arrRef spec5 2) : S1x40.Idx → EReal) := by
  obtain ⟨-, -, -, -, e4, e5, -⟩ := index5 t
  funext y
  unfold iblk5
  rw [View.read_apply]
  show (V c (Pipeline.arrRef spec5 2) : S1x40.Idx → EReal) _ = _
  refine congrArg _ ?_
  funext a
  apply Fin.ext
  match a with
  | ⟨0, _⟩ => show win5_2.index t (0 : Fin 2) * 1 + 1 * (y 0).val = (y 0).val; rw [e4]; omega
  | ⟨1, _⟩ => show win5_2.index t (1 : Fin 2) * 40 + 1 * (y 1).val = (y 1).val; rw [e5]; omega

/-- What point t writes back is block t of the whole-array function of the three arrays as the region finds them. -/
theorem flushed5_eq (c : Dev nD) (t : Fin cfg5.N) :
    (dat5 V c).flushed 3 t = ((cfg5.win 3).blk t).view.read (Elt Ideal)
      (logSoftmaxLinear (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero zeroOff5]
  simp only [View.ld_unit_zero (S := S5000x40) zeroOff5, View.ld_unit_zero (S := S40x40) zeroOff5,
    View.ld_unit_zero (S := S1x40) zeroOff5]
  obtain ⟨-, -, -, -, -, -, e6, e7⟩ := index5 t
  funext j
  show k5_pay1 (F := Ideal) (iblk5 V c 0 t) (iblk5 V c 1 t) (iblk5 V c 2 t) j
    = logSoftmaxLinear (V c (Pipeline.arrRef spec5 0)) (V c (Pipeline.arrRef spec5 1)) (V c (Pipeline.arrRef spec5 2))
        (((cfg5.win 3).blk t).view.emb j)
  have hj0 : (j 0).val < 5000 := (j 0).isLt
  have hj1 : (j 1).val < 40 := (j 1).isLt
  have hr0 : ((((cfg5.win 3).blk t).view.emb j : S50000x40.Idx) 0).val = t.val * 5000 + (j 0).val := by
    show win5_3.index t (0 : Fin 2) * 5000 + 1 * (j 0).val = _; rw [e6]; omega
  have hr1 : ((((cfg5.win 3).blk t).view.emb j : S50000x40.Idx) 1).val = (j 1).val := by
    show win5_3.index t (1 : Fin 2) * 40 + 1 * (j 1).val = _; rw [e7]; omega
  refine block5 _ _ _ _ _ _ j _ hr1 (fun k => ?_) (iblk5_1_eq V c t) (iblk5_2_eq V c t)
  exact iblk5_0_apply V c t _ _ hr0 rfl

/-- An index of the array is in point t's block iff each coordinate is in the block's range on its axis. -/
theorem mem_blk5 (t : Fin cfg5.N) (i : S50000x40.Idx) :
    i ∈ ((cfg5.win 3).blk t).view.set ↔ ∀ a : Fin 2, win5_3.index t a * S5000x40.size a ≤ (i a).val
      ∧ (i a).val < win5_3.index t a * S5000x40.size a + S5000x40.size a := by
  show i ∈ ((View.whole main_v100).slice (win5_3.rect t)).set ↔ _
  rw [View.set_slice_whole, Rect.mem_set_unit]
  exact Iff.rfl

/-- Every index of the array is in the block of the point its row's block number names: the ten blocks of 5000 rows
    tile the 50000 rows. -/
theorem cover5 (i : S50000x40.Idx) :
    ∃ t : Fin cfg5.N, (cfg5.win 3).flush t = true ∧ i ∈ ((cfg5.win 3).blk t).view.set := by
  have hi0 : (i 0).val < 50000 := (i 0).isLt
  have hi1 : (i 1).val < 40 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, e6, e7⟩ := index5 t
  refine ⟨t, flush5_3 t, ?_⟩
  rw [mem_blk5]
  intro a
  match a with
  | ⟨0, _⟩ =>
    show win5_3.index t (0 : Fin 2) * 5000 ≤ (i 0).val ∧ (i 0).val < win5_3.index t (0 : Fin 2) * 5000 + 5000
    rw [e6, ht]; omega
  | ⟨1, _⟩ =>
    show win5_3.index t (1 : Fin 2) * 40 ≤ (i 1).val ∧ (i 1).val < win5_3.index t (1 : Fin 2) * 40 + 40
    rw [e7]; omega

/-- THE RESULT ARRAY after region 5: the log-softmax of the linear map of the features, the weights and the bias row
    as the region finds them. -/
theorem fin5 (c : Dev nD) :
    ((dat5 (F := Ideal) V c).arrAt 3 cfg5.N : S50000x40.Idx → EReal)
      = logSoftmaxLinear (V c (Pipeline.arrRef spec5 0)) (V c (Pipeline.arrRef spec5 1)) (V c (Pipeline.arrRef spec5 2)) :=
  (dat5 V c).arrAt_eq_of_cover 3 _ (fun t _ => flushed5_eq V c t) cover5

end Blocks

end Cert.KernelIdeal.Regions

end
-- ==== Proof.LibHostRows.lean ====
/-
  Two host operations read at an index, on the extended reals.

  • A rank-0 array broadcast to any shape reads, at every index, its one entry.
  • The host's float sum of an [a, b] array over axis 1, read at row p, is the initial value plus the sum over the row.
  • The entry-by-entry operations (maximum, difference, the host's exponential and logarithm) read at an index.
-/
import Idealize.ShloMosaic.Lib.Pipeline.Value
import Idealize.ShloMosaic.Lib.ValueIdx
import Idealize.ShloMosaic.PureOps.Ideal.Laws
import proofs.«143667_j15642270892451_1_alg».proof.Proof.LibRowLayout

noncomputable section

open scoped BigOperators

namespace Cert.HostRows

open Idealize.ShloMosaic Idealize.ShloMosaic.ValueIdx

/-- The one index of a rank-0 array. -/
def unit0 : (⟨0, ![]⟩ : Shape).Idx := fun a => a.elim0

/-- A rank-0 array broadcast to shape `t` reads its one entry at every index. -/
theorem bcast_scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x unit0 :=
  broadcastInDim_apply ![] h x j unit0 fun a => a.elim0

/-- The host's float sum of an [a, b] array over axis 1, at row p: the initial value plus the sum over the row. -/
theorem hostReduceAdd_row {a b : ℕ} (x : (⟨2, ![a, b]⟩ : Shape).Idx → EReal) (init : EReal)
    (h' : (⟨2, ![a, b]⟩ : Shape).ReducesTo [1] (⟨1, ![a]⟩ : Shape))
    (h : (⟨2, ![a, b]⟩ : Shape).Reduces [1] (⟨1, ![a]⟩ : Shape)) (p : Fin a) :
    Ideal.hostReduceAdd h' x init (ix1 p) = init + ∑ j : Fin b, x (ix2 p j) := by
  refine (Ideal.hostReduceAdd_single h' h x init (ix1 p)).trans ?_
  exact congrArg (init + ·) (Finset.sum_congr rfl fun k _ => congrArg x (Cert.RowLayout.lift_row h p k))

/-! ## Entry-by-entry operations at an index -/

variable {s : Shape}

theorem maximumf_at (a b : FVec Ideal s .f32) (i : s.Idx) : maximumf a b i = max (a i) (b i) := rfl
theorem subf_at (a b : FVec Ideal s .f32) (i : s.Idx) : subf a b i = a i - b i := rfl
theorem hostExp_at (a : FVec Ideal s .f32) (i : s.Idx) : Host.exp a i = Ideal.exp (a i) := rfl
theorem hostLog_at (a : FVec Ideal s .f32) (i : s.Idx) : Host.log a i = Ideal.log (a i) := rfl

end Cert.HostRows

end
-- ==== Proof.LibTypedRefCasts.lean ====
/-
  A typed buffer reference carries the tensor type of the value it holds; contents are moved to the buffer's own type
  and back along that equation.  Moving there and back changes nothing.
-/
import Idealize.ShloMosaic.Lib.StableHlo

noncomputable section

namespace Cert.ReferenceIdeal.Results

open Idealize.ShloMosaic Idealize.ShloMosaic.StableHlo

/-- Contents moved to a typed reference's buffer type and back are unchanged. -/
theorem ofBuf_toBuf {Val : EltTy → Type} {sg : RefSig} {T : BufTy} (x : TRef sg T) (v : T.Contents Val) :
    x.ofBuf (x.toBuf v) = v := by
  obtain ⟨r, rfl, _, _⟩ := x
  rfl

end Cert.ReferenceIdeal.Results

end
-- ==== Proof.FinalRef.lean ====
/-
  The reference program's last stage, read as one whole-array function on the extended reals.

  The stage is a matrix product of the features with the weights, plus the bias vector set as a row and broadcast over
  the rows, then the log-softmax function of the program: each row's maximum (from −∞, and once more against −∞)
  subtracted, then the logarithm of the row's sum (from 0) of exponentials subtracted.  On the extended reals the maximum
  with −∞ and the sum from 0 change nothing, so at every index the stage is Cert.Spec.logSoftmaxLinear of the features,
  the weights and the bias vector recast as a row.
-/
import proofs.«143667_j15642270892451_1_alg».proof.Proof.RefOps
import proofs.«143667_j15642270892451_1_alg».proof.Proof.FinalSpec
import proofs.«143667_j15642270892451_1_alg».proof.Proof.LibRowLayout
import proofs.«143667_j15642270892451_1_alg».proof.Proof.LibHostRows
import proofs.«143667_j15642270892451_1_alg».proof.Proof.LibLayerLaws
import proofs.«143667_j15642270892451_1_alg».proof.Proof.LibTypedRefCasts
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.ReferenceIdeal.Regions

open Idealize.ShloMosaic Idealize.ShloMosaic.TcCoe Idealize.ShloMosaic.ValueIdx Idealize.SL.Sem
open Cert.ReferenceIdeal Cert.ReferenceIdeal.Facts₀ Cert.ReferenceIdeal.Facts
open Cert.Spec (rowLogits rowMax rowLogSoftmax logSoftmaxRows logSoftmaxLinear)

/-! ## The host's broadcasts read at an index -/

section Broadcasts

variable {α : Type}

/-- A vector [b] set as a row [1, b] reads, at (u, q), entry q. -/
theorem bcast_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row [1, b] broadcast to [a, b] reads, at (p, q), the row's entry q. -/
theorem bcast_1b_ab_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- A vector [a] set as a column [a, 1] reads, at (p, u), entry p. -/
theorem bcast_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A column [a, 1] broadcast to [a, b] reads, at (p, q), the column's entry p. -/
theorem bcast_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

end Broadcasts

/-- The bit pattern of −∞ denotes the least extended real. -/
theorem negInf_f32 : Ideal.ofBits .f32 0xFF800000#32 = ⊥ := by simp [Ideal.ofBits, Ideal.ieee]

/-! ## The stage's two halves as functions of arrays -/

/-- The logits as the program spells them: the matrix product plus the bias vector set as a row and broadcast. -/
def refLogits (h : FVec Ideal S50000x40 .f32) (w : FVec Ideal S40x40 .f32) (b : FVec Ideal S40 .f32) :
    FVec Ideal S50000x40 .f32 :=
  addf (Host.dotGeneral dot_S50000x40_S40x40_S50000x40_1_0_0_1_n_n none h w)
    (broadcastInDim S50000x40 ![0, 1] bcast_S1x40_S50000x40_0_1 (broadcastInDim S1x40 ![1] bcast_S40_S1x40_1 b))

/-- The row maxima as the program spells them: the maximum, against −∞ broadcast, of the reduction from −∞. -/
def refMax (z : FVec Ideal S50000x40 .f32) : FVec Ideal S50000 .f32 :=
  maximumf (broadcastInDim S50000 ![] bcast_S_S50000 (constant (F := Ideal) S_ .f32 0xFF800000#32))
    (Host.reduce FloatOps.maximumf z (constant (F := Ideal) S_ .f32 0xFF800000#32) reducesTo_S50000x40_S50000_d1 h_S_)

/-- The shifted logits as the program spells them. -/
def refShift (z : FVec Ideal S50000x40 .f32) : FVec Ideal S50000x40 .f32 :=
  subf z (broadcastInDim S50000x40 ![0, 1] bcast_S50000x1_S50000x40_0_1
    (broadcastInDim S50000x1 ![0] bcast_S50000_S50000x1_0 (refMax z)))

/-- The log-softmax function as the program spells it. -/
def refLogSoftmax (z : FVec Ideal S50000x40 .f32) : FVec Ideal S50000x40 .f32 :=
  subf (refShift z) (broadcastInDim S50000x40 ![0, 1] bcast_S50000x1_S50000x40_0_1
    (Host.log (broadcastInDim S50000x1 ![0] bcast_S50000_S50000x1_0
      (Host.reduceAdd (Host.exp (refShift z)) (constant (F := Ideal) S_ .f32 0x00000000#32) reducesTo_S50000x40_S50000_d1 h_S_))))

/-! ## The two halves at an index -/

/-- The logits at (P, q): row P of the features times column q of the weights, plus entry q of the bias vector, which
    is entry (0, q) of the vector recast as a row. -/
theorem refLogits_apply (h : FVec Ideal S50000x40 .f32) (w : FVec Ideal S40x40 .f32) (b : FVec Ideal S40 .f32)
    (hrow : S40.ShapeCasts S1x40) (P : Fin 50000) (q : Fin 40) :
    refLogits h w b (ix2 P q) = rowLogits (fun k => h (ix2 P k)) w (shapeCast S1x40 b hrow) q := by
  unfold refLogits rowLogits
  rw [addf_apply]
  refine congrArg₂ (· + ·) ?_ ?_
  · refine (Ideal.dotGeneral_apply _ none .single h w (ix2 P q)).trans ?_
    exact Cert.LayerLaws.sum_inner dot_S50000x40_S40x40_S50000x40_1_0_0_1_n_n rfl rfl (fun _ _ => rfl) (fun _ _ => rfl)
      (fun _ _ => rfl) (fun _ _ => rfl) h w P q
  · refine (bcast_1b_ab_apply _ bcast_S1x40_S50000x40_0_1 P q).trans ?_
    refine (bcast_b_1b_apply b bcast_S40_S1x40_1 (0 : Fin 1) q).trans ?_
    exact (shapeCast_a_1a_apply b hrow (0 : Fin 1) q).symm

/-- The program's row maximum at row P is the maximum of the row from −∞: the reduction starts at −∞, and the further
    maximum with −∞ changes nothing. -/
theorem refMax_apply (z : FVec Ideal S50000x40 .f32) (P : Fin 50000) :
    refMax z (ix1 P) = rowMax (fun j => z (ix2 P j)) := by
  unfold refMax rowMax
  rw [maximumf_apply, Cert.HostRows.bcast_scalar_apply,
    Cert.RowLayout.hostReduce_maximumf_row z _ reducesTo_S50000x40_S50000_d1 (by decide) h_S_ P]
  rw [constant_apply, constant_apply, negInf_f32]
  exact max_eq_right bot_le

/-- The shifted logits at (P, q). -/
theorem refShift_apply (z : FVec Ideal S50000x40 .f32) (P : Fin 50000) (q : Fin 40) :
    refShift z (ix2 P q) = z (ix2 P q) - rowMax (fun j => z (ix2 P j)) := by
  unfold refShift
  rw [subf_apply]
  refine congrArg (z (ix2 P q) - ·) ?_
  refine (bcast_a1_ab_apply _ bcast_S50000x1_S50000x40_0_1 P q).trans ?_
  refine (bcast_a_a1_apply _ bcast_S50000_S50000x1_0 P (0 : Fin 1)).trans ?_
  exact refMax_apply z P

/-- The program's log-softmax at (P, q) is the log-softmax of row P at q: the sum from 0 is the sum. -/
theorem refLogSoftmax_apply (z : FVec Ideal S50000x40 .f32) (P : Fin 50000) (q : Fin 40) :
    refLogSoftmax z (ix2 P q) = rowLogSoftmax (fun j => z (ix2 P j)) q := by
  unfold refLogSoftmax rowLogSoftmax
  rw [subf_apply, refShift_apply]
  refine congrArg ((z (ix2 P q) - rowMax (fun j => z (ix2 P j))) - ·) ?_
  refine (bcast_a1_ab_apply _ bcast_S50000x1_S50000x40_0_1 P q).trans ?_
  rw [Cert.HostRows.hostLog_at]
  refine congrArg Ideal.log ?_
  refine (bcast_a_a1_apply _ bcast_S50000_S50000x1_0 P (0 : Fin 1)).trans ?_
  show Ideal.hostReduceAdd reducesTo_S50000x40_S50000_d1 (Host.exp (refShift z)) (Ideal.ofBits .f32 0x00000000#32) (ix1 P) = _
  rw [Cert.HostRows.hostReduceAdd_row _ _ reducesTo_S50000x40_S50000_d1 (by decide) P, Ideal.ofBits_zero_f32, zero_add]
  refine Finset.sum_congr rfl fun j _ => ?_
  rw [Cert.HostRows.hostExp_at, refShift_apply]

/-! ## The stage's operations, composed -/

/-- Contents read at the typed reference of the logits' buffer are the contents. -/
theorem ofBuf_logits (p1 : main_v124.ty = (⟨S50000x40, .f32⟩ : BufTy)) (p2 : main_v124.space ≠ .host)
    (p3 : main_v124.isScoped = false) (v : main_v124.ty.Contents (Elt Ideal)) :
    (StableHlo.TRef.of main_v124 p1 p2 p3 : StableHlo.TRef sig ⟨S50000x40, .f32⟩).ofBuf v = v := rfl

/-- Contents written at the typed reference of the result's buffer are the contents. -/
theorem toBuf_result (p1 : main_v125.ty = (⟨S50000x40, .f32⟩ : BufTy)) (p2 : main_v125.space ≠ .host)
    (p3 : main_v125.isScoped = false) (v : (⟨S50000x40, .f32⟩ : BufTy).Contents (Elt Ideal)) :
    (StableHlo.TRef.of main_v125 p1 p2 p3 : StableHlo.TRef sig ⟨S50000x40, .f32⟩).toBuf v = v := rfl

/-- What the stage's operations leave in the result buffer, from any contents W: the two halves composed, over W at
    the features, the weights and the bias vector. -/
theorem after_fin (W : Valuation τ sig (Elt Ideal)) :
    StableHlo.after (RefOps.fin (F := Ideal)) W (Proc.devRef .tc main_v125)
      = refLogSoftmax (refLogits (W (Proc.devRef .tc main_v120)) (W (Proc.devRef .tc main_arg12)) (W (Proc.devRef .tc main_arg13))) := by
  unfold RefOps.fin
  after_results
  simp only [Cert.ReferenceIdeal.Results.ofBuf_toBuf, ofBuf_logits, toBuf_result]
  unfold refLogSoftmax refShift refMax refLogits
  rfl

/-- THE RESULT of the reference's last stage, from any contents W: the log-softmax of the linear map of the features,
    the weights and the bias vector recast as a row (by any proof that the recast is one). -/
theorem fin (W : Valuation τ sig (Elt Ideal)) (hrow : S40.ShapeCasts S1x40) :
    (StableHlo.after (RefOps.fin (F := Ideal)) W (Proc.devRef .tc main_v125) : S50000x40.Idx → EReal)
      = logSoftmaxLinear (W (Proc.devRef .tc main_v120)) (W (Proc.devRef .tc main_arg12))
          (shapeCast S1x40 (W (Proc.devRef .tc main_arg13)) hrow) := by
  rw [after_fin]
  funext i
  obtain ⟨P, q, rfl⟩ : ∃ (P : Fin 50000) (q : Fin 40), i = ix2 P q := ⟨i 0, i 1, eq_ix2 i⟩
  rw [refLogSoftmax_apply]
  show _ = logSoftmaxRows _ _ _ (ix2 P q)
  rw [Cert.Spec.logSoftmaxRows_apply]
  exact congrArg (fun z => rowLogSoftmax z q) (funext fun j => refLogits_apply _ _ _ hrow P j)

end Cert.ReferenceIdeal.Regions

end
-- ==== Proof.Bridge.lean ====
/-
  The two programs compute the same array. Walking the kernel program's segments in order — the graph's structure,
  then per layer a dense-transform kernel, the host's message passing and statistics, a normalisation kernel, and at
  the end the classifier kernel — each buffer the next segment reads holds, at that point, what the reference
  program's corresponding buffer holds at the corresponding point of its own run: a kernel's output array is the
  whole-array function the reference's host lines compute (a matrix product; the normalisation with its rectifier;
  the classifier with its log-softmax), and the host stretches between the kernels are the same arithmetic in both.
-/
import proofs.«143667_j15642270892451_1_alg».proof.Proof.GlueChain
import proofs.«143667_j15642270892451_1_alg».proof.Proof.GlueKeepK
import proofs.«143667_j15642270892451_1_alg».proof.Proof.GlueKeepR
import proofs.«143667_j15642270892451_1_alg».proof.Proof.MatmulRegions
import proofs.«143667_j15642270892451_1_alg».proof.Proof.NormKernel
import proofs.«143667_j15642270892451_1_alg».proof.Proof.NormRef
import proofs.«143667_j15642270892451_1_alg».proof.Proof.FinalKernel
import proofs.«143667_j15642270892451_1_alg».proof.Proof.FinalRef

set_option maxRecDepth 16384

noncomputable section

namespace Cert.Glue

open Idealize.ShloMosaic Idealize.ShloMosaic.TcCoe Idealize.SL.Sem Idealize.ShloMosaic.StableHlo

/-! ## The reference's three dense transforms, read at their result -/

theorem dot1_read (W : RV) : (after (Cert.ReferenceIdeal.RefOps.dot1 (F := Ideal)) W (Proc.devRef .tc Cert.ReferenceIdeal.main_v30) : Cert.KernelIdeal.S50000x256.Idx → EReal)
    = Host.dotGeneral (F := Ideal) (φ₁ := .f32) (φ₂ := .f32) Cert.ReferenceIdeal.dot_S50000x128_S128x256_S50000x256_1_0_0_1_n_n none (W (Proc.devRef .tc Cert.ReferenceIdeal.main_arg0)) (W (Proc.devRef .tc Cert.ReferenceIdeal.main_arg2)) := by
  dsimp only [Cert.ReferenceIdeal.RefOps.dot1]; read_fold

theorem dot2_read (W : RV) : (after (Cert.ReferenceIdeal.RefOps.dot2 (F := Ideal)) W (Proc.devRef .tc Cert.ReferenceIdeal.main_v67) : Cert.KernelIdeal.S50000x256.Idx → EReal)
    = Host.dotGeneral (F := Ideal) (φ₁ := .f32) (φ₂ := .f32) Cert.ReferenceIdeal.dot_S50000x256_S256x256_S50000x256_1_0_0_1_n_n none (W (Proc.devRef .tc Cert.ReferenceIdeal.main_v66)) (W (Proc.devRef .tc Cert.ReferenceIdeal.main_arg6)) := by
  dsimp only [Cert.ReferenceIdeal.RefOps.dot2]; read_fold

theorem dot3_read (W : RV) : (after (Cert.ReferenceIdeal.RefOps.dot3 (F := Ideal)) W (Proc.devRef .tc Cert.ReferenceIdeal.main_v104) : Cert.KernelIdeal.S50000x40.Idx → EReal)
    = Host.dotGeneral (F := Ideal) (φ₁ := .f32) (φ₂ := .f32) Cert.ReferenceIdeal.dot_S50000x256_S256x40_S50000x40_1_0_0_1_n_n none (W (Proc.devRef .tc Cert.ReferenceIdeal.main_v103)) (W (Proc.devRef .tc Cert.ReferenceIdeal.main_arg10)) := by
  dsimp only [Cert.ReferenceIdeal.RefOps.dot3]; read_fold

/-! ## Congruence, spelt out (the arrays compared below are long terms: equal arguments give equal values, with no
search through them) -/

theorem congr_fun2 {α β γ : Sort _} (f : α → β → γ) {a a' : α} {b b' : β} (h1 : a = a') (h2 : b = b') : f a b = f a' b' := by
  subst h1 h2; rfl
theorem congr_fun3 {α β γ δ : Sort _} (f : α → β → γ → δ) {a a' : α} {b b' : β} {c c' : γ} (h1 : a = a') (h2 : b = b') (h3 : c = c') :
    f a b c = f a' b' c' := by
  subst h1 h2 h3; rfl
theorem congr_fun5 {α β γ δ ε ζ : Sort _} (f : α → β → γ → δ → ε → ζ) {a a' : α} {b b' : β} {c c' : γ} {d d' : δ} {e e' : ε}
    (h1 : a = a') (h2 : b = b') (h3 : c = c') (h4 : d = d') (h5 : e = e') : f a b c d e = f a' b' c' d' e' := by
  subst h1 h2 h3 h4 h5; rfl

/-! ## The walk -/

section Walk

variable (m : (ℓ : Loc Cert.KernelIdeal.nD Cert.KernelIdeal.τ Cert.KernelIdeal.sig) → Buf (Elt Ideal) ℓ) (ρ : Dev Cert.KernelIdeal.nD → PrngReg)
  (V : RV) (c : Dev Cert.KernelIdeal.nD)

/-- The two runs start from memories that agree on the fourteen argument arrays. -/
structure Agree : Prop where
  a0 : V (Proc.devRef .tc Cert.ReferenceIdeal.main_arg0) = m ((c.tc : Thread Cert.KernelIdeal.nD Cert.KernelIdeal.τ).loc Cert.KernelIdeal.main_arg0)
  a1 : V (Proc.devRef .tc Cert.ReferenceIdeal.main_arg1) = m ((c.tc : Thread Cert.KernelIdeal.nD Cert.KernelIdeal.τ).loc Cert.KernelIdeal.main_arg1)
  a2 : V (Proc.devRef .tc Cert.ReferenceIdeal.main_arg2) = m ((c.tc : Thread Cert.KernelIdeal.nD Cert.KernelIdeal.τ).loc Cert.KernelIdeal.main_arg2)
  a3 : V (Proc.devRef .tc Cert.ReferenceIdeal.main_arg3) = m ((c.tc : Thread Cert.KernelIdeal.nD Cert.KernelIdeal.τ).loc Cert.KernelIdeal.main_arg3)
  a4 : V (Proc.devRef .tc Cert.ReferenceIdeal.main_arg4) = m ((c.tc : Thread Cert.KernelIdeal.nD Cert.KernelIdeal.τ).loc Cert.KernelIdeal.main_arg4)
  a5 : V (Proc.devRef .tc Cert.ReferenceIdeal.main_arg5) = m ((c.tc : Thread Cert.KernelIdeal.nD Cert.KernelIdeal.τ).loc Cert.KernelIdeal.main_arg5)
  a6 : V (Proc.devRef .tc Cert.ReferenceIdeal.main_arg6) = m ((c.tc : Thread Cert.KernelIdeal.nD Cert.KernelIdeal.τ).loc Cert.KernelIdeal.main_arg6)
  a7 : V (Proc.devRef .tc Cert.ReferenceIdeal.main_arg7) = m ((c.tc : Thread Cert.KernelIdeal.nD Cert.KernelIdeal.τ).loc Cert.KernelIdeal.main_arg7)
  a8 : V (Proc.devRef .tc Cert.ReferenceIdeal.main_arg8) = m ((c.tc : Thread Cert.KernelIdeal.nD Cert.KernelIdeal.τ).loc Cert.KernelIdeal.main_arg8)
  a9 : V (Proc.devRef .tc Cert.ReferenceIdeal.main_arg9) = m ((c.tc : Thread Cert.KernelIdeal.nD Cert.KernelIdeal.τ).loc Cert.KernelIdeal.main_arg9)
  a10 : V (Proc.devRef .tc Cert.ReferenceIdeal.main_arg10) = m ((c.tc : Thread Cert.KernelIdeal.nD Cert.KernelIdeal.τ).loc Cert.KernelIdeal.main_arg10)
  a11 : V (Proc.devRef .tc Cert.ReferenceIdeal.main_arg11) = m ((c.tc : Thread Cert.KernelIdeal.nD Cert.KernelIdeal.τ).loc Cert.KernelIdeal.main_arg11)
  a12 : V (Proc.devRef .tc Cert.ReferenceIdeal.main_arg12) = m ((c.tc : Thread Cert.KernelIdeal.nD Cert.KernelIdeal.τ).loc Cert.KernelIdeal.main_arg12)
  a13 : V (Proc.devRef .tc Cert.ReferenceIdeal.main_arg13) = m ((c.tc : Thread Cert.KernelIdeal.nD Cert.KernelIdeal.τ).loc Cert.KernelIdeal.main_arg13)

variable (hA : Agree m V c)
include hA

/-! ### The graph's structure -/

theorem src_1 : (Cert.KernelIdeal.Gen.W3 m ρ c (Proc.devRef .tc Cert.KernelIdeal.main_v3) : Cert.KernelIdeal.S850000.Idx → Elt Ideal (.i32)) = R1 V (Proc.devRef .tc Cert.ReferenceIdeal.main_v3) := graph_src (Cert.KernelIdeal.Gen.W0 m ρ c) V hA.a1.symm
theorem dst_1 : (Cert.KernelIdeal.Gen.W3 m ρ c (Proc.devRef .tc Cert.KernelIdeal.main_v6) : Cert.KernelIdeal.S850000.Idx → Elt Ideal (.i32)) = R1 V (Proc.devRef .tc Cert.ReferenceIdeal.main_v6) := graph_dst (Cert.KernelIdeal.Gen.W0 m ρ c) V hA.a1.symm
theorem norm_1 : (Cert.KernelIdeal.Gen.W3 m ρ c (Proc.devRef .tc Cert.KernelIdeal.main_v29) : Cert.KernelIdeal.S850000.Idx → EReal) = R1 V (Proc.devRef .tc Cert.ReferenceIdeal.main_v29) := graph_norm (Cert.KernelIdeal.Gen.W0 m ρ c) V hA.a1.symm

/-! ### Layer 1 -/

/-- Argument 0 as both programs hold it where they next read it. -/
theorem arg0_at : (Cert.KernelIdeal.Gen.W3 m ρ c (Proc.devRef .tc Cert.KernelIdeal.main_arg0) : Cert.KernelIdeal.S50000x128.Idx → EReal) = R1 V (Proc.devRef .tc Cert.ReferenceIdeal.main_arg0) :=
  (karg0 m ρ c).trans (hA.a0.symm.trans (rarg0 V).symm)

/-- Argument 2 as both programs hold it where they next read it. -/
theorem arg2_at : (Cert.KernelIdeal.Gen.W3 m ρ c (Proc.devRef .tc Cert.KernelIdeal.main_arg2) : Cert.KernelIdeal.S128x256.Idx → EReal) = R1 V (Proc.devRef .tc Cert.ReferenceIdeal.main_arg2) :=
  (karg2 m ρ c).trans (hA.a2.symm.trans (rarg2 V).symm)

/-- Layer 1's dense transform: the kernel's output array is the reference's matrix product. -/
theorem mm_1 : (Cert.KernelIdeal.Gen.W4 m ρ c (Proc.devRef .tc Cert.KernelIdeal.main_v30) : Cert.KernelIdeal.S50000x256.Idx → EReal) = R2 V (Proc.devRef .tc Cert.ReferenceIdeal.main_v30) := by
  have e0 : (Cert.KernelIdeal.Gen.V3 m ρ c (Pipeline.arrRef Cert.KernelIdeal.spec0 0) : Cert.KernelIdeal.S50000x128.Idx → EReal) = R1 V (Proc.devRef .tc Cert.ReferenceIdeal.main_arg0) := arg0_at m ρ V c hA
  have e1 : (Cert.KernelIdeal.Gen.V3 m ρ c (Pipeline.arrRef Cert.KernelIdeal.spec0 1) : Cert.KernelIdeal.S128x256.Idx → EReal) = R1 V (Proc.devRef .tc Cert.ReferenceIdeal.main_arg2) := arg2_at m ρ V c hA
  exact (Cert.KernelIdeal.Gen.W4_arr m ρ c 2).trans ((Cert.KernelIdeal.Regions.mm0 (Cert.KernelIdeal.Gen.V3 m ρ) c).trans ((congr_fun2 _ e0 e1).trans (dot1_read (R1 V)).symm))

/-- Argument 3 as both programs hold it where they next read it. -/
theorem arg3_at : (Cert.KernelIdeal.Gen.W4 m ρ c (Proc.devRef .tc Cert.KernelIdeal.main_arg3) : Cert.KernelIdeal.S256.Idx → EReal) = R2 V (Proc.devRef .tc Cert.ReferenceIdeal.main_arg3) :=
  (karg3 m ρ c).trans (hA.a3.symm.trans (rarg3 V).symm)

theorem src_2 : (Cert.KernelIdeal.Gen.W4 m ρ c (Proc.devRef .tc Cert.KernelIdeal.main_v3) : Cert.KernelIdeal.S850000.Idx → Elt Ideal (.i32)) = R2 V (Proc.devRef .tc Cert.ReferenceIdeal.main_v3) := (keep4_src m ρ c).trans ((src_1 m ρ V c hA).trans (rkeep2_src V).symm)
theorem dst_2 : (Cert.KernelIdeal.Gen.W4 m ρ c (Proc.devRef .tc Cert.KernelIdeal.main_v6) : Cert.KernelIdeal.S850000.Idx → Elt Ideal (.i32)) = R2 V (Proc.devRef .tc Cert.ReferenceIdeal.main_v6) := (keep4_dst m ρ c).trans ((dst_1 m ρ V c hA).trans (rkeep2_dst V).symm)
theorem norm_2 : (Cert.KernelIdeal.Gen.W4 m ρ c (Proc.devRef .tc Cert.KernelIdeal.main_v29) : Cert.KernelIdeal.S850000.Idx → EReal) = R2 V (Proc.devRef .tc Cert.ReferenceIdeal.main_v29) := (keep4_norm m ρ c).trans ((norm_1 m ρ V c hA).trans (rkeep2_norm V).symm)

/-- Layer 1's aggregated rows. -/
theorem h_3 : (Cert.KernelIdeal.Gen.W7 m ρ c (Proc.devRef .tc Cert.KernelIdeal.main_v46) : Cert.KernelIdeal.S50000x256.Idx → EReal) = R3 V (Proc.devRef .tc Cert.ReferenceIdeal.main_v46) :=
  conv1_h (Cert.KernelIdeal.Gen.W4 m ρ c) (R2 V) (mm_1 m ρ V c hA) (src_2 m ρ V c hA) (dst_2 m ρ V c hA) (norm_2 m ρ V c hA) (arg3_at m ρ V c hA)
/-- Layer 1's column means, as the kernel program's one row. -/
theorem mean_3 : (Cert.KernelIdeal.Gen.W7 m ρ c (Proc.devRef .tc Cert.KernelIdeal.main_v50) : Cert.KernelIdeal.S1x256.Idx → EReal) = shapeCast Cert.KernelIdeal.S1x256 (R3 V (Proc.devRef .tc Cert.ReferenceIdeal.main_v49) : Cert.KernelIdeal.S256.Idx → EReal) Cert.KernelIdeal.Gen.shapeCasts_S256_S1x256 :=
  conv1_mean (Cert.KernelIdeal.Gen.W4 m ρ c) (R2 V) (mm_1 m ρ V c hA) (src_2 m ρ V c hA) (dst_2 m ρ V c hA) (norm_2 m ρ V c hA) (arg3_at m ρ V c hA)
/-- Layer 1's column variances, as one row. -/
theorem var_3 : (Cert.KernelIdeal.Gen.W7 m ρ c (Proc.devRef .tc Cert.KernelIdeal.main_v52) : Cert.KernelIdeal.S1x256.Idx → EReal) = shapeCast Cert.KernelIdeal.S1x256 (R3 V (Proc.devRef .tc Cert.ReferenceIdeal.main_v50) : Cert.KernelIdeal.S256.Idx → EReal) Cert.KernelIdeal.Gen.shapeCasts_S256_S1x256 :=
  conv1_var (Cert.KernelIdeal.Gen.W4 m ρ c) (R2 V) (mm_1 m ρ V c hA) (src_2 m ρ V c hA) (dst_2 m ρ V c hA) (norm_2 m ρ V c hA) (arg3_at m ρ V c hA)
/-- Argument 4 as both programs hold it where they next read it. -/
theorem arg4_at : (Cert.KernelIdeal.Gen.W4 m ρ c (Proc.devRef .tc Cert.KernelIdeal.main_arg4) : Cert.KernelIdeal.S256.Idx → EReal) = R3 V (Proc.devRef .tc Cert.ReferenceIdeal.main_arg4) :=
  (karg4 m ρ c).trans (hA.a4.symm.trans (rarg4 V).symm)

/-- Argument 5 as both programs hold it where they next read it. -/
theorem arg5_at : (Cert.KernelIdeal.Gen.W4 m ρ c (Proc.devRef .tc Cert.KernelIdeal.main_arg5) : Cert.KernelIdeal.S256.Idx → EReal) = R3 V (Proc.devRef .tc Cert.ReferenceIdeal.main_arg5) :=
  (karg5 m ρ c).trans (hA.a5.symm.trans (rarg5 V).symm)

/-- Layer 1's scale row. -/
theorem g_3 : (Cert.KernelIdeal.Gen.W7 m ρ c (Proc.devRef .tc Cert.KernelIdeal.main_v53) : Cert.KernelIdeal.S1x256.Idx → EReal) = shapeCast Cert.KernelIdeal.S1x256 (R3 V (Proc.devRef .tc Cert.ReferenceIdeal.main_arg4) : Cert.KernelIdeal.S256.Idx → EReal) Cert.KernelIdeal.Gen.shapeCasts_S256_S1x256 :=
  (conv1_g (Cert.KernelIdeal.Gen.W4 m ρ c)).trans (by rw [arg4_at m ρ V c hA])
/-- Layer 1's shift row. -/
theorem be_3 : (Cert.KernelIdeal.Gen.W7 m ρ c (Proc.devRef .tc Cert.KernelIdeal.main_v54) : Cert.KernelIdeal.S1x256.Idx → EReal) = shapeCast Cert.KernelIdeal.S1x256 (R3 V (Proc.devRef .tc Cert.ReferenceIdeal.main_arg5) : Cert.KernelIdeal.S256.Idx → EReal) Cert.KernelIdeal.Gen.shapeCasts_S256_S1x256 :=
  (conv1_be (Cert.KernelIdeal.Gen.W4 m ρ c)).trans (by rw [arg5_at m ρ V c hA])

/-- Layer 1's normalisation kernel: its output array is the reference's normalised, rectified array. -/
theorem bn_4 : (Cert.KernelIdeal.Gen.W8 m ρ c (Proc.devRef .tc Cert.KernelIdeal.main_v55) : Cert.KernelIdeal.S50000x256.Idx → EReal) = R4 V (Proc.devRef .tc Cert.ReferenceIdeal.main_v66) := by
  have e0 : (Cert.KernelIdeal.Gen.V7 m ρ c (Pipeline.arrRef Cert.KernelIdeal.spec1 0) : Cert.KernelIdeal.S50000x256.Idx → EReal) = _ := h_3 m ρ V c hA
  have e1 : (Cert.KernelIdeal.Gen.V7 m ρ c (Pipeline.arrRef Cert.KernelIdeal.spec1 1) : Cert.KernelIdeal.S1x256.Idx → EReal) = _ := mean_3 m ρ V c hA
  have e2 : (Cert.KernelIdeal.Gen.V7 m ρ c (Pipeline.arrRef Cert.KernelIdeal.spec1 2) : Cert.KernelIdeal.S1x256.Idx → EReal) = _ := var_3 m ρ V c hA
  have e3 : (Cert.KernelIdeal.Gen.V7 m ρ c (Pipeline.arrRef Cert.KernelIdeal.spec1 3) : Cert.KernelIdeal.S1x256.Idx → EReal) = _ := g_3 m ρ V c hA
  have e4 : (Cert.KernelIdeal.Gen.V7 m ρ c (Pipeline.arrRef Cert.KernelIdeal.spec1 4) : Cert.KernelIdeal.S1x256.Idx → EReal) = _ := be_3 m ρ V c hA
  exact (Cert.KernelIdeal.Gen.W8_arr m ρ c 5).trans ((Cert.KernelIdeal.Regions.bn1 (Cert.KernelIdeal.Gen.V7 m ρ) c).trans ((congr_fun5 Cert.Spec.bnRelu e0 e1 e2 e3 e4).trans (Cert.ReferenceIdeal.Regions.bn1 (R3 V)).symm))

/-! ### Layer 2 -/

/-- Argument 6 as both programs hold it where they next read it. -/
theorem arg6_at : (Cert.KernelIdeal.Gen.W8 m ρ c (Proc.devRef .tc Cert.KernelIdeal.main_arg6) : Cert.KernelIdeal.S256x256.Idx → EReal) = R4 V (Proc.devRef .tc Cert.ReferenceIdeal.main_arg6) :=
  (karg6 m ρ c).trans (hA.a6.symm.trans (rarg6 V).symm)

/-- Layer 2's dense transform. -/
theorem mm_5 : (Cert.KernelIdeal.Gen.W9 m ρ c (Proc.devRef .tc Cert.KernelIdeal.main_v56) : Cert.KernelIdeal.S50000x256.Idx → EReal) = R5 V (Proc.devRef .tc Cert.ReferenceIdeal.main_v67) := by
  have e0 : (Cert.KernelIdeal.Gen.V8 m ρ c (Pipeline.arrRef Cert.KernelIdeal.spec2 0) : Cert.KernelIdeal.S50000x256.Idx → EReal) = _ := bn_4 m ρ V c hA
  have e1 : (Cert.KernelIdeal.Gen.V8 m ρ c (Pipeline.arrRef Cert.KernelIdeal.spec2 1) : Cert.KernelIdeal.S256x256.Idx → EReal) = _ := arg6_at m ρ V c hA
  exact (Cert.KernelIdeal.Gen.W9_arr m ρ c 2).trans ((Cert.KernelIdeal.Regions.mm2 (Cert.KernelIdeal.Gen.V8 m ρ) c).trans ((congr_fun2 _ e0 e1).trans (dot2_read (R4 V)).symm))

/-- Argument 7 as both programs hold it where they next read it. -/
theorem arg7_at : (Cert.KernelIdeal.Gen.W9 m ρ c (Proc.devRef .tc Cert.KernelIdeal.main_arg7) : Cert.KernelIdeal.S256.Idx → EReal) = R5 V (Proc.devRef .tc Cert.ReferenceIdeal.main_arg7) :=
  (karg7 m ρ c).trans (hA.a7.symm.trans (rarg7 V).symm)

theorem src_5 : (Cert.KernelIdeal.Gen.W9 m ρ c (Proc.devRef .tc Cert.KernelIdeal.main_v3) : Cert.KernelIdeal.S850000.Idx → Elt Ideal (.i32)) = R5 V (Proc.devRef .tc Cert.ReferenceIdeal.main_v3) := (keep9_src m ρ c).trans ((src_1 m ρ V c hA).trans (rkeep5_src V).symm)
theorem dst_5 : (Cert.KernelIdeal.Gen.W9 m ρ c (Proc.devRef .tc Cert.KernelIdeal.main_v6) : Cert.KernelIdeal.S850000.Idx → Elt Ideal (.i32)) = R5 V (Proc.devRef .tc Cert.ReferenceIdeal.main_v6) := (keep9_dst m ρ c).trans ((dst_1 m ρ V c hA).trans (rkeep5_dst V).symm)
theorem norm_5 : (Cert.KernelIdeal.Gen.W9 m ρ c (Proc.devRef .tc Cert.KernelIdeal.main_v29) : Cert.KernelIdeal.S850000.Idx → EReal) = R5 V (Proc.devRef .tc Cert.ReferenceIdeal.main_v29) := (keep9_norm m ρ c).trans ((norm_1 m ρ V c hA).trans (rkeep5_norm V).symm)

theorem h_6 : (Cert.KernelIdeal.Gen.W12 m ρ c (Proc.devRef .tc Cert.KernelIdeal.main_v72) : Cert.KernelIdeal.S50000x256.Idx → EReal) = R6 V (Proc.devRef .tc Cert.ReferenceIdeal.main_v83) :=
  conv2_h (Cert.KernelIdeal.Gen.W9 m ρ c) (R5 V) (mm_5 m ρ V c hA) (src_5 m ρ V c hA) (dst_5 m ρ V c hA) (norm_5 m ρ V c hA) (arg7_at m ρ V c hA)
theorem mean_6 : (Cert.KernelIdeal.Gen.W12 m ρ c (Proc.devRef .tc Cert.KernelIdeal.main_v76) : Cert.KernelIdeal.S1x256.Idx → EReal) = shapeCast Cert.KernelIdeal.S1x256 (R6 V (Proc.devRef .tc Cert.ReferenceIdeal.main_v86) : Cert.KernelIdeal.S256.Idx → EReal) Cert.KernelIdeal.Gen.shapeCasts_S256_S1x256 :=
  conv2_mean (Cert.KernelIdeal.Gen.W9 m ρ c) (R5 V) (mm_5 m ρ V c hA) (src_5 m ρ V c hA) (dst_5 m ρ V c hA) (norm_5 m ρ V c hA) (arg7_at m ρ V c hA)
theorem var_6 : (Cert.KernelIdeal.Gen.W12 m ρ c (Proc.devRef .tc Cert.KernelIdeal.main_v78) : Cert.KernelIdeal.S1x256.Idx → EReal) = shapeCast Cert.KernelIdeal.S1x256 (R6 V (Proc.devRef .tc Cert.ReferenceIdeal.main_v87) : Cert.KernelIdeal.S256.Idx → EReal) Cert.KernelIdeal.Gen.shapeCasts_S256_S1x256 :=
  conv2_var (Cert.KernelIdeal.Gen.W9 m ρ c) (R5 V) (mm_5 m ρ V c hA) (src_5 m ρ V c hA) (dst_5 m ρ V c hA) (norm_5 m ρ V c hA) (arg7_at m ρ V c hA)
/-- Argument 8 as both programs hold it where they next read it. -/
theorem arg8_at : (Cert.KernelIdeal.Gen.W9 m ρ c (Proc.devRef .tc Cert.KernelIdeal.main_arg8) : Cert.KernelIdeal.S256.Idx → EReal) = R6 V (Proc.devRef .tc Cert.ReferenceIdeal.main_arg8) :=
  (karg8 m ρ c).trans (hA.a8.symm.trans (rarg8 V).symm)

/-- Argument 9 as both programs hold it where they next read it. -/
theorem arg9_at : (Cert.KernelIdeal.Gen.W9 m ρ c (Proc.devRef .tc Cert.KernelIdeal.main_arg9) : Cert.KernelIdeal.S256.Idx → EReal) = R6 V (Proc.devRef .tc Cert.ReferenceIdeal.main_arg9) :=
  (karg9 m ρ c).trans (hA.a9.symm.trans (rarg9 V).symm)

theorem g_6 : (Cert.KernelIdeal.Gen.W12 m ρ c (Proc.devRef .tc Cert.KernelIdeal.main_v79) : Cert.KernelIdeal.S1x256.Idx → EReal) = shapeCast Cert.KernelIdeal.S1x256 (R6 V (Proc.devRef .tc Cert.ReferenceIdeal.main_arg8) : Cert.KernelIdeal.S256.Idx → EReal) Cert.KernelIdeal.Gen.shapeCasts_S256_S1x256 :=
  (conv2_g (Cert.KernelIdeal.Gen.W9 m ρ c)).trans (by rw [arg8_at m ρ V c hA])
theorem be_6 : (Cert.KernelIdeal.Gen.W12 m ρ c (Proc.devRef .tc Cert.KernelIdeal.main_v80) : Cert.KernelIdeal.S1x256.Idx → EReal) = shapeCast Cert.KernelIdeal.S1x256 (R6 V (Proc.devRef .tc Cert.ReferenceIdeal.main_arg9) : Cert.KernelIdeal.S256.Idx → EReal) Cert.KernelIdeal.Gen.shapeCasts_S256_S1x256 :=
  (conv2_be (Cert.KernelIdeal.Gen.W9 m ρ c)).trans (by rw [arg9_at m ρ V c hA])

/-- Layer 2's normalisation kernel. -/
theorem bn_7 : (Cert.KernelIdeal.Gen.W13 m ρ c (Proc.devRef .tc Cert.KernelIdeal.main_v81) : Cert.KernelIdeal.S50000x256.Idx → EReal) = R7 V (Proc.devRef .tc Cert.ReferenceIdeal.main_v103) := by
  have e0 : (Cert.KernelIdeal.Gen.V12 m ρ c (Pipeline.arrRef Cert.KernelIdeal.spec3 0) : Cert.KernelIdeal.S50000x256.Idx → EReal) = _ := h_6 m ρ V c hA
  have e1 : (Cert.KernelIdeal.Gen.V12 m ρ c (Pipeline.arrRef Cert.KernelIdeal.spec3 1) : Cert.KernelIdeal.S1x256.Idx → EReal) = _ := mean_6 m ρ V c hA
  have e2 : (Cert.KernelIdeal.Gen.V12 m ρ c (Pipeline.arrRef Cert.KernelIdeal.spec3 2) : Cert.KernelIdeal.S1x256.Idx → EReal) = _ := var_6 m ρ V c hA
  have e3 : (Cert.KernelIdeal.Gen.V12 m ρ c (Pipeline.arrRef Cert.KernelIdeal.spec3 3) : Cert.KernelIdeal.S1x256.Idx → EReal) = _ := g_6 m ρ V c hA
  have e4 : (Cert.KernelIdeal.Gen.V12 m ρ c (Pipeline.arrRef Cert.KernelIdeal.spec3 4) : Cert.KernelIdeal.S1x256.Idx → EReal) = _ := be_6 m ρ V c hA
  exact (Cert.KernelIdeal.Gen.W13_arr m ρ c 5).trans ((Cert.KernelIdeal.Regions.bn3 (Cert.KernelIdeal.Gen.V12 m ρ) c).trans ((congr_fun5 Cert.Spec.bnRelu e0 e1 e2 e3 e4).trans (Cert.ReferenceIdeal.Regions.bn2 (R6 V)).symm))

/-! ### Layer 3 and the classifier -/

/-- Argument 10 as both programs hold it where they next read it. -/
theorem arg10_at : (Cert.KernelIdeal.Gen.W13 m ρ c (Proc.devRef .tc Cert.KernelIdeal.main_arg10) : Cert.KernelIdeal.S256x40.Idx → EReal) = R7 V (Proc.devRef .tc Cert.ReferenceIdeal.main_arg10) :=
  (karg10 m ρ c).trans (hA.a10.symm.trans (rarg10 V).symm)

/-- Layer 3's dense transform. -/
theorem mm_8 : (Cert.KernelIdeal.Gen.W14 m ρ c (Proc.devRef .tc Cert.KernelIdeal.main_v82) : Cert.KernelIdeal.S50000x40.Idx → EReal) = R8 V (Proc.devRef .tc Cert.ReferenceIdeal.main_v104) := by
  have e0 : (Cert.KernelIdeal.Gen.V13 m ρ c (Pipeline.arrRef Cert.KernelIdeal.spec4 0) : Cert.KernelIdeal.S50000x256.Idx → EReal) = _ := bn_7 m ρ V c hA
  have e1 : (Cert.KernelIdeal.Gen.V13 m ρ c (Pipeline.arrRef Cert.KernelIdeal.spec4 1) : Cert.KernelIdeal.S256x40.Idx → EReal) = _ := arg10_at m ρ V c hA
  exact (Cert.KernelIdeal.Gen.W14_arr m ρ c 2).trans ((Cert.KernelIdeal.Regions.mm4 (Cert.KernelIdeal.Gen.V13 m ρ) c).trans ((congr_fun2 _ e0 e1).trans (dot3_read (R7 V)).symm))

/-- Argument 11 as both programs hold it where they next read it. -/
theorem arg11_at : (Cert.KernelIdeal.Gen.W14 m ρ c (Proc.devRef .tc Cert.KernelIdeal.main_arg11) : Cert.KernelIdeal.S40.Idx → EReal) = R8 V (Proc.devRef .tc Cert.ReferenceIdeal.main_arg11) :=
  (karg11 m ρ c).trans (hA.a11.symm.trans (rarg11 V).symm)

theorem src_8 : (Cert.KernelIdeal.Gen.W14 m ρ c (Proc.devRef .tc Cert.KernelIdeal.main_v3) : Cert.KernelIdeal.S850000.Idx → Elt Ideal (.i32)) = R8 V (Proc.devRef .tc Cert.ReferenceIdeal.main_v3) := (keep14_src m ρ c).trans ((src_1 m ρ V c hA).trans (rkeep8_src V).symm)
theorem dst_8 : (Cert.KernelIdeal.Gen.W14 m ρ c (Proc.devRef .tc Cert.KernelIdeal.main_v6) : Cert.KernelIdeal.S850000.Idx → Elt Ideal (.i32)) = R8 V (Proc.devRef .tc Cert.ReferenceIdeal.main_v6) := (keep14_dst m ρ c).trans ((dst_1 m ρ V c hA).trans (rkeep8_dst V).symm)
theorem norm_8 : (Cert.KernelIdeal.Gen.W14 m ρ c (Proc.devRef .tc Cert.KernelIdeal.main_v29) : Cert.KernelIdeal.S850000.Idx → EReal) = R8 V (Proc.devRef .tc Cert.ReferenceIdeal.main_v29) := (keep14_norm m ρ c).trans ((norm_1 m ρ V c hA).trans (rkeep8_norm V).symm)

theorem h_9 : (Cert.KernelIdeal.Gen.W15 m ρ c (Proc.devRef .tc Cert.KernelIdeal.main_v98) : Cert.KernelIdeal.S50000x40.Idx → EReal) = R9 V (Proc.devRef .tc Cert.ReferenceIdeal.main_v120) :=
  conv3_h (Cert.KernelIdeal.Gen.W14 m ρ c) (R8 V) (mm_8 m ρ V c hA) (src_8 m ρ V c hA) (dst_8 m ρ V c hA) (norm_8 m ρ V c hA) (arg11_at m ρ V c hA)
/-- Argument 13 as both programs hold it where they next read it. -/
theorem arg13_at : (Cert.KernelIdeal.Gen.W14 m ρ c (Proc.devRef .tc Cert.KernelIdeal.main_arg13) : Cert.KernelIdeal.S40.Idx → EReal) = R9 V (Proc.devRef .tc Cert.ReferenceIdeal.main_arg13) :=
  (karg13 m ρ c).trans (hA.a13.symm.trans (rarg13 V).symm)

/-- Argument 12 as both programs hold it where they next read it. -/
theorem arg12_at : (Cert.KernelIdeal.Gen.W15 m ρ c (Proc.devRef .tc Cert.KernelIdeal.main_arg12) : Cert.KernelIdeal.S40x40.Idx → EReal) = R9 V (Proc.devRef .tc Cert.ReferenceIdeal.main_arg12) :=
  (karg12 m ρ c).trans (hA.a12.symm.trans (rarg12 V).symm)

/-- The classifier's bias row. -/
theorem brow_9 : (Cert.KernelIdeal.Gen.W15 m ρ c (Proc.devRef .tc Cert.KernelIdeal.main_v99) : Cert.KernelIdeal.S1x40.Idx → EReal) = shapeCast Cert.KernelIdeal.S1x40 (R9 V (Proc.devRef .tc Cert.ReferenceIdeal.main_arg13) : Cert.KernelIdeal.S40.Idx → EReal) Cert.KernelIdeal.Gen.shapeCasts_S40_S1x40 :=
  (conv3_brow (Cert.KernelIdeal.Gen.W14 m ρ c)).trans (by rw [arg13_at m ρ V c hA])

/-- The classifier kernel: its output array is the reference's result. -/
theorem out_10 : (Cert.KernelIdeal.Gen.W16 m ρ c (Proc.devRef .tc Cert.KernelIdeal.main_v100) : Cert.KernelIdeal.S50000x40.Idx → EReal) = R10 V (Proc.devRef .tc Cert.ReferenceIdeal.main_v125) := by
  have e0 : (Cert.KernelIdeal.Gen.V15 m ρ c (Pipeline.arrRef Cert.KernelIdeal.spec5 0) : Cert.KernelIdeal.S50000x40.Idx → EReal) = _ := h_9 m ρ V c hA
  have e1 : (Cert.KernelIdeal.Gen.V15 m ρ c (Pipeline.arrRef Cert.KernelIdeal.spec5 1) : Cert.KernelIdeal.S40x40.Idx → EReal) = _ := arg12_at m ρ V c hA
  have e2 : (Cert.KernelIdeal.Gen.V15 m ρ c (Pipeline.arrRef Cert.KernelIdeal.spec5 2) : Cert.KernelIdeal.S1x40.Idx → EReal) = _ := brow_9 m ρ V c hA
  exact (Cert.KernelIdeal.Gen.W16_arr m ρ c 3).trans ((Cert.KernelIdeal.Regions.fin5 (Cert.KernelIdeal.Gen.V15 m ρ) c).trans ((congr_fun3 Cert.Spec.logSoftmaxLinear e0 e1 e2).trans (Cert.ReferenceIdeal.Regions.fin (R9 V) Cert.KernelIdeal.Gen.shapeCasts_S40_S1x40).symm))

/-- The kernel program's result array is the reference program's. -/
theorem result_eq : (Cert.KernelIdeal.Gen.W16 m ρ c (Proc.devRef .tc Cert.KernelIdeal.main_v100) : Cert.KernelIdeal.S50000x40.Idx → EReal) = after (Cert.ReferenceIdeal.RefOps.all (F := Ideal)) V (Proc.devRef .tc Cert.ReferenceIdeal.main_v125) := by
  rw [all_eq]
  exact out_10 m ρ V c hA

end Walk

end Cert.Glue

end
-- ==== Proof.lean ====
/-
  The certificate: a three-layer graph convolution network whose dense transforms, normalisations and classifier run
  as six pipelined kernels over tiles of 5000 of the 50000 node rows, against the same network written in plain
  array operations.

  At exact arithmetic the two compute one function. A dense-transform kernel's row tile of the product is the
  product of the row tile, so its output array is the whole matrix product (rounding the factors to a shorter float
  format is the identity there); the normalisation kernel applies, entry by entry, the same expression of the entry,
  the column's mean and variance, and the scale and shift as the reference's broadcast arithmetic; the classifier
  kernel's row-wise log-softmax of a product plus bias is the reference's, row by row. Everything between the
  kernels — the graph's edge lists and weights, the gather / scale / scatter-add message passing, the batch means
  and variances — is the same host arithmetic in both programs (module Bridge walks the segments).

  The three frames: the kernel programs' are the generated frame certificates; the reference's is its run as the
  fold of its operations, none of which writes an argument. The idealisation rewrote nothing, so the fourth claim is
  trivial. For the last, the kernel program's run ends with its result buffer at the last boundary's contents
  (module KernelRun), the reference's with every buffer at the fold of its operations (module RefRun), and those
  two arrays are equal when the arguments are (module Bridge).
-/
import proofs.«143667_j15642270892451_1_alg».proof.Defs
import proofs.«143667_j15642270892451_1_alg».proof.Proof.Gen.Kernel
import proofs.«143667_j15642270892451_1_alg».proof.Proof.Gen.Kernel.Skeleton
import proofs.«143667_j15642270892451_1_alg».proof.Proof.Gen.Kernel.Launch
import proofs.«143667_j15642270892451_1_alg».proof.Proof.Gen.Kernel.Points
import proofs.«143667_j15642270892451_1_alg».proof.Proof.Gen.Kernel.Frame
import proofs.«143667_j15642270892451_1_alg».proof.Proof.Gen.KernelIdeal
import proofs.«143667_j15642270892451_1_alg».proof.Proof.Gen.KernelIdeal.Skeleton
import proofs.«143667_j15642270892451_1_alg».proof.Proof.Gen.KernelIdeal.Launch
import proofs.«143667_j15642270892451_1_alg».proof.Proof.Gen.KernelIdeal.Points
import proofs.«143667_j15642270892451_1_alg».proof.Proof.Gen.KernelIdeal.Frame
import proofs.«143667_j15642270892451_1_alg».proof.Proof.Gen.ReferenceIdeal
import proofs.«143667_j15642270892451_1_alg».proof.Proof.Gen.Pre_finite_inputs
import proofs.«143667_j15642270892451_1_alg».proof.Proof.KernelRun
import proofs.«143667_j15642270892451_1_alg».proof.Proof.RefRun
import proofs.«143667_j15642270892451_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ => Cert.ReferenceIdeal.RefRun.frame (F := Ideal) m ρ

theorem preserves : Cert.preserves_Kernel_KernelIdeal := trivial

/-- Both idealised programs run, and end with the same result array: the kernel program's last boundary contents at
    its result buffer, which the walk through the segments identifies with the reference's fold at its own. -/
theorem algebraic : Cert.algebraic_KernelIdeal_ReferenceIdeal := by
  intro m ρ m' ρ' _ hagree
  refine ⟨fun c => Cert.KernelIdeal.Gen.W16 m ρ c (Proc.devRef .tc Cert.KernelIdeal.main_v100),
    Cert.KernelIdeal.KRun.run (F := Ideal) m ρ, ?_⟩
  refine (θ_run Cert.ReferenceIdeal.defs _ _).mono (fun r h c => ⟨?_, ?_⟩) (Cert.ReferenceIdeal.RefRun.run (F := Ideal) m' ρ')
  · exact (h c Cert.ReferenceIdeal.main_v125).trans (Cert.Glue.result_eq m ρ (StableHlo.launchContents m' c) c
      ⟨(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2⟩).symm
  · exact ⟨(h c Cert.ReferenceIdeal.main_arg0).trans (Cert.ReferenceIdeal.RefRun.kept_arg0 _),
      (h c Cert.ReferenceIdeal.main_arg1).trans (Cert.ReferenceIdeal.RefRun.kept_arg1 _),
      (h c Cert.ReferenceIdeal.main_arg2).trans (Cert.ReferenceIdeal.RefRun.kept_arg2 _),
      (h c Cert.ReferenceIdeal.main_arg3).trans (Cert.ReferenceIdeal.RefRun.kept_arg3 _),
      (h c Cert.ReferenceIdeal.main_arg4).trans (Cert.ReferenceIdeal.RefRun.kept_arg4 _),
      (h c Cert.ReferenceIdeal.main_arg5).trans (Cert.ReferenceIdeal.RefRun.kept_arg5 _),
      (h c Cert.ReferenceIdeal.main_arg6).trans (Cert.ReferenceIdeal.RefRun.kept_arg6 _),
      (h c Cert.ReferenceIdeal.main_arg7).trans (Cert.ReferenceIdeal.RefRun.kept_arg7 _),
      (h c Cert.ReferenceIdeal.main_arg8).trans (Cert.ReferenceIdeal.RefRun.kept_arg8 _),
      (h c Cert.ReferenceIdeal.main_arg9).trans (Cert.ReferenceIdeal.RefRun.kept_arg9 _),
      (h c Cert.ReferenceIdeal.main_arg10).trans (Cert.ReferenceIdeal.RefRun.kept_arg10 _),
      (h c Cert.ReferenceIdeal.main_arg11).trans (Cert.ReferenceIdeal.RefRun.kept_arg11 _),
      (h c Cert.ReferenceIdeal.main_arg12).trans (Cert.ReferenceIdeal.RefRun.kept_arg12 _),
      (h c Cert.ReferenceIdeal.main_arg13).trans (Cert.ReferenceIdeal.RefRun.kept_arg13 _)⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
